-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x4096 : Shape := ⟨2, ![2048, 4096]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S2048 : S_.BroadcastsInDim S2048 (![] : Fin 0 → Fin S2048.rank)
  reducesTo_S2048_S_d0 : S2048.ReducesTo [0] S_

variable [Facts]

def fn_part3 {F : FTy → Type} [FloatOps F] (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  main_v53

def fn_part2 {F : FTy → Type} [FloatOps F] (main_arg7 : FVec F S2048x4096 .f32) (main_arg8 : FVec F S2048 .f32) (main_arg9 : FVec F S2048x4096 .f32) (main_arg10 : FVec F S2048 .f32) (main_v33 : IVec S_ 1) : IVec S_ 1 :=
  let main_v34 : FVec F S2048x4096 .f32 := Host.absf main_arg7
  let main_cst_12 : FVec F S_ .f32 := constant S_ .f32 0x7F800000#32
  let main_v35 : FVec F S2048x4096 .f32 := broadcastInDim S2048x4096 ![] bcast_S_S2048x4096 main_cst_12
  let main_v36 : IVec S2048x4096 1 := cmpf .olt main_v34 main_v35
  let main_c_13 : IVec S_ 1 := constantI S_ 1 1#1
  let main_v37 : IVec S_ 1 := (fun x v => Host.reduce IntOp.andi x v reducesTo_S2048x4096_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x4096 .f32 := Host.absf main_arg9
  let main_cst_16 : FVec F S_ .f32 := constant S_ .f32 0x7F800000#32
  let main_v45 : FVec F S2048x4096 .f32 := broadcastInDim S2048x4096 ![] bcast_S_S2048x4096 main_cst_16
  let main_v46 : IVec S2048x4096 1 := cmpf .olt main_v44 main_v45
  let main_c_17 : IVec S_ 1 := constantI S_ 1 1#1
  let main_v47 : IVec S_ 1 := (fun x v => Host.reduce IntOp.andi x v reducesTo_S2048x4096_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_v48 main_v49 main_v50

def fn_part1 {F : FTy → Type} [FloatOps F] (main_arg4 : FVec F S2048 .f32) (main_arg5 : FVec F S2048x4096 .f32) (main_arg6 : FVec F S2048 .f32) (main_arg7 : FVec F S2048x4096 .f32) (main_arg8 : FVec F S2048 .f32) (main_arg9 : FVec F S2048x4096 .f32) (main_arg10 : FVec F S2048 .f32) (main_v13 : IVec S_ 1) (main_v16 : IVec S2048x4096 1) : IVec S_ 1 :=
  let main_c_5 : IVec S_ 1 := constantI S_ 1 1#1
  let main_v17 : IVec S_ 1 := (fun x v => Host.reduce IntOp.andi x v reducesTo_S2048x4096_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x4096 .f32 := Host.absf main_arg5
  let main_cst_8 : FVec F S_ .f32 := constant S_ .f32 0x7F800000#32
  let main_v25 : FVec F S2048x4096 .f32 := broadcastInDim S2048x4096 ![] bcast_S_S2048x4096 main_cst_8
  let main_v26 : IVec S2048x4096 1 := cmpf .olt main_v24 main_v25
  let main_c_9 : IVec S_ 1 := constantI S_ 1 1#1
  let main_v27 : IVec S_ 1 := (fun x v => Host.reduce IntOp.andi x v reducesTo_S2048x4096_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x2048 .f32) (main_arg1 : FVec F S4096x2048 .f32) (main_arg2 : FVec F S4096x2048 .f32) (main_arg3 : FVec F S2048x4096 .f32) (main_arg4 : FVec F S2048 .f32) (main_arg5 : FVec F S2048x4096 .f32) (main_arg6 : FVec F S2048 .f32) (main_arg7 : FVec F S2048x4096 .f32) (main_arg8 : FVec F S2048 .f32) (main_arg9 : FVec F S2048x4096 .f32) (main_arg10 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048x4096 .f32 := Host.absf main_arg3
  let main_cst_4 : FVec F S_ .f32 := constant S_ .f32 0x7F800000#32
  let main_v15 : FVec F S2048x4096 .f32 := broadcastInDim S2048x4096 ![] bcast_S_S2048x4096 main_cst_4
  let main_v16 : IVec S2048x4096 1 := cmpf .olt main_v14 main_v15
  fn_part1 (F := F) main_arg4 main_arg5 main_arg6 main_arg7 main_arg8 main_arg9 main_arg10 main_v13 main_v16
-- ==== Kernel.lean ====
abbrev S4096x2048 : Shape := ⟨2, ![4096, 2048]⟩
abbrev S2048x4096 : Shape := ⟨2, ![2048, 4096]⟩
abbrev S2048 : Shape := ⟨1, ![2048]⟩
abbrev S8192x4096 : Shape := ⟨2, ![8192, 4096]⟩
abbrev S8192 : Shape := ⟨1, ![8192]⟩
abbrev S8192x2048 : Shape := ⟨2, ![8192, 2048]⟩
abbrev S2048x8192 : Shape := ⟨2, ![2048, 8192]⟩
abbrev S2048x4x2048 : Shape := ⟨3, ![2048, 4, 2048]⟩
abbrev S4x2048 : Shape := ⟨2, ![4, 2048]⟩
abbrev S1024x1024 : Shape := ⟨2, ![1024, 1024]⟩
abbrev S1024x4x256 : Shape := ⟨3, ![1024, 4, 256]⟩
abbrev S4x256 : Shape := ⟨2, ![4, 256]⟩
abbrev S1024x256 : Shape := ⟨2, ![1024, 256]⟩
abbrev S1024x1x256 : Shape := ⟨3, ![1024, 1, 256]⟩
abbrev S1x256 : Shape := ⟨2, ![1, 256]⟩
abbrev S256 : Shape := ⟨1, ![256]⟩

abbrev nBuf : Space → Nat
  | .hbm => 26
  | .vmem => 20
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x4096, .f32⟩
  | .hbm, ⟨4, _⟩ => ⟨S2048, .f32⟩
  | .hbm, ⟨5, _⟩ => ⟨S2048x4096, .f32⟩
  | .hbm, ⟨6, _⟩ => ⟨S2048, .f32⟩
  | .hbm, ⟨7, _⟩ => ⟨S2048x4096, .f32⟩
  | .hbm, ⟨8, _⟩ => ⟨S2048, .f32⟩
  | .hbm, ⟨9, _⟩ => ⟨S2048x4096, .f32⟩
  | .hbm, ⟨10, _⟩ => ⟨S2048, .f32⟩
  | .hbm, ⟨11, _⟩ => ⟨S8192x4096, .f32⟩
  | .hbm, ⟨12, _⟩ => ⟨S8192, .f32⟩
  | .hbm, ⟨13, _⟩ => ⟨S8192x2048, .f32⟩
  | .hbm, ⟨14, _⟩ => ⟨S8192x2048, .f32⟩
  | .hbm, ⟨15, _⟩ => ⟨S2048x8192, .f32⟩
  | .hbm, ⟨16, _⟩ => ⟨S2048x4x2048, .f32⟩
  | .hbm, ⟨17, _⟩ => ⟨S2048x4x2048, .bf16⟩
  | .hbm, ⟨18, _⟩ => ⟨S2048x8192, .f32⟩
  | .hbm, ⟨19, _⟩ => ⟨S2048x4x2048, .f32⟩
  | .hbm, ⟨20, _⟩ => ⟨S2048x4x2048, .bf16⟩
  | .hbm, ⟨21, _⟩ => ⟨S4x2048, .f32⟩
  | .hbm, ⟨22, _⟩ => ⟨S4096x2048, .bf16⟩
  | .hbm, ⟨23, _⟩ => ⟨S4096x2048, .bf16⟩
  | .hbm, ⟨24, _⟩ => ⟨S4096x2048, .f32⟩
  | .hbm, ⟨25, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x4x256, .bf16⟩
  | .local _ .vmem, ⟨5, _⟩ => ⟨S1024x4x256, .bf16⟩
  | .local _ .vmem, ⟨6, _⟩ => ⟨S1024x4x256, .bf16⟩
  | .local _ .vmem, ⟨7, _⟩ => ⟨S1024x4x256, .bf16⟩
  | .local _ .vmem, ⟨8, _⟩ => ⟨S4x256, .f32⟩
  | .local _ .vmem, ⟨9, _⟩ => ⟨S4x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S1024x256, .f32⟩
  | .local _ .vmem, ⟨17, _⟩ => ⟨S1024x256, .f32⟩
  | .local _ .vmem, ⟨18, _⟩ => ⟨S1024x256, .f32⟩
  | .local _ .vmem, ⟨19, _⟩ => ⟨S1024x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![4, 8, 2], ![false, false, false]⟩

def k0_cond2 (i : grid0.Coords) : BitVec 1 :=
  let arg2 : BitVec 32 := BitVec.ofNat 32 (i 2).val
  let c1_i32 : BitVec 32 := 1#32
  let v59 : BitVec 1 := Scalar.cmpi .eq arg2 c1_i32
  let v60 : BitVec 32 := Scalar.extui v59
  let c0_i32_33 : BitVec 32 := 0#32
  let v61 : BitVec 1 := Scalar.cmpi .ne v60 c0_i32_33
  v61

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x4x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x4x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S4x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

class Facts₀ : Prop where
  concatenates_S2048x4096_S2048x4096_S2048x4096_S2048x4096_S8192x4096_d0 : Shape.Concatenates [S2048x4096, S2048x4096, S2048x4096, S2048x4096] S8192x4096 0
  concatenates_S2048_S2048_S2048_S2048_S8192_d0 : Shape.Concatenates [S2048, S2048, S2048, S2048] S8192 0
  slices_S8192x4096_S8192x2048_0_0 : S8192x4096.Slices ![0, 0] S8192x2048
  slices_S8192x4096_S8192x2048_0_2048 : S8192x4096.Slices ![0, 2048] S8192x2048
  transposes_S8192x2048_S2048x8192_1_0 : S8192x2048.Transposes [1, 0] S2048x8192
  shapeCasts_S2048x8192_S2048x4x2048 : S2048x8192.ShapeCasts S2048x4x2048
  bitsLt_bf16_f32 : FTy.bits .bf16 < FTy.bits .f32
  shapeCasts_S8192_S4x2048 : S8192.ShapeCasts S4x2048
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x4x256_S1024x4x256_0_0_0 : ∀ a, (![0, 0, 0] : Fin 3 → Nat) a + S1024x4x256.size a ≤ S1024x4x256.size a
  h_S1024x4x256 : 0 < S1024x4x256.numel
  shapeCasts_S1024x4x256_S1024x4x256 : S1024x4x256.ShapeCasts S1024x4x256
  slices_S1024x4x256_o0_0_0_S1024x1x256 : S1024x4x256.Slices ![0, 0, 0] S1024x1x256
  shapeCasts_S1024x1x256_S1024x256 : S1024x1x256.ShapeCasts S1024x256
  slices_S1024x4x256_o0_1_0_S1024x1x256 : S1024x4x256.Slices ![0, 1, 0] S1024x1x256
  slices_S1024x4x256_o0_2_0_S1024x1x256 : S1024x4x256.Slices ![0, 2, 0] S1024x1x256
  slices_S1024x4x256_o0_3_0_S1024x1x256 : S1024x4x256.Slices ![0, 3, 0] S1024x1x256
  inb_S4x256_S1x256_0_0 : ∀ a, (![0, 0] : Fin 2 → Nat) a + S1x256.size a ≤ S4x256.size a
  h_S1x256 : 0 < S1x256.numel
  shapeCasts_S1x256_S256 : S1x256.ShapeCasts S256
  shapeCasts_S256_S1x256 : S256.ShapeCasts S1x256
  broadcasts_S1x256_S1024x256 : S1x256.Broadcasts S1024x256
  inb_S4x256_S1x256_1_0 : ∀ a, (![1, 0] : Fin 2 → Nat) a + S1x256.size a ≤ S4x256.size a
  inb_S4x256_S1x256_2_0 : ∀ a, (![2, 0] : Fin 2 → Nat) a + S1x256.size a ≤ S4x256.size a
  inb_S4x256_S1x256_3_0 : ∀ a, (![3, 0] : Fin 2 → Nat) a + S1x256.size a ≤ S4x256.size a
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x2048.size a
  hwx0_0 : ∀ i : grid0.Coords, EltTy.bits .bf16 = 32 ∨ (Rect.block (s := S4096x2048) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x2048.size a
  hwx0_1 : ∀ i : grid0.Coords, EltTy.bits .bf16 = 32 ∨ (Rect.block (s := S4096x2048) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x4x256.size a ≤ S2048x4x2048.size a
  hwx0_2 : ∀ i : grid0.Coords, EltTy.bits .bf16 = 32 ∨ (Rect.block (s := S2048x4x2048) S1024x4x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x4x256.size a ≤ S2048x4x2048.size a
  hwx0_3 : ∀ i : grid0.Coords, EltTy.bits .bf16 = 32 ∨ (Rect.block (s := S2048x4x2048) S1024x4x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x256.size a ≤ S4x2048.size a
  hwx0_4 : ∀ i : grid0.Coords, EltTy.bits .f32 = 32 ∨ (Rect.block (s := S4x2048) S4x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S4096x2048.size a
  hwx0_5 : ∀ i : grid0.Coords, EltTy.bits .f32 = 32 ∨ (Rect.block (s := S4096x2048) S1024x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x256.size a ≤ S4096x2048.size a
  hwx0_6 : ∀ i : grid0.Coords, EltTy.bits .f32 = 32 ∨ (Rect.block (s := S4096x2048) S1024x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x256.size a ≤ S4096x2048.size a
  hwx0_7 : ∀ i : grid0.Coords, EltTy.bits .f32 = 32 ∨ (Rect.block (s := S4096x2048) S1024x256.size (cc0_transform_7 i) (hinb0_7 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_v11) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x4x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1024x4x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S4x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S1024x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v13_0) S1024x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v13_1) S1024x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

class Facts : Prop extends Facts₀ where

variable [Facts]
-- ==== ReferenceIdeal.lean ====
abbrev S4096x2048 : Shape := ⟨2, ![4096, 2048]⟩
abbrev S2048x4096 : Shape := ⟨2, ![2048, 4096]⟩
abbrev S2048 : Shape := ⟨1, ![2048]⟩
abbrev S4096x4096 : Shape := ⟨2, ![4096, 4096]⟩
abbrev S8192x4096 : Shape := ⟨2, ![8192, 4096]⟩
abbrev S8192 : Shape := ⟨1, ![8192]⟩
abbrev S4096x8192 : Shape := ⟨2, ![4096, 8192]⟩
abbrev S1x8192 : Shape := ⟨2, ![1, 8192]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x4096, .f32⟩
  | .hbm, ⟨4, _⟩ => ⟨S2048, .f32⟩
  | .hbm, ⟨5, _⟩ => ⟨S2048x4096, .f32⟩
  | .hbm, ⟨6, _⟩ => ⟨S2048, .f32⟩
  | .hbm, ⟨7, _⟩ => ⟨S2048x4096, .f32⟩
  | .hbm, ⟨8, _⟩ => ⟨S2048, .f32⟩
  | .hbm, ⟨9, _⟩ => ⟨S2048x4096, .f32⟩
  | .hbm, ⟨10, _⟩ => ⟨S2048, .f32⟩
  | .hbm, ⟨11, _⟩ => ⟨S4096x4096, .f32⟩
  | .hbm, ⟨12, _⟩ => ⟨S8192x4096, .f32⟩
  | .hbm, ⟨13, _⟩ => ⟨S8192, .f32⟩
  | .hbm, ⟨14, _⟩ => ⟨S4096x8192, .f32⟩
  | .hbm, ⟨15, _⟩ => ⟨S4096x8192, .f32⟩
  | .hbm, ⟨16, _⟩ => ⟨S1x8192, .f32⟩
  | .hbm, ⟨17, _⟩ => ⟨S4096x8192, .f32⟩
  | .hbm, ⟨18, _⟩ => ⟨S4096x8192, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S_, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  concatenates_S4096x2048_S4096x2048_S4096x4096_d1 : Shape.Concatenates [S4096x2048, S4096x2048] S4096x4096 1
  concatenates_S2048x4096_S2048x4096_S2048x4096_S2048x4096_S8192x4096_d0 : Shape.Concatenates [S2048x4096, S2048x4096, S2048x4096, S2048x4096] S8192x4096 0
  concatenates_S2048_S2048_S2048_S2048_S8192_d0 : Shape.Concatenates [S2048, S2048, S2048, S2048] S8192 0
  transposes_S8192x4096_S4096x8192_1_0 : S8192x4096.Transposes [1, 0] S4096x8192
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  slices_S4096x8192_S4096x2048_0_0 : S4096x8192.Slices ![0, 0] S4096x2048
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  bcast_S_S4096x2048 : S_.BroadcastsInDim S4096x2048 (![] : Fin 0 → Fin S4096x2048.rank)
  dot_S4096x4096_S4096x8192_S4096x8192_1_0_0_1_n_n_wf : DotDims.WF S4096x4096 S4096x8192 S4096x8192 [1] [0] [0] [1] [] []

variable [Facts₀]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf

class Facts : Prop extends Facts₀ where

variable [Facts]
-- ==== Proof.KernelKit.lean ====
/-
  The launch of the fused LSTM kernel, before anything is said about its body.

  @main is thirteen host operations (the two concatenations of the gates' weights and biases, the slices,
  transposes, reshapes and format changes that lay them out for the kernel) followed by ONE pallas_call on the
  grid 4 × 8 × 2 (batch tile, feature tile, K-block). This module fixes the vocabulary the rest of the frame is
  stated in: the buffers' contents when the call is entered (`V`: the host operations applied to the initial
  memory), each window's block at a grid point (`iblk`), the two conditions the body branches on in closed
  form (the K-block is the first / the last one), where the two output windows are idle, the staging and
  scratch memrefs, and the frame claim read off a run of the launch.
-/
import proofs.«153991_j82282983457013_2_alg».proof.Proof.Gen.Kernel.Launch
import proofs.«153991_j82282983457013_2_alg».proof.Proof.Gen.Kernel.Skeleton
import proofs.«153991_j82282983457013_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the launch -/

/-- Core `c`'s TensorCore buffers when the pallas_call is entered: the thirteen host operations applied, in
    order, to the initial memory. -/
abbrev V (c : Dev nD) (b : Ref sig .tc) : Buf (Elt F) ((c : Thread nD τ).loc b) :=
  StableHlo.after hostOps0 (fun b => m (c, b)) b

/-- None of the host operations allocates. -/
theorem hostOps0_fresh : (hostOps0 : List (HloOp τ sig (Elt F))).Forall fun op => op.fresh = ∅ := by
  simp only [List.Forall]; repeat' constructor

/-- @main is its host operations, then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the launch writes `main_arg0`: the launch finds it as the program was started with it. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-- No host operation before the launch writes `main_arg1`: the launch finds it as the program was started with it. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-- No host operation before the launch writes `main_arg2`: the launch finds it as the program was started with it. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-- No host operation before the launch writes `main_arg3`: the launch finds it as the program was started with it. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-- No host operation before the launch writes `main_arg4`: the launch finds it as the program was started with it. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-- No host operation before the launch writes `main_arg5`: the launch finds it as the program was started with it. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-- No host operation before the launch writes `main_arg6`: the launch finds it as the program was started with it. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-- No host operation before the launch writes `main_arg7`: the launch finds it as the program was started with it. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-- No host operation before the launch writes `main_arg8`: the launch finds it as the program was started with it. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-- No host operation before the launch writes `main_arg9`: the launch finds it as the program was started with it. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-- No host operation before the launch writes `main_arg10`: the launch finds it as the program was started with it. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-! ## The windows' blocks -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the pipeline fetched it there or
    kept it from the point before (then the block index has not moved). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the pipeline fetched it there or
    kept it from the point before (then the block index has not moved). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the pipeline fetched it there or
    kept it from the point before (then the block index has not moved). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether the pipeline fetched it there or
    kept it from the point before (then the block index has not moved). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, whether the pipeline fetched it there or
    kept it from the point before (then the block index has not moved). -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, whether the pipeline fetched it there or
    kept it from the point before (then the block index has not moved). -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run of the launch -/

/-- For any proof data whose arrays are the launch-entry contents, a run ending in the library's frame post leaves
    every argument array as the program was started with it: the cell state `main_arg2` is a window's array (an
    input window's array ends as it began), the other ten arguments are read only by host operations. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).1 5).trans (((dats 0 c).arrAt_in 5 rfl _).trans ((hA c 5).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c)⟩) h

/-! ## The body's two conditions -/

/-- "This is the first K-block": the body then zeroes the four accumulators. -/
abbrev cond0_0 (i : grid0.Coords) : Prop := (Scalar.cmpi .ne (Scalar.extui (Scalar.cmpi .eq (BitVec.ofNat 32 (i 2).val) 0#32)) 0#32) = 1#1
/-- The K-block is the grid's last axis, of extent 2: the first block is met at the even points. -/
theorem hcond0_0 : ∀ t : Fin cfg0.N, cond0_0 (grid0.coords t) ↔ t.val % 2 = 0 :=
  (by decide +kernel : ∀ t : Fin grid0.N, cond0_0 (grid0.coords t) ↔ t.val % 2 = 0)

/-- "This is the last K-block": the body then applies the gates and stores both results. -/
abbrev cond0_1 (i : grid0.Coords) : Prop := k0_cond2 i = 1#1
/-- It is met at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- At a first K-block the two result windows are idle (nothing is stored into them) and are not written back. -/
theorem idleAt0_6_A : ∀ t : Fin cfg0.N, cond0_0 (grid0.coords t) → ¬cond0_1 (grid0.coords t) → cfg0.idle 6 (grid0.coords t) = true := by decide +kernel
theorem noFlush0_6_A : ∀ t : Fin cfg0.N, cond0_0 (grid0.coords t) → ¬cond0_1 (grid0.coords t) → (cfg0.win 6).flush t = false := by decide +kernel
theorem idleAt0_7_A : ∀ t : Fin cfg0.N, cond0_0 (grid0.coords t) → ¬cond0_1 (grid0.coords t) → cfg0.idle 7 (grid0.coords t) = true := by decide +kernel
theorem noFlush0_7_A : ∀ t : Fin cfg0.N, cond0_0 (grid0.coords t) → ¬cond0_1 (grid0.coords t) → (cfg0.win 7).flush t = false := by decide +kernel
/-- At a last K-block they are live. -/
theorem liveAt0_6_B : ∀ t : Fin cfg0.N, ¬cond0_0 (grid0.coords t) → cond0_1 (grid0.coords t) → cfg0.idle 6 (grid0.coords t) = false := by decide +kernel
theorem liveAt0_7_B : ∀ t : Fin cfg0.N, ¬cond0_0 (grid0.coords t) → cond0_1 (grid0.coords t) → cfg0.idle 7 (grid0.coords t) = false := by decide +kernel

/-! ## The memrefs the body is called with -/

abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x4x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x4x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x256 .f32 := win0_7.stage (cfg0.slots t 7)
abbrev hs0_7 (t : Fin cfg0.N) : (ms0_7 t).IsWhole := hstage0_7 ((cfg0.slots t 7).cast nbuf0_7)

/-- The four gate accumulators: whole scoped buffers of the kernel's own (gate 0 = forget, 1 = input, 2 = output, 3 = candidate). -/
abbrev scM0_0 : Memref sig .tc .vmem S1024x256 .f32 := Memref.whole cc0_scratch0
abbrev scM0_1 : Memref sig .tc .vmem S1024x256 .f32 := Memref.whole cc0_scratch1
abbrev scM0_2 : Memref sig .tc .vmem S1024x256 .f32 := Memref.whole cc0_scratch2
abbrev scM0_3 : Memref sig .tc .vmem S1024x256 .f32 := Memref.whole cc0_scratch3
/-- The views through which the accumulators' and the results' contents are stated. -/
abbrev VS0_0 : View sig .tc .vmem S1024x256 .f32 := scM0_0.view
abbrev VS0_1 : View sig .tc .vmem S1024x256 .f32 := scM0_1.view
abbrev VS0_2 : View sig .tc .vmem S1024x256 .f32 := scM0_2.view
abbrev VS0_3 : View sig .tc .vmem S1024x256 .f32 := scM0_3.view
abbrev VO0_6 : View sig .tc .vmem S1024x256 .f32 := (Memref.whole cc0_stg6_0 : Memref sig .tc .vmem S1024x256 .f32).view
abbrev VO0_7 : View sig .tc .vmem S1024x256 .f32 := (Memref.whole cc0_stg7_0 : Memref sig .tc .vmem S1024x256 .f32).view

/-- What the launch lends the body besides the windows: the four accumulators, each at some contents, and the
    generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Fr

end
-- ==== Proof.KernelRunA.lean ====
/-
  The body at a FIRST K-block (the even grid points): the four accumulators are zeroed, then each receives its
  gate's share of this block's two products; nothing is stored into the result windows. The body is run once,
  symbolically, on arbitrary whole memrefs: the inputs at their contents, the two result buffers handed back
  untouched, the accumulators taken at anything and given back with the pieces the stores wrote.
-/
import proofs.«153991_j82282983457013_2_alg».proof.Proof.KernelKit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in each accumulator at a first K-block (last store first), with the run:
    from the inputs at `x0 … x5`, the result buffers at `xi6`, `xi7` and the accumulators at anything, the body
    ends with the inputs and the result buffers as they were and each accumulator with its pieces written. -/
noncomputable def kernelRun0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x4x256 .bf16) (harg5 : arg5.IsWhole) (arg6 : Memref sig .tc .vmem S1024x4x256 .bf16) (harg6 : arg6.IsWhole) (arg7 : Memref sig .tc .vmem S4x256 .f32) (harg7 : arg7.IsWhole) (arg8 : Memref sig .tc .vmem S1024x256 .f32) (harg8 : arg8.IsWhole) (arg9 : Memref sig .tc .vmem S1024x256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole) (hc0 : cond0_0 i) (hc1 : ¬cond0_1 i)
    (x0 : Vec F S1024x1024 .bf16) (x1 : Vec F S1024x1024 .bf16) (x2 : Vec F S1024x4x256 .bf16) (x3 : Vec F S1024x4x256 .bf16) (x4 : Vec F S4x256 .f32) (x5 : Vec F S1024x256 .f32) :
    Σ' (LS0 : List (View.Piece (Elt F) S1024x256 .f32)) (LS1 : List (View.Piece (Elt F) S1024x256 .f32)) (LS2 : List (View.Piece (Elt F) S1024x256 .f32)), { LS3 : List (View.Piece (Elt F) S1024x256 .f32) //
      ∀ (xi6 xi7 : Vec F S1024x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xi7
            ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xi7
                ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ (∃ f, arg14.view.loc (c : Thread nD τ) ↦[arg14.view.set]{fullShare} arg14.view.writes (Elt F) f LS3)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun xi6 xi7 E K => ?run⟩
  case run =>
    simp only [cc0__fused_kernel_eq_skeleton]; unfold cc0__fused_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg9.eq_unread hf6; obtain rfl := harg10.eq_unread hf7
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [HS0]; · iexists _; iexact HS0
    isplitl [HS1]; · iexists _; iexact HS1
    isplitl [HS2]; · iexists _; iexact HS2
    iexists _; iexact HS3

end Cert.Kernel.Fr

end
-- ==== Proof.KernelRunB.lean ====
/-
  The body at a LAST K-block (the odd grid points): each accumulator, holding what the first K-block left in it,
  receives this block's share; then the gates are applied to the accumulators plus the biases and the new hidden
  and cell states are stored whole into the two result windows. Run once, symbolically, on arbitrary whole memrefs.
-/
import proofs.«153991_j82282983457013_2_alg».proof.Proof.KernelRunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the two result buffers and in each accumulator at a last K-block, with the
    run: from the inputs at `x0 … x5`, the result buffers at anything and the accumulators at `xs0 … xs3`, the body
    ends with the inputs as they were and each of the six written buffers with its pieces. -/
noncomputable def kernelRun0_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x4x256 .bf16) (harg5 : arg5.IsWhole) (arg6 : Memref sig .tc .vmem S1024x4x256 .bf16) (harg6 : arg6.IsWhole) (arg7 : Memref sig .tc .vmem S4x256 .f32) (harg7 : arg7.IsWhole) (arg8 : Memref sig .tc .vmem S1024x256 .f32) (harg8 : arg8.IsWhole) (arg9 : Memref sig .tc .vmem S1024x256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole) (hc0 : ¬cond0_0 i) (hc1 : cond0_1 i)
    (x0 : Vec F S1024x1024 .bf16) (x1 : Vec F S1024x1024 .bf16) (x2 : Vec F S1024x4x256 .bf16) (x3 : Vec F S1024x4x256 .bf16) (x4 : Vec F S4x256 .f32) (x5 : Vec F S1024x256 .f32)
    (xs0 xs1 xs2 xs3 : Vec F S1024x256 .f32) :
    Σ' (L6 : List (View.Piece (Elt F) S1024x256 .f32)) (L7 : List (View.Piece (Elt F) S1024x256 .f32)) (LS0 : List (View.Piece (Elt F) S1024x256 .f32)) (LS1 : List (View.Piece (Elt F) S1024x256 .f32)) (LS2 : List (View.Piece (Elt F) S1024x256 .f32)), { LS3 : List (View.Piece (Elt F) S1024x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d)
            ∗ owns (c : Thread nD τ) arg11 fullShare xs0 ∗ owns (c : Thread nD τ) arg12 fullShare xs1 ∗ owns (c : Thread nD τ) arg13 fullShare xs2 ∗ owns (c : Thread nD τ) arg14 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7)
                ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ (∃ f, arg14.view.loc (c : Thread nD τ) ↦[arg14.view.set]{fullShare} arg14.view.writes (Elt F) f LS3)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, fun E K => ?run⟩
  case run =>
    simp only [cc0__fused_kernel_eq_skeleton]; unfold cc0__fused_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5
    obtain rfl := harg11.eq_unread hfs0; obtain rfl := harg12.eq_unread hfs1; obtain rfl := harg13.eq_unread hfs2; obtain rfl := harg14.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]; · iexists _; iexact H7
    isplitl [HS0]; · iexists _; iexact HS0
    isplitl [HS1]; · iexists _; iexact HS1
    isplitl [HS2]; · iexists _; iexact HS2
    iexists _; iexact HS3

end Cert.Kernel.Fr

end
-- ==== Proof.KernelFrame.lean ====
/-
  The frame of the fused LSTM launch: what the four gate accumulators and the two result buffers hold after the
  body at every grid point, the invariant that carries the accumulators from a first K-block to the last one, the
  body's obligation to the pipeline at every point, the run of @main, and the frame claim.

  The grid is 4 × 8 × 2 with the K-block innermost, so the points come in pairs: an even point zeroes the
  accumulators and adds the first K-block's products; the odd point after it adds the second block's, applies the
  gates and stores the results, which the pipeline then writes back. An odd point depends on nothing but its own
  input blocks and what the even point just before it left in the accumulators.
-/
import proofs.«153991_j82282983457013_2_alg».proof.Proof.KernelRunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two runs at a grid point -/

/-- The first-K-block run at an even point, on the memrefs and input blocks the pipeline hands the body there. -/
abbrev runA (c : Dev nD) (t : Fin cfg0.N) (h : t.val % 2 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _)
    ((hcond0_0 t).mpr h) (fun h' => by have := (hcond0_1 t).mp h'; omega) (iblk m c 0 t) (iblk m c 1 t) (iblk m c 2 t) (iblk m c 3 t) (iblk m c 4 t) (iblk m c 5 t)

/-- The last-K-block run at an odd point, the accumulators at `xs0 … xs3`. -/
abbrev runB (c : Dev nD) (t : Fin cfg0.N) (h : t.val % 2 = 1) (xs0 xs1 xs2 xs3 : Vec F S1024x256 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _)
    (fun h' => by have := (hcond0_0 t).mp h'; omega) ((hcond0_1 t).mpr h) (iblk m c 0 t) (iblk m c 1 t) (iblk m c 2 t) (iblk m c 3 t) (iblk m c 4 t) (iblk m c 5 t) xs0 xs1 xs2 xs3

/-! ## What each buffer holds after a run: its pieces read back -/

/-- The pieces a first K-block writes into accumulator 0 cover it. -/
theorem coverA0 (c : Dev nD) (t : Fin cfg0.N) (h : t.val % 2 = 0) (y : S1024x256.Idx) :
    ∃ pc ∈ (runA m c t h).1, y ∈ pc.1.set :=
  View.cover_of_tiledL (runA m c t h).1 S1024x256.size (by sl_kernel_rfl) y
/-- What a first K-block leaves in accumulator 0. -/
def sA0 (c : Dev nD) (t : Fin cfg0.N) (h : t.val % 2 = 0) : Vec F S1024x256 .f32 :=
  VS0_0.read (Elt F) (VS0_0.writes (Elt F) VS0_0.junk (runA m c t h).1)

/-- The pieces a first K-block writes into accumulator 1 cover it. -/
theorem coverA1 (c : Dev nD) (t : Fin cfg0.N) (h : t.val % 2 = 0) (y : S1024x256.Idx) :
    ∃ pc ∈ (runA m c t h).2.1, y ∈ pc.1.set :=
  View.cover_of_tiledL (runA m c t h).2.1 S1024x256.size (by sl_kernel_rfl) y
/-- What a first K-block leaves in accumulator 1. -/
def sA1 (c : Dev nD) (t : Fin cfg0.N) (h : t.val % 2 = 0) : Vec F S1024x256 .f32 :=
  VS0_1.read (Elt F) (VS0_1.writes (Elt F) VS0_1.junk (runA m c t h).2.1)

/-- The pieces a first K-block writes into accumulator 2 cover it. -/
theorem coverA2 (c : Dev nD) (t : Fin cfg0.N) (h : t.val % 2 = 0) (y : S1024x256.Idx) :
    ∃ pc ∈ (runA m c t h).2.2.1, y ∈ pc.1.set :=
  View.cover_of_tiledL (runA m c t h).2.2.1 S1024x256.size (by sl_kernel_rfl) y
/-- What a first K-block leaves in accumulator 2. -/
def sA2 (c : Dev nD) (t : Fin cfg0.N) (h : t.val % 2 = 0) : Vec F S1024x256 .f32 :=
  VS0_2.read (Elt F) (VS0_2.writes (Elt F) VS0_2.junk (runA m c t h).2.2.1)

/-- The pieces a first K-block writes into accumulator 3 cover it. -/
theorem coverA3 (c : Dev nD) (t : Fin cfg0.N) (h : t.val % 2 = 0) (y : S1024x256.Idx) :
    ∃ pc ∈ (runA m c t h).2.2.2.1, y ∈ pc.1.set :=
  View.cover_of_tiledL (runA m c t h).2.2.2.1 S1024x256.size (by sl_kernel_rfl) y
/-- What a first K-block leaves in accumulator 3. -/
def sA3 (c : Dev nD) (t : Fin cfg0.N) (h : t.val % 2 = 0) : Vec F S1024x256 .f32 :=
  VS0_3.read (Elt F) (VS0_3.writes (Elt F) VS0_3.junk (runA m c t h).2.2.2.1)

/-- The pieces a last K-block writes into result buffer 6 cover it. -/
theorem coverB0 (c : Dev nD) (t : Fin cfg0.N) (h : t.val % 2 = 1) (xs0 xs1 xs2 xs3 : Vec F S1024x256 .f32) (y : S1024x256.Idx) :
    ∃ pc ∈ (runB m c t h xs0 xs1 xs2 xs3).1, y ∈ pc.1.set :=
  View.cover_of_tiledL (runB m c t h xs0 xs1 xs2 xs3).1 S1024x256.size (by sl_kernel_rfl) y
/-- What a last K-block leaves there. -/
def oB6 (c : Dev nD) (t : Fin cfg0.N) (h : t.val % 2 = 1) (xs0 xs1 xs2 xs3 : Vec F S1024x256 .f32) : Vec F S1024x256 .f32 :=
  VO0_6.read (Elt F) (VO0_6.writes (Elt F) VO0_6.junk (runB m c t h xs0 xs1 xs2 xs3).1)

/-- The pieces a last K-block writes into result buffer 7 cover it. -/
theorem coverB1 (c : Dev nD) (t : Fin cfg0.N) (h : t.val % 2 = 1) (xs0 xs1 xs2 xs3 : Vec F S1024x256 .f32) (y : S1024x256.Idx) :
    ∃ pc ∈ (runB m c t h xs0 xs1 xs2 xs3).2.1, y ∈ pc.1.set :=
  View.cover_of_tiledL (runB m c t h xs0 xs1 xs2 xs3).2.1 S1024x256.size (by sl_kernel_rfl) y
/-- What a last K-block leaves there. -/
def oB7 (c : Dev nD) (t : Fin cfg0.N) (h : t.val % 2 = 1) (xs0 xs1 xs2 xs3 : Vec F S1024x256 .f32) : Vec F S1024x256 .f32 :=
  VO0_7.read (Elt F) (VO0_7.writes (Elt F) VO0_7.junk (runB m c t h xs0 xs1 xs2 xs3).2.1)

/-- The pieces a last K-block writes into accumulator 0 cover it. -/
theorem coverB2 (c : Dev nD) (t : Fin cfg0.N) (h : t.val % 2 = 1) (xs0 xs1 xs2 xs3 : Vec F S1024x256 .f32) (y : S1024x256.Idx) :
    ∃ pc ∈ (runB m c t h xs0 xs1 xs2 xs3).2.2.1, y ∈ pc.1.set :=
  View.cover_of_tiledL (runB m c t h xs0 xs1 xs2 xs3).2.2.1 S1024x256.size (by sl_kernel_rfl) y
/-- What a last K-block leaves there. -/
def sB0 (c : Dev nD) (t : Fin cfg0.N) (h : t.val % 2 = 1) (xs0 xs1 xs2 xs3 : Vec F S1024x256 .f32) : Vec F S1024x256 .f32 :=
  VS0_0.read (Elt F) (VS0_0.writes (Elt F) VS0_0.junk (runB m c t h xs0 xs1 xs2 xs3).2.2.1)

/-- The pieces a last K-block writes into accumulator 1 cover it. -/
theorem coverB3 (c : Dev nD) (t : Fin cfg0.N) (h : t.val % 2 = 1) (xs0 xs1 xs2 xs3 : Vec F S1024x256 .f32) (y : S1024x256.Idx) :
    ∃ pc ∈ (runB m c t h xs0 xs1 xs2 xs3).2.2.2.1, y ∈ pc.1.set :=
  View.cover_of_tiledL (runB m c t h xs0 xs1 xs2 xs3).2.2.2.1 S1024x256.size (by sl_kernel_rfl) y
/-- What a last K-block leaves there. -/
def sB1 (c : Dev nD) (t : Fin cfg0.N) (h : t.val % 2 = 1) (xs0 xs1 xs2 xs3 : Vec F S1024x256 .f32) : Vec F S1024x256 .f32 :=
  VS0_1.read (Elt F) (VS0_1.writes (Elt F) VS0_1.junk (runB m c t h xs0 xs1 xs2 xs3).2.2.2.1)

/-- The pieces a last K-block writes into accumulator 2 cover it. -/
theorem coverB4 (c : Dev nD) (t : Fin cfg0.N) (h : t.val % 2 = 1) (xs0 xs1 xs2 xs3 : Vec F S1024x256 .f32) (y : S1024x256.Idx) :
    ∃ pc ∈ (runB m c t h xs0 xs1 xs2 xs3).2.2.2.2.1, y ∈ pc.1.set :=
  View.cover_of_tiledL (runB m c t h xs0 xs1 xs2 xs3).2.2.2.2.1 S1024x256.size (by sl_kernel_rfl) y
/-- What a last K-block leaves there. -/
def sB2 (c : Dev nD) (t : Fin cfg0.N) (h : t.val % 2 = 1) (xs0 xs1 xs2 xs3 : Vec F S1024x256 .f32) : Vec F S1024x256 .f32 :=
  VS0_2.read (Elt F) (VS0_2.writes (Elt F) VS0_2.junk (runB m c t h xs0 xs1 xs2 xs3).2.2.2.2.1)

/-- The pieces a last K-block writes into accumulator 3 cover it. -/
theorem coverB5 (c : Dev nD) (t : Fin cfg0.N) (h : t.val % 2 = 1) (xs0 xs1 xs2 xs3 : Vec F S1024x256 .f32) (y : S1024x256.Idx) :
    ∃ pc ∈ (runB m c t h xs0 xs1 xs2 xs3).2.2.2.2.2.1, y ∈ pc.1.set :=
  View.cover_of_tiledL (runB m c t h xs0 xs1 xs2 xs3).2.2.2.2.2.1 S1024x256.size (by sl_kernel_rfl) y
/-- What a last K-block leaves there. -/
def sB3 (c : Dev nD) (t : Fin cfg0.N) (h : t.val % 2 = 1) (xs0 xs1 xs2 xs3 : Vec F S1024x256 .f32) : Vec F S1024x256 .f32 :=
  VS0_3.read (Elt F) (VS0_3.writes (Elt F) VS0_3.junk (runB m c t h xs0 xs1 xs2 xs3).2.2.2.2.2.1)

/-! ## Point by point -/

/-- The six buffers after a point: the two result buffers, then the four accumulators. -/
abbrev Outs (F : FTy → Type) [FloatOps F] : Type := Vec F S1024x256 .f32 × Vec F S1024x256 .f32 × Vec F S1024x256 .f32 × Vec F S1024x256 .f32 × Vec F S1024x256 .f32 × Vec F S1024x256 .f32

/-- The point before an odd point. -/
abbrev prevPt (n : ℕ) (hn : n < cfg0.N) : Fin cfg0.N := ⟨n - 1, Nat.lt_of_le_of_lt (Nat.sub_le _ _) hn⟩

/-- What the buffers hold after the body at position `n`. At an even point the accumulators hold the first
    K-block's run (the result buffers are idle there: a placeholder nothing consults); at an odd point everything
    is the last K-block's run over what the even point before left in the accumulators. -/
def outsAt0 (c : Dev nD) (n : ℕ) (hn : n < cfg0.N) : Outs F :=
  if h : n % 2 = 0 then
    (VO0_6.read (Elt F) VO0_6.junk, VO0_7.read (Elt F) VO0_7.junk,
      sA0 m c ⟨n, hn⟩ h, sA1 m c ⟨n, hn⟩ h, sA2 m c ⟨n, hn⟩ h, sA3 m c ⟨n, hn⟩ h)
  else
    have hp : (prevPt n hn).val % 2 = 0 := by show (n - 1) % 2 = 0; omega
    have ho : (⟨n, hn⟩ : Fin cfg0.N).val % 2 = 1 := by show n % 2 = 1; omega
    (oB6 m c ⟨n, hn⟩ ho (sA0 m c (prevPt n hn) hp) (sA1 m c (prevPt n hn) hp) (sA2 m c (prevPt n hn) hp) (sA3 m c (prevPt n hn) hp),
      oB7 m c ⟨n, hn⟩ ho (sA0 m c (prevPt n hn) hp) (sA1 m c (prevPt n hn) hp) (sA2 m c (prevPt n hn) hp) (sA3 m c (prevPt n hn) hp),
      sB0 m c ⟨n, hn⟩ ho (sA0 m c (prevPt n hn) hp) (sA1 m c (prevPt n hn) hp) (sA2 m c (prevPt n hn) hp) (sA3 m c (prevPt n hn) hp),
      sB1 m c ⟨n, hn⟩ ho (sA0 m c (prevPt n hn) hp) (sA1 m c (prevPt n hn) hp) (sA2 m c (prevPt n hn) hp) (sA3 m c (prevPt n hn) hp),
      sB2 m c ⟨n, hn⟩ ho (sA0 m c (prevPt n hn) hp) (sA1 m c (prevPt n hn) hp) (sA2 m c (prevPt n hn) hp) (sA3 m c (prevPt n hn) hp),
      sB3 m c ⟨n, hn⟩ ho (sA0 m c (prevPt n hn) hp) (sA1 m c (prevPt n hn) hp) (sA2 m c (prevPt n hn) hp) (sA3 m c (prevPt n hn) hp))

/-- At an even point. -/
theorem outsAt0_A (c : Dev nD) (t : Fin cfg0.N) (h : t.val % 2 = 0) :
    outsAt0 m c t.val t.isLt = (VO0_6.read (Elt F) VO0_6.junk, VO0_7.read (Elt F) VO0_7.junk, sA0 m c t h, sA1 m c t h, sA2 m c t h, sA3 m c t h) :=
  dif_pos h

/-- The even point before an odd one. -/
theorem prev_even (t : Fin cfg0.N) (h : t.val % 2 = 1) : (prevPt t.val t.isLt).val % 2 = 0 := by
  show (t.val - 1) % 2 = 0; omega

/-- At an odd point. -/
theorem outsAt0_B (c : Dev nD) (t : Fin cfg0.N) (h : t.val % 2 = 1) :
    outsAt0 m c t.val t.isLt =
      (oB6 m c t h (sA0 m c (prevPt t.val t.isLt) (prev_even t h)) (sA1 m c (prevPt t.val t.isLt) (prev_even t h)) (sA2 m c (prevPt t.val t.isLt) (prev_even t h)) (sA3 m c (prevPt t.val t.isLt) (prev_even t h)),
        oB7 m c t h (sA0 m c (prevPt t.val t.isLt) (prev_even t h)) (sA1 m c (prevPt t.val t.isLt) (prev_even t h)) (sA2 m c (prevPt t.val t.isLt) (prev_even t h)) (sA3 m c (prevPt t.val t.isLt) (prev_even t h)),
        sB0 m c t h (sA0 m c (prevPt t.val t.isLt) (prev_even t h)) (sA1 m c (prevPt t.val t.isLt) (prev_even t h)) (sA2 m c (prevPt t.val t.isLt) (prev_even t h)) (sA3 m c (prevPt t.val t.isLt) (prev_even t h)),
        sB1 m c t h (sA0 m c (prevPt t.val t.isLt) (prev_even t h)) (sA1 m c (prevPt t.val t.isLt) (prev_even t h)) (sA2 m c (prevPt t.val t.isLt) (prev_even t h)) (sA3 m c (prevPt t.val t.isLt) (prev_even t h)),
        sB2 m c t h (sA0 m c (prevPt t.val t.isLt) (prev_even t h)) (sA1 m c (prevPt t.val t.isLt) (prev_even t h)) (sA2 m c (prevPt t.val t.isLt) (prev_even t h)) (sA3 m c (prevPt t.val t.isLt) (prev_even t h)),
        sB3 m c t h (sA0 m c (prevPt t.val t.isLt) (prev_even t h)) (sA1 m c (prevPt t.val t.isLt) (prev_even t h)) (sA2 m c (prevPt t.val t.isLt) (prev_even t h)) (sA3 m c (prevPt t.val t.isLt) (prev_even t h))) :=
  dif_neg (by omega)

/-- The accumulators owned at the contents position `n` left, and the generator register. -/
def accAt (c : Dev nD) (n : ℕ) (hn : n < cfg0.N) : sProp 𝕄 :=
  iprop(iprop(owns (c : Thread nD τ) scM0_0 fullShare ((outsAt0 m c n hn).2.2.1) ∗ owns (c : Thread nD τ) scM0_1 fullShare ((outsAt0 m c n hn).2.2.2.1)
    ∗ owns (c : Thread nD τ) scM0_2 fullShare ((outsAt0 m c n hn).2.2.2.2.1) ∗ owns (c : Thread nD τ) scM0_3 fullShare ((outsAt0 m c n hn).2.2.2.2.2)) ∗ (∃ r, prngReg c r))

/-- The invariant before position `n`: before the first point what the launch lends (the accumulators at
    anything); afterwards the accumulators at what the point before left. -/
def PhiS (c : Dev nD) : (n : ℕ) → n ≤ cfg0.N → sProp 𝕄
  | 0, _ => Pipeline.ΦA spec0 c
  | n + 1, hn => accAt m c n hn

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) : PhiS m c (n + 1) hn = accAt m c n hn := rfl

theorem PhiS_pos (c : Dev nD) (n : ℕ) (h : n ≤ cfg0.N) (hz : n ≠ 0) :
    PhiS m c n h = accAt m c (n - 1) (by omega) := by
  cases n with
  | zero => exact absurd rfl hz
  | succ n => rfl

/-! ## The pipeline's proof data -/

/-- On core `c`: the arrays as the launch finds them; after the body at `t` each input's buffer at its block and
    the result buffers at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4800000 in
/-- The body at any point. The inputs' memrefs hold their blocks; the point's parity says which run applies. At an
    even point the accumulators are taken at anything (what the launch lent, or what the pair before left) and
    handed back at this point's contents, the idle result buffers untouched; at an odd point the accumulators are
    taken at what the even point left and the result buffers come back holding the new states. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 2 = 0
  · have hc0 : cond0_0 (grid0.coords t) := (hcond0_0 t).mpr h0
    have hc1 : ¬cond0_1 (grid0.coords t) := fun h' => by have := (hcond0_1 t).mp h'; omega
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [Dat.leavesExact_idle (dats m 0 c) 6 t (idleAt0_6_A t hc0 hc1) (noFlush0_6_A t hc0 hc1)]
    rw [Dat.leavesExact_idle (dats m 0 c) 7 t (idleAt0_7_A t hc0 hc1) (noFlush0_7_A t hc0 hc1)]
    unfold accAt
    rw [outsAt0_A m c t h0]
    unfold sA0 sA1 sA2 sA3; (try dsimp only)
    by_cases hz : t.val = 0
    · rw [PhiS_castSucc m c t, PhiS_zero m c _ _ hz, PhiA0_eq]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA m c t h0).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      iintro ⟨H0, H1, H2, H3, H4, H5, H6, H7, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (coverA0 m c t h0)
          isplitl [HS1]
          · unfold owns; iexists _; isplitr
            swap; · iexact HS1
            ipureintro; exact View.read_writes_of_cover _ _ _ _ _ (coverA1 m c t h0)
          isplitl [HS2]
          · unfold owns; iexists _; isplitr
            swap; · iexact HS2
            ipureintro; exact View.read_writes_of_cover _ _ _ _ _ (coverA2 m c t h0)
          unfold owns; iexists _; isplitr
          swap; · iexact HS3
          ipureintro; exact View.read_writes_of_cover _ _ _ _ _ (coverA3 m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    · rw [PhiS_castSucc m c t, PhiS_pos m c _ _ hz]
      unfold accAt
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA m c t h0).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      isplitl [HS1]; · iexists _; iexact HS1
      isplitl [HS2]; · iexists _; iexact HS2
      isplitl [HS3]; · iexists _; iexact HS3
      iintro ⟨H0, H1, H2, H3, H4, H5, H6, H7, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (coverA0 m c t h0)
          isplitl [HS1]
          · unfold owns; iexists _; isplitr
            swap; · iexact HS1
            ipureintro; exact View.read_writes_of_cover _ _ _ _ _ (coverA1 m c t h0)
          isplitl [HS2]
          · unfold owns; iexists _; isplitr
            swap; · iexact HS2
            ipureintro; exact View.read_writes_of_cover _ _ _ _ _ (coverA2 m c t h0)
          unfold owns; iexists _; isplitr
          swap; · iexact HS3
          ipureintro; exact View.read_writes_of_cover _ _ _ _ _ (coverA3 m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
  · have h1 : t.val % 2 = 1 := by omega
    have hc0 : ¬cond0_0 (grid0.coords t) := fun h' => by have := (hcond0_0 t).mp h'; omega
    have hc1 : cond0_1 (grid0.coords t) := (hcond0_1 t).mpr h1
    have hz : t.val ≠ 0 := by omega
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6_B t hc0 hc1], after0_6]
    rw [show (dats m 0 c).leavesExact 7 t = owns (c : Thread nD τ) (ms0_7 t) fullShare ((dats m 0 c).after 7 t) from by
      unfold Dat.leavesExact; rw [liveAt0_7_B t hc0 hc1], after0_7]
    unfold accAt
    rw [outsAt0_B m c t h1]
    unfold oB6 oB7 sB0 sB1 sB2 sB3; (try dsimp only)
    rw [PhiS_castSucc m c t, PhiS_pos m c _ _ hz]
    unfold accAt
    rw [outsAt0_A m c (prevPt t.val t.isLt) (prev_even t h1)]; (try dsimp only)
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runB m c t h1 _ _ _ _).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexact HS1
    isplitl [HS2]; · iexact HS2
    isplitl [HS3]; · iexact HS3
    iintro ⟨H0, H1, H2, H3, H4, H5, ⟨%e6, H6⟩, ⟨%e7, H7⟩, ⟨%es0, HS0⟩, ⟨%es1, HS1⟩, ⟨%es2, HS2⟩, ⟨%es3, HS3⟩⟩
    isplitl [HS0 HS1 HS2 HS3 Hg]
    · isplitl [HS0 HS1 HS2 HS3]
      · isplitl [HS0]
        · unfold owns; iexists _; isplitr
          swap; · iexact HS0
          ipureintro; exact View.read_writes_of_cover _ _ _ _ _ (coverB2 m c t h1 _ _ _ _)
        isplitl [HS1]
        · unfold owns; iexists _; isplitr
          swap; · iexact HS1
          ipureintro; exact View.read_writes_of_cover _ _ _ _ _ (coverB3 m c t h1 _ _ _ _)
        isplitl [HS2]
        · unfold owns; iexists _; isplitr
          swap; · iexact HS2
          ipureintro; exact View.read_writes_of_cover _ _ _ _ _ (coverB4 m c t h1 _ _ _ _)
        unfold owns; iexists _; isplitr
        swap; · iexact HS3
        ipureintro; exact View.read_writes_of_cover _ _ _ _ _ (coverB5 m c t h1 _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (coverB0 m c t h1 _ _ _ _)
    unfold owns; iexists _; isplitr
    swap; · iexact H7
    ipureintro; exact View.read_writes_of_cover _ _ _ _ _ (coverB1 m c t h1 _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch lends is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: the accumulators' contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA0_eq]
  unfold accAt
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

/-! ## The run and the frame -/

set_option backward.isDefEq.respectTransparency.types false in
/-- Every weakly fair execution of @main terminates, and every final state has each array of the pipeline at what
    the library computes from the proof data and every other unscoped buffer as the launch found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- The frame: @main runs to the end and leaves its eleven argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Fr

end
-- ==== Proof.KernelIdealKit.lean ====
/-
  The launch of the fused LSTM kernel, before anything is said about its body.

  @main is thirteen host operations (the two concatenations of the gates' weights and biases, the slices,
  transposes, reshapes and format changes that lay them out for the kernel) followed by ONE pallas_call on the
  grid 4 × 8 × 2 (batch tile, feature tile, K-block). This module fixes the vocabulary the rest of the frame is
  stated in: the buffers' contents when the call is entered (`V`: the host operations applied to the initial
  memory), each window's block at a grid point (`iblk`), the two conditions the body branches on in closed
  form (the K-block is the first / the last one), where the two output windows are idle, the staging and
  scratch memrefs, and the frame claim read off a run of the launch.
-/
import proofs.«153991_j82282983457013_2_alg».proof.Proof.Gen.KernelIdeal.Launch
import proofs.«153991_j82282983457013_2_alg».proof.Proof.Gen.KernelIdeal.Skeleton
import proofs.«153991_j82282983457013_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the launch -/

/-- Core `c`'s TensorCore buffers when the pallas_call is entered: the thirteen host operations applied, in
    order, to the initial memory. -/
abbrev V (c : Dev nD) (b : Ref sig .tc) : Buf (Elt F) ((c : Thread nD τ).loc b) :=
  StableHlo.after hostOps0 (fun b => m (c, b)) b

/-- None of the host operations allocates. -/
theorem hostOps0_fresh : (hostOps0 : List (HloOp τ sig (Elt F))).Forall fun op => op.fresh = ∅ := by
  simp only [List.Forall]; repeat' constructor

/-- @main is its host operations, then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the launch writes `main_arg0`: the launch finds it as the program was started with it. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-- No host operation before the launch writes `main_arg1`: the launch finds it as the program was started with it. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-- No host operation before the launch writes `main_arg2`: the launch finds it as the program was started with it. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-- No host operation before the launch writes `main_arg3`: the launch finds it as the program was started with it. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-- No host operation before the launch writes `main_arg4`: the launch finds it as the program was started with it. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-- No host operation before the launch writes `main_arg5`: the launch finds it as the program was started with it. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-- No host operation before the launch writes `main_arg6`: the launch finds it as the program was started with it. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-- No host operation before the launch writes `main_arg7`: the launch finds it as the program was started with it. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-- No host operation before the launch writes `main_arg8`: the launch finds it as the program was started with it. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-- No host operation before the launch writes `main_arg9`: the launch finds it as the program was started with it. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-- No host operation before the launch writes `main_arg10`: the launch finds it as the program was started with it. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-! ## The windows' blocks -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the pipeline fetched it there or
    kept it from the point before (then the block index has not moved). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the pipeline fetched it there or
    kept it from the point before (then the block index has not moved). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the pipeline fetched it there or
    kept it from the point before (then the block index has not moved). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether the pipeline fetched it there or
    kept it from the point before (then the block index has not moved). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, whether the pipeline fetched it there or
    kept it from the point before (then the block index has not moved). -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, whether the pipeline fetched it there or
    kept it from the point before (then the block index has not moved). -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run of the launch -/

/-- For any proof data whose arrays are the launch-entry contents, a run ending in the library's frame post leaves
    every argument array as the program was started with it: the cell state `main_arg2` is a window's array (an
    input window's array ends as it began), the other ten arguments are read only by host operations. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).1 5).trans (((dats 0 c).arrAt_in 5 rfl _).trans ((hA c 5).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c)⟩) h

/-! ## The body's two conditions -/

/-- "This is the first K-block": the body then zeroes the four accumulators. -/
abbrev cond0_0 (i : grid0.Coords) : Prop := (Scalar.cmpi .ne (Scalar.extui (Scalar.cmpi .eq (BitVec.ofNat 32 (i 2).val) 0#32)) 0#32) = 1#1
/-- The K-block is the grid's last axis, of extent 2: the first block is met at the even points. -/
theorem hcond0_0 : ∀ t : Fin cfg0.N, cond0_0 (grid0.coords t) ↔ t.val % 2 = 0 :=
  (by decide +kernel : ∀ t : Fin grid0.N, cond0_0 (grid0.coords t) ↔ t.val % 2 = 0)

/-- "This is the last K-block": the body then applies the gates and stores both results. -/
abbrev cond0_1 (i : grid0.Coords) : Prop := k0_cond2 i = 1#1
/-- It is met at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- At a first K-block the two result windows are idle (nothing is stored into them) and are not written back. -/
theorem idleAt0_6_A : ∀ t : Fin cfg0.N, cond0_0 (grid0.coords t) → ¬cond0_1 (grid0.coords t) → cfg0.idle 6 (grid0.coords t) = true := by decide +kernel
theorem noFlush0_6_A : ∀ t : Fin cfg0.N, cond0_0 (grid0.coords t) → ¬cond0_1 (grid0.coords t) → (cfg0.win 6).flush t = false := by decide +kernel
theorem idleAt0_7_A : ∀ t : Fin cfg0.N, cond0_0 (grid0.coords t) → ¬cond0_1 (grid0.coords t) → cfg0.idle 7 (grid0.coords t) = true := by decide +kernel
theorem noFlush0_7_A : ∀ t : Fin cfg0.N, cond0_0 (grid0.coords t) → ¬cond0_1 (grid0.coords t) → (cfg0.win 7).flush t = false := by decide +kernel
/-- At a last K-block they are live. -/
theorem liveAt0_6_B : ∀ t : Fin cfg0.N, ¬cond0_0 (grid0.coords t) → cond0_1 (grid0.coords t) → cfg0.idle 6 (grid0.coords t) = false := by decide +kernel
theorem liveAt0_7_B : ∀ t : Fin cfg0.N, ¬cond0_0 (grid0.coords t) → cond0_1 (grid0.coords t) → cfg0.idle 7 (grid0.coords t) = false := by decide +kernel

/-! ## The memrefs the body is called with -/

abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x4x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x4x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x256 .f32 := win0_7.stage (cfg0.slots t 7)
abbrev hs0_7 (t : Fin cfg0.N) : (ms0_7 t).IsWhole := hstage0_7 ((cfg0.slots t 7).cast nbuf0_7)

/-- The four gate accumulators: whole scoped buffers of the kernel's own (gate 0 = forget, 1 = input, 2 = output, 3 = candidate). -/
abbrev scM0_0 : Memref sig .tc .vmem S1024x256 .f32 := Memref.whole cc0_scratch0
abbrev scM0_1 : Memref sig .tc .vmem S1024x256 .f32 := Memref.whole cc0_scratch1
abbrev scM0_2 : Memref sig .tc .vmem S1024x256 .f32 := Memref.whole cc0_scratch2
abbrev scM0_3 : Memref sig .tc .vmem S1024x256 .f32 := Memref.whole cc0_scratch3
/-- The views through which the accumulators' and the results' contents are stated. -/
abbrev VS0_0 : View sig .tc .vmem S1024x256 .f32 := scM0_0.view
abbrev VS0_1 : View sig .tc .vmem S1024x256 .f32 := scM0_1.view
abbrev VS0_2 : View sig .tc .vmem S1024x256 .f32 := scM0_2.view
abbrev VS0_3 : View sig .tc .vmem S1024x256 .f32 := scM0_3.view
abbrev VO0_6 : View sig .tc .vmem S1024x256 .f32 := (Memref.whole cc0_stg6_0 : Memref sig .tc .vmem S1024x256 .f32).view
abbrev VO0_7 : View sig .tc .vmem S1024x256 .f32 := (Memref.whole cc0_stg7_0 : Memref sig .tc .vmem S1024x256 .f32).view

/-- What the launch lends the body besides the windows: the four accumulators, each at some contents, and the
    generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Fr

end
-- ==== Proof.KernelIdealRunA.lean ====
/-
  The body at a FIRST K-block (the even grid points): the four accumulators are zeroed, then each receives its
  gate's share of this block's two products; nothing is stored into the result windows. The body is run once,
  symbolically, on arbitrary whole memrefs: the inputs at their contents, the two result buffers handed back
  untouched, the accumulators taken at anything and given back with the pieces the stores wrote.
-/
import proofs.«153991_j82282983457013_2_alg».proof.Proof.KernelIdealKit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in each accumulator at a first K-block (last store first), with the run:
    from the inputs at `x0 … x5`, the result buffers at `xi6`, `xi7` and the accumulators at anything, the body
    ends with the inputs and the result buffers as they were and each accumulator with its pieces written. -/
noncomputable def kernelRun0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x4x256 .bf16) (harg5 : arg5.IsWhole) (arg6 : Memref sig .tc .vmem S1024x4x256 .bf16) (harg6 : arg6.IsWhole) (arg7 : Memref sig .tc .vmem S4x256 .f32) (harg7 : arg7.IsWhole) (arg8 : Memref sig .tc .vmem S1024x256 .f32) (harg8 : arg8.IsWhole) (arg9 : Memref sig .tc .vmem S1024x256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole) (hc0 : cond0_0 i) (hc1 : ¬cond0_1 i)
    (x0 : Vec F S1024x1024 .bf16) (x1 : Vec F S1024x1024 .bf16) (x2 : Vec F S1024x4x256 .bf16) (x3 : Vec F S1024x4x256 .bf16) (x4 : Vec F S4x256 .f32) (x5 : Vec F S1024x256 .f32) :
    Σ' (LS0 : List (View.Piece (Elt F) S1024x256 .f32)) (LS1 : List (View.Piece (Elt F) S1024x256 .f32)) (LS2 : List (View.Piece (Elt F) S1024x256 .f32)), { LS3 : List (View.Piece (Elt F) S1024x256 .f32) //
      ∀ (xi6 xi7 : Vec F S1024x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xi7
            ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xi7
                ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ (∃ f, arg14.view.loc (c : Thread nD τ) ↦[arg14.view.set]{fullShare} arg14.view.writes (Elt F) f LS3)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun xi6 xi7 E K => ?run⟩
  case run =>
    simp only [cc0__fused_kernel_eq_skeleton]; unfold cc0__fused_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg9.eq_unread hf6; obtain rfl := harg10.eq_unread hf7
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [HS0]; · iexists _; iexact HS0
    isplitl [HS1]; · iexists _; iexact HS1
    isplitl [HS2]; · iexists _; iexact HS2
    iexists _; iexact HS3

end Cert.KernelIdeal.Fr

end
-- ==== Proof.KernelIdealRunB.lean ====
/-
  The body at a LAST K-block (the odd grid points): each accumulator, holding what the first K-block left in it,
  receives this block's share; then the gates are applied to the accumulators plus the biases and the new hidden
  and cell states are stored whole into the two result windows. Run once, symbolically, on arbitrary whole memrefs.
-/
import proofs.«153991_j82282983457013_2_alg».proof.Proof.KernelIdealRunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the two result buffers and in each accumulator at a last K-block, with the
    run: from the inputs at `x0 … x5`, the result buffers at anything and the accumulators at `xs0 … xs3`, the body
    ends with the inputs as they were and each of the six written buffers with its pieces. -/
noncomputable def kernelRun0_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x4x256 .bf16) (harg5 : arg5.IsWhole) (arg6 : Memref sig .tc .vmem S1024x4x256 .bf16) (harg6 : arg6.IsWhole) (arg7 : Memref sig .tc .vmem S4x256 .f32) (harg7 : arg7.IsWhole) (arg8 : Memref sig .tc .vmem S1024x256 .f32) (harg8 : arg8.IsWhole) (arg9 : Memref sig .tc .vmem S1024x256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole) (hc0 : ¬cond0_0 i) (hc1 : cond0_1 i)
    (x0 : Vec F S1024x1024 .bf16) (x1 : Vec F S1024x1024 .bf16) (x2 : Vec F S1024x4x256 .bf16) (x3 : Vec F S1024x4x256 .bf16) (x4 : Vec F S4x256 .f32) (x5 : Vec F S1024x256 .f32)
    (xs0 xs1 xs2 xs3 : Vec F S1024x256 .f32) :
    Σ' (L6 : List (View.Piece (Elt F) S1024x256 .f32)) (L7 : List (View.Piece (Elt F) S1024x256 .f32)) (LS0 : List (View.Piece (Elt F) S1024x256 .f32)) (LS1 : List (View.Piece (Elt F) S1024x256 .f32)) (LS2 : List (View.Piece (Elt F) S1024x256 .f32)), { LS3 : List (View.Piece (Elt F) S1024x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d)
            ∗ owns (c : Thread nD τ) arg11 fullShare xs0 ∗ owns (c : Thread nD τ) arg12 fullShare xs1 ∗ owns (c : Thread nD τ) arg13 fullShare xs2 ∗ owns (c : Thread nD τ) arg14 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7)
                ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ (∃ f, arg14.view.loc (c : Thread nD τ) ↦[arg14.view.set]{fullShare} arg14.view.writes (Elt F) f LS3)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, fun E K => ?run⟩
  case run =>
    simp only [cc0__fused_kernel_eq_skeleton]; unfold cc0__fused_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5
    obtain rfl := harg11.eq_unread hfs0; obtain rfl := harg12.eq_unread hfs1; obtain rfl := harg13.eq_unread hfs2; obtain rfl := harg14.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]; · iexists _; iexact H7
    isplitl [HS0]; · iexists _; iexact HS0
    isplitl [HS1]; · iexists _; iexact HS1
    isplitl [HS2]; · iexists _; iexact HS2
    iexists _; iexact HS3

end Cert.KernelIdeal.Fr

end
-- ==== Proof.KernelIdealFrame.lean ====
/-
  The frame of the fused LSTM launch: what the four gate accumulators and the two result buffers hold after the
  body at every grid point, the invariant that carries the accumulators from a first K-block to the last one, the
  body's obligation to the pipeline at every point, the run of @main, and the frame claim.

  The grid is 4 × 8 × 2 with the K-block innermost, so the points come in pairs: an even point zeroes the
  accumulators and adds the first K-block's products; the odd point after it adds the second block's, applies the
  gates and stores the results, which the pipeline then writes back. An odd point depends on nothing but its own
  input blocks and what the even point just before it left in the accumulators.
-/
import proofs.«153991_j82282983457013_2_alg».proof.Proof.KernelIdealRunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two runs at a grid point -/

/-- The first-K-block run at an even point, on the memrefs and input blocks the pipeline hands the body there. -/
abbrev runA (c : Dev nD) (t : Fin cfg0.N) (h : t.val % 2 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _)
    ((hcond0_0 t).mpr h) (fun h' => by have := (hcond0_1 t).mp h'; omega) (iblk m c 0 t) (iblk m c 1 t) (iblk m c 2 t) (iblk m c 3 t) (iblk m c 4 t) (iblk m c 5 t)

/-- The last-K-block run at an odd point, the accumulators at `xs0 … xs3`. -/
abbrev runB (c : Dev nD) (t : Fin cfg0.N) (h : t.val % 2 = 1) (xs0 xs1 xs2 xs3 : Vec F S1024x256 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _)
    (fun h' => by have := (hcond0_0 t).mp h'; omega) ((hcond0_1 t).mpr h) (iblk m c 0 t) (iblk m c 1 t) (iblk m c 2 t) (iblk m c 3 t) (iblk m c 4 t) (iblk m c 5 t) xs0 xs1 xs2 xs3

/-! ## What each buffer holds after a run: its pieces read back -/

/-- The pieces a first K-block writes into accumulator 0 cover it. -/
theorem coverA0 (c : Dev nD) (t : Fin cfg0.N) (h : t.val % 2 = 0) (y : S1024x256.Idx) :
    ∃ pc ∈ (runA m c t h).1, y ∈ pc.1.set :=
  View.cover_of_tiledL (runA m c t h).1 S1024x256.size (by sl_kernel_rfl) y
/-- What a first K-block leaves in accumulator 0. -/
def sA0 (c : Dev nD) (t : Fin cfg0.N) (h : t.val % 2 = 0) : Vec F S1024x256 .f32 :=
  VS0_0.read (Elt F) (VS0_0.writes (Elt F) VS0_0.junk (runA m c t h).1)

/-- The pieces a first K-block writes into accumulator 1 cover it. -/
theorem coverA1 (c : Dev nD) (t : Fin cfg0.N) (h : t.val % 2 = 0) (y : S1024x256.Idx) :
    ∃ pc ∈ (runA m c t h).2.1, y ∈ pc.1.set :=
  View.cover_of_tiledL (runA m c t h).2.1 S1024x256.size (by sl_kernel_rfl) y
/-- What a first K-block leaves in accumulator 1. -/
def sA1 (c : Dev nD) (t : Fin cfg0.N) (h : t.val % 2 = 0) : Vec F S1024x256 .f32 :=
  VS0_1.read (Elt F) (VS0_1.writes (Elt F) VS0_1.junk (runA m c t h).2.1)

/-- The pieces a first K-block writes into accumulator 2 cover it. -/
theorem coverA2 (c : Dev nD) (t : Fin cfg0.N) (h : t.val % 2 = 0) (y : S1024x256.Idx) :
    ∃ pc ∈ (runA m c t h).2.2.1, y ∈ pc.1.set :=
  View.cover_of_tiledL (runA m c t h).2.2.1 S1024x256.size (by sl_kernel_rfl) y
/-- What a first K-block leaves in accumulator 2. -/
def sA2 (c : Dev nD) (t : Fin cfg0.N) (h : t.val % 2 = 0) : Vec F S1024x256 .f32 :=
  VS0_2.read (Elt F) (VS0_2.writes (Elt F) VS0_2.junk (runA m c t h).2.2.1)

/-- The pieces a first K-block writes into accumulator 3 cover it. -/
theorem coverA3 (c : Dev nD) (t : Fin cfg0.N) (h : t.val % 2 = 0) (y : S1024x256.Idx) :
    ∃ pc ∈ (runA m c t h).2.2.2.1, y ∈ pc.1.set :=
  View.cover_of_tiledL (runA m c t h).2.2.2.1 S1024x256.size (by sl_kernel_rfl) y
/-- What a first K-block leaves in accumulator 3. -/
def sA3 (c : Dev nD) (t : Fin cfg0.N) (h : t.val % 2 = 0) : Vec F S1024x256 .f32 :=
  VS0_3.read (Elt F) (VS0_3.writes (Elt F) VS0_3.junk (runA m c t h).2.2.2.1)

/-- The pieces a last K-block writes into result buffer 6 cover it. -/
theorem coverB0 (c : Dev nD) (t : Fin cfg0.N) (h : t.val % 2 = 1) (xs0 xs1 xs2 xs3 : Vec F S1024x256 .f32) (y : S1024x256.Idx) :
    ∃ pc ∈ (runB m c t h xs0 xs1 xs2 xs3).1, y ∈ pc.1.set :=
  View.cover_of_tiledL (runB m c t h xs0 xs1 xs2 xs3).1 S1024x256.size (by sl_kernel_rfl) y
/-- What a last K-block leaves there. -/
def oB6 (c : Dev nD) (t : Fin cfg0.N) (h : t.val % 2 = 1) (xs0 xs1 xs2 xs3 : Vec F S1024x256 .f32) : Vec F S1024x256 .f32 :=
  VO0_6.read (Elt F) (VO0_6.writes (Elt F) VO0_6.junk (runB m c t h xs0 xs1 xs2 xs3).1)

/-- The pieces a last K-block writes into result buffer 7 cover it. -/
theorem coverB1 (c : Dev nD) (t : Fin cfg0.N) (h : t.val % 2 = 1) (xs0 xs1 xs2 xs3 : Vec F S1024x256 .f32) (y : S1024x256.Idx) :
    ∃ pc ∈ (runB m c t h xs0 xs1 xs2 xs3).2.1, y ∈ pc.1.set :=
  View.cover_of_tiledL (runB m c t h xs0 xs1 xs2 xs3).2.1 S1024x256.size (by sl_kernel_rfl) y
/-- What a last K-block leaves there. -/
def oB7 (c : Dev nD) (t : Fin cfg0.N) (h : t.val % 2 = 1) (xs0 xs1 xs2 xs3 : Vec F S1024x256 .f32) : Vec F S1024x256 .f32 :=
  VO0_7.read (Elt F) (VO0_7.writes (Elt F) VO0_7.junk (runB m c t h xs0 xs1 xs2 xs3).2.1)

/-- The pieces a last K-block writes into accumulator 0 cover it. -/
theorem coverB2 (c : Dev nD) (t : Fin cfg0.N) (h : t.val % 2 = 1) (xs0 xs1 xs2 xs3 : Vec F S1024x256 .f32) (y : S1024x256.Idx) :
    ∃ pc ∈ (runB m c t h xs0 xs1 xs2 xs3).2.2.1, y ∈ pc.1.set :=
  View.cover_of_tiledL (runB m c t h xs0 xs1 xs2 xs3).2.2.1 S1024x256.size (by sl_kernel_rfl) y
/-- What a last K-block leaves there. -/
def sB0 (c : Dev nD) (t : Fin cfg0.N) (h : t.val % 2 = 1) (xs0 xs1 xs2 xs3 : Vec F S1024x256 .f32) : Vec F S1024x256 .f32 :=
  VS0_0.read (Elt F) (VS0_0.writes (Elt F) VS0_0.junk (runB m c t h xs0 xs1 xs2 xs3).2.2.1)

/-- The pieces a last K-block writes into accumulator 1 cover it. -/
theorem coverB3 (c : Dev nD) (t : Fin cfg0.N) (h : t.val % 2 = 1) (xs0 xs1 xs2 xs3 : Vec F S1024x256 .f32) (y : S1024x256.Idx) :
    ∃ pc ∈ (runB m c t h xs0 xs1 xs2 xs3).2.2.2.1, y ∈ pc.1.set :=
  View.cover_of_tiledL (runB m c t h xs0 xs1 xs2 xs3).2.2.2.1 S1024x256.size (by sl_kernel_rfl) y
/-- What a last K-block leaves there. -/
def sB1 (c : Dev nD) (t : Fin cfg0.N) (h : t.val % 2 = 1) (xs0 xs1 xs2 xs3 : Vec F S1024x256 .f32) : Vec F S1024x256 .f32 :=
  VS0_1.read (Elt F) (VS0_1.writes (Elt F) VS0_1.junk (runB m c t h xs0 xs1 xs2 xs3).2.2.2.1)

/-- The pieces a last K-block writes into accumulator 2 cover it. -/
theorem coverB4 (c : Dev nD) (t : Fin cfg0.N) (h : t.val % 2 = 1) (xs0 xs1 xs2 xs3 : Vec F S1024x256 .f32) (y : S1024x256.Idx) :
    ∃ pc ∈ (runB m c t h xs0 xs1 xs2 xs3).2.2.2.2.1, y ∈ pc.1.set :=
  View.cover_of_tiledL (runB m c t h xs0 xs1 xs2 xs3).2.2.2.2.1 S1024x256.size (by sl_kernel_rfl) y
/-- What a last K-block leaves there. -/
def sB2 (c : Dev nD) (t : Fin cfg0.N) (h : t.val % 2 = 1) (xs0 xs1 xs2 xs3 : Vec F S1024x256 .f32) : Vec F S1024x256 .f32 :=
  VS0_2.read (Elt F) (VS0_2.writes (Elt F) VS0_2.junk (runB m c t h xs0 xs1 xs2 xs3).2.2.2.2.1)

/-- The pieces a last K-block writes into accumulator 3 cover it. -/
theorem coverB5 (c : Dev nD) (t : Fin cfg0.N) (h : t.val % 2 = 1) (xs0 xs1 xs2 xs3 : Vec F S1024x256 .f32) (y : S1024x256.Idx) :
    ∃ pc ∈ (runB m c t h xs0 xs1 xs2 xs3).2.2.2.2.2.1, y ∈ pc.1.set :=
  View.cover_of_tiledL (runB m c t h xs0 xs1 xs2 xs3).2.2.2.2.2.1 S1024x256.size (by sl_kernel_rfl) y
/-- What a last K-block leaves there. -/
def sB3 (c : Dev nD) (t : Fin cfg0.N) (h : t.val % 2 = 1) (xs0 xs1 xs2 xs3 : Vec F S1024x256 .f32) : Vec F S1024x256 .f32 :=
  VS0_3.read (Elt F) (VS0_3.writes (Elt F) VS0_3.junk (runB m c t h xs0 xs1 xs2 xs3).2.2.2.2.2.1)

/-! ## Point by point -/

/-- The six buffers after a point: the two result buffers, then the four accumulators. -/
abbrev Outs (F : FTy → Type) [FloatOps F] : Type := Vec F S1024x256 .f32 × Vec F S1024x256 .f32 × Vec F S1024x256 .f32 × Vec F S1024x256 .f32 × Vec F S1024x256 .f32 × Vec F S1024x256 .f32

/-- The point before an odd point. -/
abbrev prevPt (n : ℕ) (hn : n < cfg0.N) : Fin cfg0.N := ⟨n - 1, Nat.lt_of_le_of_lt (Nat.sub_le _ _) hn⟩

/-- What the buffers hold after the body at position `n`. At an even point the accumulators hold the first
    K-block's run (the result buffers are idle there: a placeholder nothing consults); at an odd point everything
    is the last K-block's run over what the even point before left in the accumulators. -/
def outsAt0 (c : Dev nD) (n : ℕ) (hn : n < cfg0.N) : Outs F :=
  if h : n % 2 = 0 then
    (VO0_6.read (Elt F) VO0_6.junk, VO0_7.read (Elt F) VO0_7.junk,
      sA0 m c ⟨n, hn⟩ h, sA1 m c ⟨n, hn⟩ h, sA2 m c ⟨n, hn⟩ h, sA3 m c ⟨n, hn⟩ h)
  else
    have hp : (prevPt n hn).val % 2 = 0 := by show (n - 1) % 2 = 0; omega
    have ho : (⟨n, hn⟩ : Fin cfg0.N).val % 2 = 1 := by show n % 2 = 1; omega
    (oB6 m c ⟨n, hn⟩ ho (sA0 m c (prevPt n hn) hp) (sA1 m c (prevPt n hn) hp) (sA2 m c (prevPt n hn) hp) (sA3 m c (prevPt n hn) hp),
      oB7 m c ⟨n, hn⟩ ho (sA0 m c (prevPt n hn) hp) (sA1 m c (prevPt n hn) hp) (sA2 m c (prevPt n hn) hp) (sA3 m c (prevPt n hn) hp),
      sB0 m c ⟨n, hn⟩ ho (sA0 m c (prevPt n hn) hp) (sA1 m c (prevPt n hn) hp) (sA2 m c (prevPt n hn) hp) (sA3 m c (prevPt n hn) hp),
      sB1 m c ⟨n, hn⟩ ho (sA0 m c (prevPt n hn) hp) (sA1 m c (prevPt n hn) hp) (sA2 m c (prevPt n hn) hp) (sA3 m c (prevPt n hn) hp),
      sB2 m c ⟨n, hn⟩ ho (sA0 m c (prevPt n hn) hp) (sA1 m c (prevPt n hn) hp) (sA2 m c (prevPt n hn) hp) (sA3 m c (prevPt n hn) hp),
      sB3 m c ⟨n, hn⟩ ho (sA0 m c (prevPt n hn) hp) (sA1 m c (prevPt n hn) hp) (sA2 m c (prevPt n hn) hp) (sA3 m c (prevPt n hn) hp))

/-- At an even point. -/
theorem outsAt0_A (c : Dev nD) (t : Fin cfg0.N) (h : t.val % 2 = 0) :
    outsAt0 m c t.val t.isLt = (VO0_6.read (Elt F) VO0_6.junk, VO0_7.read (Elt F) VO0_7.junk, sA0 m c t h, sA1 m c t h, sA2 m c t h, sA3 m c t h) :=
  dif_pos h

/-- The even point before an odd one. -/
theorem prev_even (t : Fin cfg0.N) (h : t.val % 2 = 1) : (prevPt t.val t.isLt).val % 2 = 0 := by
  show (t.val - 1) % 2 = 0; omega

/-- At an odd point. -/
theorem outsAt0_B (c : Dev nD) (t : Fin cfg0.N) (h : t.val % 2 = 1) :
    outsAt0 m c t.val t.isLt =
      (oB6 m c t h (sA0 m c (prevPt t.val t.isLt) (prev_even t h)) (sA1 m c (prevPt t.val t.isLt) (prev_even t h)) (sA2 m c (prevPt t.val t.isLt) (prev_even t h)) (sA3 m c (prevPt t.val t.isLt) (prev_even t h)),
        oB7 m c t h (sA0 m c (prevPt t.val t.isLt) (prev_even t h)) (sA1 m c (prevPt t.val t.isLt) (prev_even t h)) (sA2 m c (prevPt t.val t.isLt) (prev_even t h)) (sA3 m c (prevPt t.val t.isLt) (prev_even t h)),
        sB0 m c t h (sA0 m c (prevPt t.val t.isLt) (prev_even t h)) (sA1 m c (prevPt t.val t.isLt) (prev_even t h)) (sA2 m c (prevPt t.val t.isLt) (prev_even t h)) (sA3 m c (prevPt t.val t.isLt) (prev_even t h)),
        sB1 m c t h (sA0 m c (prevPt t.val t.isLt) (prev_even t h)) (sA1 m c (prevPt t.val t.isLt) (prev_even t h)) (sA2 m c (prevPt t.val t.isLt) (prev_even t h)) (sA3 m c (prevPt t.val t.isLt) (prev_even t h)),
        sB2 m c t h (sA0 m c (prevPt t.val t.isLt) (prev_even t h)) (sA1 m c (prevPt t.val t.isLt) (prev_even t h)) (sA2 m c (prevPt t.val t.isLt) (prev_even t h)) (sA3 m c (prevPt t.val t.isLt) (prev_even t h)),
        sB3 m c t h (sA0 m c (prevPt t.val t.isLt) (prev_even t h)) (sA1 m c (prevPt t.val t.isLt) (prev_even t h)) (sA2 m c (prevPt t.val t.isLt) (prev_even t h)) (sA3 m c (prevPt t.val t.isLt) (prev_even t h))) :=
  dif_neg (by omega)

/-- The accumulators owned at the contents position `n` left, and the generator register. -/
def accAt (c : Dev nD) (n : ℕ) (hn : n < cfg0.N) : sProp 𝕄 :=
  iprop(iprop(owns (c : Thread nD τ) scM0_0 fullShare ((outsAt0 m c n hn).2.2.1) ∗ owns (c : Thread nD τ) scM0_1 fullShare ((outsAt0 m c n hn).2.2.2.1)
    ∗ owns (c : Thread nD τ) scM0_2 fullShare ((outsAt0 m c n hn).2.2.2.2.1) ∗ owns (c : Thread nD τ) scM0_3 fullShare ((outsAt0 m c n hn).2.2.2.2.2)) ∗ (∃ r, prngReg c r))

/-- The invariant before position `n`: before the first point what the launch lends (the accumulators at
    anything); afterwards the accumulators at what the point before left. -/
def PhiS (c : Dev nD) : (n : ℕ) → n ≤ cfg0.N → sProp 𝕄
  | 0, _ => Pipeline.ΦA spec0 c
  | n + 1, hn => accAt m c n hn

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) : PhiS m c (n + 1) hn = accAt m c n hn := rfl

theorem PhiS_pos (c : Dev nD) (n : ℕ) (h : n ≤ cfg0.N) (hz : n ≠ 0) :
    PhiS m c n h = accAt m c (n - 1) (by omega) := by
  cases n with
  | zero => exact absurd rfl hz
  | succ n => rfl

/-! ## The pipeline's proof data -/

/-- On core `c`: the arrays as the launch finds them; after the body at `t` each input's buffer at its block and
    the result buffers at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4800000 in
/-- The body at any point. The inputs' memrefs hold their blocks; the point's parity says which run applies. At an
    even point the accumulators are taken at anything (what the launch lent, or what the pair before left) and
    handed back at this point's contents, the idle result buffers untouched; at an odd point the accumulators are
    taken at what the even point left and the result buffers come back holding the new states. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 2 = 0
  · have hc0 : cond0_0 (grid0.coords t) := (hcond0_0 t).mpr h0
    have hc1 : ¬cond0_1 (grid0.coords t) := fun h' => by have := (hcond0_1 t).mp h'; omega
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [Dat.leavesExact_idle (dats m 0 c) 6 t (idleAt0_6_A t hc0 hc1) (noFlush0_6_A t hc0 hc1)]
    rw [Dat.leavesExact_idle (dats m 0 c) 7 t (idleAt0_7_A t hc0 hc1) (noFlush0_7_A t hc0 hc1)]
    unfold accAt
    rw [outsAt0_A m c t h0]
    unfold sA0 sA1 sA2 sA3; (try dsimp only)
    by_cases hz : t.val = 0
    · rw [PhiS_castSucc m c t, PhiS_zero m c _ _ hz, PhiA0_eq]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA m c t h0).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      iintro ⟨H0, H1, H2, H3, H4, H5, H6, H7, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (coverA0 m c t h0)
          isplitl [HS1]
          · unfold owns; iexists _; isplitr
            swap; · iexact HS1
            ipureintro; exact View.read_writes_of_cover _ _ _ _ _ (coverA1 m c t h0)
          isplitl [HS2]
          · unfold owns; iexists _; isplitr
            swap; · iexact HS2
            ipureintro; exact View.read_writes_of_cover _ _ _ _ _ (coverA2 m c t h0)
          unfold owns; iexists _; isplitr
          swap; · iexact HS3
          ipureintro; exact View.read_writes_of_cover _ _ _ _ _ (coverA3 m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    · rw [PhiS_castSucc m c t, PhiS_pos m c _ _ hz]
      unfold accAt
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA m c t h0).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      isplitl [HS1]; · iexists _; iexact HS1
      isplitl [HS2]; · iexists _; iexact HS2
      isplitl [HS3]; · iexists _; iexact HS3
      iintro ⟨H0, H1, H2, H3, H4, H5, H6, H7, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (coverA0 m c t h0)
          isplitl [HS1]
          · unfold owns; iexists _; isplitr
            swap; · iexact HS1
            ipureintro; exact View.read_writes_of_cover _ _ _ _ _ (coverA1 m c t h0)
          isplitl [HS2]
          · unfold owns; iexists _; isplitr
            swap; · iexact HS2
            ipureintro; exact View.read_writes_of_cover _ _ _ _ _ (coverA2 m c t h0)
          unfold owns; iexists _; isplitr
          swap; · iexact HS3
          ipureintro; exact View.read_writes_of_cover _ _ _ _ _ (coverA3 m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
  · have h1 : t.val % 2 = 1 := by omega
    have hc0 : ¬cond0_0 (grid0.coords t) := fun h' => by have := (hcond0_0 t).mp h'; omega
    have hc1 : cond0_1 (grid0.coords t) := (hcond0_1 t).mpr h1
    have hz : t.val ≠ 0 := by omega
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6_B t hc0 hc1], after0_6]
    rw [show (dats m 0 c).leavesExact 7 t = owns (c : Thread nD τ) (ms0_7 t) fullShare ((dats m 0 c).after 7 t) from by
      unfold Dat.leavesExact; rw [liveAt0_7_B t hc0 hc1], after0_7]
    unfold accAt
    rw [outsAt0_B m c t h1]
    unfold oB6 oB7 sB0 sB1 sB2 sB3; (try dsimp only)
    rw [PhiS_castSucc m c t, PhiS_pos m c _ _ hz]
    unfold accAt
    rw [outsAt0_A m c (prevPt t.val t.isLt) (prev_even t h1)]; (try dsimp only)
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runB m c t h1 _ _ _ _).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexact HS1
    isplitl [HS2]; · iexact HS2
    isplitl [HS3]; · iexact HS3
    iintro ⟨H0, H1, H2, H3, H4, H5, ⟨%e6, H6⟩, ⟨%e7, H7⟩, ⟨%es0, HS0⟩, ⟨%es1, HS1⟩, ⟨%es2, HS2⟩, ⟨%es3, HS3⟩⟩
    isplitl [HS0 HS1 HS2 HS3 Hg]
    · isplitl [HS0 HS1 HS2 HS3]
      · isplitl [HS0]
        · unfold owns; iexists _; isplitr
          swap; · iexact HS0
          ipureintro; exact View.read_writes_of_cover _ _ _ _ _ (coverB2 m c t h1 _ _ _ _)
        isplitl [HS1]
        · unfold owns; iexists _; isplitr
          swap; · iexact HS1
          ipureintro; exact View.read_writes_of_cover _ _ _ _ _ (coverB3 m c t h1 _ _ _ _)
        isplitl [HS2]
        · unfold owns; iexists _; isplitr
          swap; · iexact HS2
          ipureintro; exact View.read_writes_of_cover _ _ _ _ _ (coverB4 m c t h1 _ _ _ _)
        unfold owns; iexists _; isplitr
        swap; · iexact HS3
        ipureintro; exact View.read_writes_of_cover _ _ _ _ _ (coverB5 m c t h1 _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (coverB0 m c t h1 _ _ _ _)
    unfold owns; iexists _; isplitr
    swap; · iexact H7
    ipureintro; exact View.read_writes_of_cover _ _ _ _ _ (coverB1 m c t h1 _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch lends is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: the accumulators' contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA0_eq]
  unfold accAt
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

/-! ## The run and the frame -/

set_option backward.isDefEq.respectTransparency.types false in
/-- Every weakly fair execution of @main terminates, and every final state has each array of the pipeline at what
    the library computes from the proof data and every other unscoped buffer as the launch found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- The frame: @main runs to the end and leaves its eleven argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Fr

end
-- ==== Proof.KernelIdealPieces.lean ====
/-
  What the body's stores leave, read back as values.

  Each buffer the body writes ends holding the payload of its last covering store; the loads that payload was
  computed from read either a window's block, or an accumulator as the point found it, or — after a store
  earlier in the same run — that store's payload. So at a first K-block accumulator `g` ends at
  `0 + (x·wx_g + h·wh_g)`, and at a last K-block the two result buffers end at the gates applied to
  `acc_g + (x·wx_g + h·wh_g) + b_g`, all spelled through the body's named payloads.
-/
import proofs.«153991_j82282983457013_2_alg».proof.Proof.KernelIdealFrame
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- An accumulator handed to the body at contents `xs` reads back `xs`. -/
theorem scratch_read (b : Ref sig .tc) (hw : (Memref.whole b).IsWhole) (xs : b.ty.shape.Idx → Elt F b.ty.elt) :
    View.read (Elt F) (View.whole b) (hw.unread xs) = xs :=
  hw.read_unread xs

/-- Accumulator 0 after a first K-block: the zero block plus the block's two products for gate 0. -/
theorem sA0_eq (c : Dev nD) (t : Fin cfg0.N) (h : t.val % 2 = 0) :
    sA0 m c t h = k0_pay14 (iblk m c 0 t) (iblk m c 1 t) (iblk m c 2 t) (iblk m c 3 t) (k0_pay6 (F := F)) := by
  unfold sA0
  rw [View.read_writes_eq_canon _ _ _ (coverA0 m c t h)]
  unfold runA kernelRun0_A
  dsimp only
  sl_unfold_words
  rw [View.canon_cons_unit_zero (S := S1024x256) hz2]
  simp only [View.readAt_eq_ld, Memref.IsWhole.read_unread, View.ld_unit_zero (S := S1024x256) hz2, View.ld_unit_zero (S := S1024x1024) hz2, View.ld_unit_zero (S := S1024x4x256) hz3, View.readCov_unit_zero (S := S1024x256) _ hz2]

/-- Accumulator 1 after a first K-block: the zero block plus the block's two products for gate 1. -/
theorem sA1_eq (c : Dev nD) (t : Fin cfg0.N) (h : t.val % 2 = 0) :
    sA1 m c t h = k0_pay1 (k0_pay15 (iblk m c 0 t) (iblk m c 1 t) (iblk m c 2 t) (iblk m c 3 t) (k0_pay7 (F := F))) := by
  unfold sA1
  rw [View.read_writes_eq_canon _ _ _ (coverA1 m c t h)]
  unfold runA kernelRun0_A
  dsimp only
  sl_unfold_words
  rw [View.canon_cons_unit_zero (S := S1024x256) hz2]
  simp only [View.readAt_eq_ld, Memref.IsWhole.read_unread, View.ld_unit_zero (S := S1024x256) hz2, View.ld_unit_zero (S := S1024x1024) hz2, View.ld_unit_zero (S := S1024x4x256) hz3, View.readCov_unit_zero (S := S1024x256) _ hz2]

/-- Accumulator 2 after a first K-block: the zero block plus the block's two products for gate 2. -/
theorem sA2_eq (c : Dev nD) (t : Fin cfg0.N) (h : t.val % 2 = 0) :
    sA2 m c t h = k0_pay2 (k0_pay10 (iblk m c 0 t)) (k0_pay11 (iblk m c 1 t)) (k0_pay12 (iblk m c 2 t)) (k0_pay13 (iblk m c 3 t)) (k0_pay8 (F := F)) := by
  unfold sA2
  rw [View.read_writes_eq_canon _ _ _ (coverA2 m c t h)]
  unfold runA kernelRun0_A
  dsimp only
  sl_unfold_words
  rw [View.canon_cons_unit_zero (S := S1024x256) hz2]
  simp only [View.readAt_eq_ld, Memref.IsWhole.read_unread, View.ld_unit_zero (S := S1024x256) hz2, View.ld_unit_zero (S := S1024x1024) hz2, View.ld_unit_zero (S := S1024x4x256) hz3, View.readCov_unit_zero (S := S1024x256) _ hz2]

/-- Accumulator 3 after a first K-block: the zero block plus the block's two products for gate 3. -/
theorem sA3_eq (c : Dev nD) (t : Fin cfg0.N) (h : t.val % 2 = 0) :
    sA3 m c t h = k0_pay3 (k0_pay10 (iblk m c 0 t)) (k0_pay11 (iblk m c 1 t)) (k0_pay12 (iblk m c 2 t)) (k0_pay13 (iblk m c 3 t)) (k0_pay9 (F := F)) := by
  unfold sA3
  rw [View.read_writes_eq_canon _ _ _ (coverA3 m c t h)]
  unfold runA kernelRun0_A
  dsimp only
  sl_unfold_words
  rw [View.canon_cons_unit_zero (S := S1024x256) hz2]
  simp only [View.readAt_eq_ld, Memref.IsWhole.read_unread, View.ld_unit_zero (S := S1024x256) hz2, View.ld_unit_zero (S := S1024x1024) hz2, View.ld_unit_zero (S := S1024x4x256) hz3, View.readCov_unit_zero (S := S1024x256) _ hz2]

/-- The new cell state's buffer after a last K-block, the accumulators having been found at `xs0 … xs3`. -/
theorem oB7_eq (c : Dev nD) (t : Fin cfg0.N) (h : t.val % 2 = 1) (xs0 xs1 xs2 xs3 : Vec F S1024x256 .f32) :
    oB7 m c t h xs0 xs1 xs2 xs3
      = k0_pay4 (k0_pay14 (iblk m c 0 t) (iblk m c 1 t) (iblk m c 2 t) (iblk m c 3 t) xs0) (View.ld (iblk m c 4 t) (Rect.unit ![0, 0] ![1, 256] inb_S4x256_S1x256_0_0)) (k0_pay1 (k0_pay15 (iblk m c 0 t) (iblk m c 1 t) (iblk m c 2 t) (iblk m c 3 t) xs1)) (View.ld (iblk m c 4 t) (Rect.unit ![1, 0] ![1, 256] inb_S4x256_S1x256_1_0)) (k0_pay3 (k0_pay10 (iblk m c 0 t)) (k0_pay11 (iblk m c 1 t)) (k0_pay12 (iblk m c 2 t)) (k0_pay13 (iblk m c 3 t)) xs3) (View.ld (iblk m c 4 t) (Rect.unit ![3, 0] ![1, 256] inb_S4x256_S1x256_3_0)) (iblk m c 5 t) := by
  unfold oB7
  rw [View.read_writes_eq_canon _ _ _ (coverB1 m c t h xs0 xs1 xs2 xs3)]
  unfold runB kernelRun0_B
  dsimp only
  sl_unfold_words
  rw [View.canon_unit_zero hz2]
  simp only [View.readAt_eq_ld, Memref.IsWhole.read_unread, View.ld_unit_zero (S := S1024x256) hz2, View.ld_unit_zero (S := S1024x1024) hz2, View.ld_unit_zero (S := S1024x4x256) hz3, View.readCov_unit_zero (S := S1024x256) _ hz2]
  simp only [scratch_read]
  rfl

/-- The new hidden state's buffer after a last K-block. -/
theorem oB6_eq (c : Dev nD) (t : Fin cfg0.N) (h : t.val % 2 = 1) (xs0 xs1 xs2 xs3 : Vec F S1024x256 .f32) :
    oB6 m c t h xs0 xs1 xs2 xs3
      = k0_pay5 (k0_pay14 (iblk m c 0 t) (iblk m c 1 t) (iblk m c 2 t) (iblk m c 3 t) xs0) (View.ld (iblk m c 4 t) (Rect.unit ![0, 0] ![1, 256] inb_S4x256_S1x256_0_0)) (k0_pay1 (k0_pay15 (iblk m c 0 t) (iblk m c 1 t) (iblk m c 2 t) (iblk m c 3 t) xs1)) (View.ld (iblk m c 4 t) (Rect.unit ![1, 0] ![1, 256] inb_S4x256_S1x256_1_0)) (k0_pay2 (k0_pay10 (iblk m c 0 t)) (k0_pay11 (iblk m c 1 t)) (k0_pay12 (iblk m c 2 t)) (k0_pay13 (iblk m c 3 t)) xs2) (View.ld (iblk m c 4 t) (Rect.unit ![2, 0] ![1, 256] inb_S4x256_S1x256_2_0)) (k0_pay3 (k0_pay10 (iblk m c 0 t)) (k0_pay11 (iblk m c 1 t)) (k0_pay12 (iblk m c 2 t)) (k0_pay13 (iblk m c 3 t)) xs3) (View.ld (iblk m c 4 t) (Rect.unit ![3, 0] ![1, 256] inb_S4x256_S1x256_3_0)) (iblk m c 5 t) := by
  unfold oB6
  rw [View.read_writes_eq_canon _ _ _ (coverB0 m c t h xs0 xs1 xs2 xs3)]
  unfold runB kernelRun0_B
  dsimp only
  sl_unfold_words
  rw [View.canon_unit_zero hz2]
  simp only [View.readAt_eq_ld, Memref.IsWhole.read_unread, View.ld_unit_zero (S := S1024x256) hz2, View.ld_unit_zero (S := S1024x1024) hz2, View.ld_unit_zero (S := S1024x4x256) hz3, View.readCov_unit_zero (S := S1024x256) _ hz2]
  simp only [scratch_read]
  rfl

/-- A bias row loaded through its one-row rectangle: entry `q` of the loaded row is entry `(g, q)` of the block. -/
theorem ld_row (X : Vec F S4x256 .f32) (g : Fin 4) (inb : ∀ a, (![g.val, 0] : Fin 2 → Nat) a + (![1, 256] : Fin 2 → Nat) a ≤ S4x256.size a) (q : Fin 256) :
    View.ld X (Rect.unit (s := S4x256) ![g.val, 0] ![1, 256] inb) (ValueIdx.ix2 (0 : Fin 1) q) = X (ValueIdx.ix2 g q) := by
  show X _ = X _
  congr 1
  funext a
  apply Fin.ext
  match a with
  | ⟨0, _⟩ => show g.val + 1 * 0 = g.val; omega
  | ⟨1, _⟩ => show 0 + 1 * q.val = q.val; omega

end Cert.KernelIdeal.Fr

end
-- ==== Proof.LstmSpec.lean ====
/-
  The LSTM cell as one function of the argument arrays, index by index, on the extended reals.

  For a batch row `r` and a feature `n`, each gate's pre-activation is
      pre X H W b r n = Σ_{k<2048} X[r,k]·W[n,k] + Σ_{k<2048} H[r,k]·W[n,2048+k] + b[n]
  (the weight matrix `W : [2048, 4096]` multiplies the concatenation of `X` and `H`: its first 2048 columns
  meet `X`, its last 2048 meet `H`), and the cell is
      c' = σ(pre_f)·c + σ(pre_g)·tanh(pre_i),    h' = σ(pre_o)·tanh(c').
-/
import Idealize.ShloMosaic.PureOps.Ideal
import Idealize.ShloMosaic.Lib.ValueIdx

noncomputable section

namespace Cert.LstmSpec

open Idealize.ShloMosaic Idealize.ShloMosaic.ValueIdx
open scoped BigOperators

/-- A batch-by-feature array: `X`, `h`, `c` and the two results. -/
abbrev Act : Type := (⟨2, ![4096, 2048]⟩ : Shape).Idx → EReal
/-- A gate's weight matrix, one row per output feature, one column per feature of `[X, h]`. -/
abbrev Wt : Type := (⟨2, ![2048, 4096]⟩ : Shape).Idx → EReal
/-- A gate's bias. -/
abbrev Bias : Type := (⟨1, ![2048]⟩ : Shape).Idx → EReal

/-- Column `k` of the half of a weight matrix that meets `X`. -/
def lo (k : Fin 2048) : Fin 4096 := ⟨k.val, by omega⟩
/-- Column `2048 + k`: the half that meets `h`. -/
def hi (k : Fin 2048) : Fin 4096 := ⟨2048 + k.val, by omega⟩

/-- A gate's pre-activation at batch row `r` and feature `n`. -/
def pre (X H : Act) (W : Wt) (b : Bias) (r : Fin 4096) (n : Fin 2048) : EReal :=
  (∑ k : Fin 2048, X (ix2 r k) * W (ix2 n (lo k))) + (∑ k : Fin 2048, H (ix2 r k) * W (ix2 n (hi k))) + b (ix1 n)

/-- The contraction index `kb·1024 + k` of K-block `kb` (the grid's last axis walks the 2048 features of `X` and of `h` in two blocks of 1024). -/
def kx (kb : Fin 2) (k : Fin 1024) : Fin 2048 := ⟨kb.val * 1024 + k.val, by omega⟩

/-- What K-block `kb` adds to a gate's accumulator at `(r, n)`: the block's share of `X·Wᵀ` plus its share of `h·Wᵀ`. -/
def blockTerm (X H : Act) (W : Wt) (r : Fin 4096) (n : Fin 2048) (kb : Fin 2) : EReal :=
  (∑ k : Fin 1024, X (ix2 r (kx kb k)) * W (ix2 n (lo (kx kb k)))) + (∑ k : Fin 1024, H (ix2 r (kx kb k)) * W (ix2 n (hi (kx kb k))))

/-- The accumulator after both K-blocks, started at zero, plus the bias: the kernel's arrangement of `pre`. -/
def preBlocks (X H : Act) (W : Wt) (b : Bias) (r : Fin 4096) (n : Fin 2048) : EReal :=
  ((0 + blockTerm X H W r n 0) + blockTerm X H W r n 1) + b (ix1 n)

/-- The new cell state at `(r, n)`. -/
def cNewAt (X H C : Act) (Wf : Wt) (bf : Bias) (Wg : Wt) (bg : Bias) (Wi : Wt) (bi : Bias) (r : Fin 4096) (n : Fin 2048) : EReal :=
  Ideal.logistic (pre X H Wf bf r n) * C (ix2 r n) + Ideal.logistic (pre X H Wg bg r n) * Ideal.tanh (pre X H Wi bi r n)

/-- The new hidden state at `(r, n)`. -/
def hNewAt (X H C : Act) (Wf : Wt) (bf : Bias) (Wg : Wt) (bg : Bias) (Wo : Wt) (bo : Bias) (Wi : Wt) (bi : Bias) (r : Fin 4096) (n : Fin 2048) : EReal :=
  Ideal.logistic (pre X H Wo bo r n) * Ideal.tanh (cNewAt X H C Wf bf Wg bg Wi bi r n)

/-- The new cell state, as an array. -/
def cNew (X H C : Act) (Wf : Wt) (bf : Bias) (Wg : Wt) (bg : Bias) (Wi : Wt) (bi : Bias) : Act :=
  fun j => cNewAt X H C Wf bf Wg bg Wi bi (j 0) (j 1)

/-- The new hidden state, as an array. -/
def hNew (X H C : Act) (Wf : Wt) (bf : Bias) (Wg : Wt) (bg : Bias) (Wo : Wt) (bo : Bias) (Wi : Wt) (bi : Bias) : Act :=
  fun j => hNewAt X H C Wf bf Wg bg Wo bo Wi bi (j 0) (j 1)

end Cert.LstmSpec

end
-- ==== Proof.KHost.lean ====
/-
  The host operations before the kernel, read at an entry: the four gates' weight matrices stacked, cut into the half
  that meets `X` and the half that meets `h`, transposed and regrouped by gate, so that entry `(k, g, n)` of either
  regrouped array is gate `g`'s weight of output feature `n` at column `k` of its half; the four biases stacked and
  regrouped by gate; and the activations in the narrower format, which on the extended reals is no change.
-/
import proofs.«153991_j82282983457013_2_alg».proof.Proof.Gen.KernelIdeal.Skeleton
import proofs.«153991_j82282983457013_2_alg».proof.Proof.LstmSpec
import Idealize.ShloMosaic.Lib.ValueLayout

noncomputable section

namespace Cert.KernelIdeal.KHost

open Cert.KernelIdeal Cert.KernelIdeal.Gen Idealize.ShloMosaic Idealize.ShloMosaic.ValueIdx

/-! ## The stacked weights and biases -/

/-- Row `0 + n` of the four weight matrices stacked along the rows is row `n` of the first. -/
theorem wcat0 (w0 w1 w2 w3 : FVec Ideal S2048x4096 .f32) (n : Fin 2048) (c : Fin 4096) (r : Fin 8192)
    (hr : r.val = 0 + n.val) :
    concatenate S8192x4096 0 [⟨S2048x4096, w0⟩, ⟨S2048x4096, w1⟩, ⟨S2048x4096, w2⟩, ⟨S2048x4096, w3⟩] concatenates_S2048x4096_S2048x4096_S2048x4096_S2048x4096_S8192x4096_d0 (ix2 r c)
      = w0 (ix2 n c) := by
  refine concatenate_apply_piece (t := S8192x4096) (0 : Fin 2) [⟨S2048x4096, w0⟩, ⟨S2048x4096, w1⟩, ⟨S2048x4096, w2⟩, ⟨S2048x4096, w3⟩] concatenates_S2048x4096_S2048x4096_S2048x4096_S2048x4096_S8192x4096_d0 (ix2 r c) 0 ?h1 S2048x4096 w0 rfl rfl 0 rfl (ix2 n c) ?h5 ?h6
  case h1 => show (0 : ℕ) < 4; omega
  case h5 =>
    intro b hb
    match b with
    | ⟨0, _⟩ => exact absurd rfl hb
    | ⟨1, _⟩ => rfl
  case h6 =>
    show 0 + n.val = r.val
    omega

/-- Row `2048 + n` of the four weight matrices stacked along the rows is row `n` of the second. -/
theorem wcat1 (w0 w1 w2 w3 : FVec Ideal S2048x4096 .f32) (n : Fin 2048) (c : Fin 4096) (r : Fin 8192)
    (hr : r.val = 2048 + n.val) :
    concatenate S8192x4096 0 [⟨S2048x4096, w0⟩, ⟨S2048x4096, w1⟩, ⟨S2048x4096, w2⟩, ⟨S2048x4096, w3⟩] concatenates_S2048x4096_S2048x4096_S2048x4096_S2048x4096_S8192x4096_d0 (ix2 r c)
      = w1 (ix2 n c) := by
  refine concatenate_apply_piece (t := S8192x4096) (0 : Fin 2) [⟨S2048x4096, w0⟩, ⟨S2048x4096, w1⟩, ⟨S2048x4096, w2⟩, ⟨S2048x4096, w3⟩] concatenates_S2048x4096_S2048x4096_S2048x4096_S2048x4096_S8192x4096_d0 (ix2 r c) 1 ?h1 S2048x4096 w1 rfl rfl 2048 rfl (ix2 n c) ?h5 ?h6
  case h1 => show (1 : ℕ) < 4; omega
  case h5 =>
    intro b hb
    match b with
    | ⟨0, _⟩ => exact absurd rfl hb
    | ⟨1, _⟩ => rfl
  case h6 =>
    show 2048 + n.val = r.val
    omega

/-- Row `4096 + n` of the four weight matrices stacked along the rows is row `n` of the third. -/
theorem wcat2 (w0 w1 w2 w3 : FVec Ideal S2048x4096 .f32) (n : Fin 2048) (c : Fin 4096) (r : Fin 8192)
    (hr : r.val = 4096 + n.val) :
    concatenate S8192x4096 0 [⟨S2048x4096, w0⟩, ⟨S2048x4096, w1⟩, ⟨S2048x4096, w2⟩, ⟨S2048x4096, w3⟩] concatenates_S2048x4096_S2048x4096_S2048x4096_S2048x4096_S8192x4096_d0 (ix2 r c)
      = w2 (ix2 n c) := by
  refine concatenate_apply_piece (t := S8192x4096) (0 : Fin 2) [⟨S2048x4096, w0⟩, ⟨S2048x4096, w1⟩, ⟨S2048x4096, w2⟩, ⟨S2048x4096, w3⟩] concatenates_S2048x4096_S2048x4096_S2048x4096_S2048x4096_S8192x4096_d0 (ix2 r c) 2 ?h1 S2048x4096 w2 rfl rfl 4096 rfl (ix2 n c) ?h5 ?h6
  case h1 => show (2 : ℕ) < 4; omega
  case h5 =>
    intro b hb
    match b with
    | ⟨0, _⟩ => exact absurd rfl hb
    | ⟨1, _⟩ => rfl
  case h6 =>
    show 4096 + n.val = r.val
    omega

/-- Row `6144 + n` of the four weight matrices stacked along the rows is row `n` of the fourth. -/
theorem wcat3 (w0 w1 w2 w3 : FVec Ideal S2048x4096 .f32) (n : Fin 2048) (c : Fin 4096) (r : Fin 8192)
    (hr : r.val = 6144 + n.val) :
    concatenate S8192x4096 0 [⟨S2048x4096, w0⟩, ⟨S2048x4096, w1⟩, ⟨S2048x4096, w2⟩, ⟨S2048x4096, w3⟩] concatenates_S2048x4096_S2048x4096_S2048x4096_S2048x4096_S8192x4096_d0 (ix2 r c)
      = w3 (ix2 n c) := by
  refine concatenate_apply_piece (t := S8192x4096) (0 : Fin 2) [⟨S2048x4096, w0⟩, ⟨S2048x4096, w1⟩, ⟨S2048x4096, w2⟩, ⟨S2048x4096, w3⟩] concatenates_S2048x4096_S2048x4096_S2048x4096_S2048x4096_S8192x4096_d0 (ix2 r c) 3 ?h1 S2048x4096 w3 rfl rfl 6144 rfl (ix2 n c) ?h5 ?h6
  case h1 => show (3 : ℕ) < 4; omega
  case h5 =>
    intro b hb
    match b with
    | ⟨0, _⟩ => exact absurd rfl hb
    | ⟨1, _⟩ => rfl
  case h6 =>
    show 6144 + n.val = r.val
    omega

/-- Entry `0 + n` of the four biases stacked is entry `n` of the first. -/
theorem bcat0 (b0 b1 b2 b3 : FVec Ideal S2048 .f32) (n : Fin 2048) (r : Fin 8192) (hr : r.val = 0 + n.val) :
    concatenate S8192 0 [⟨S2048, b0⟩, ⟨S2048, b1⟩, ⟨S2048, b2⟩, ⟨S2048, b3⟩] concatenates_S2048_S2048_S2048_S2048_S8192_d0 (ix1 r)
      = b0 (ix1 n) := by
  refine concatenate_apply_piece (t := S8192) (0 : Fin 1) [⟨S2048, b0⟩, ⟨S2048, b1⟩, ⟨S2048, b2⟩, ⟨S2048, b3⟩] concatenates_S2048_S2048_S2048_S2048_S8192_d0 (ix1 r) 0 ?h1 S2048 b0 rfl rfl 0 rfl (ix1 n) ?h5 ?h6
  case h1 => show (0 : ℕ) < 4; omega
  case h5 =>
    intro b hb
    match b with
    | ⟨0, _⟩ => exact absurd rfl hb
  case h6 =>
    show 0 + n.val = r.val
    omega

/-- Entry `2048 + n` of the four biases stacked is entry `n` of the second. -/
theorem bcat1 (b0 b1 b2 b3 : FVec Ideal S2048 .f32) (n : Fin 2048) (r : Fin 8192) (hr : r.val = 2048 + n.val) :
    concatenate S8192 0 [⟨S2048, b0⟩, ⟨S2048, b1⟩, ⟨S2048, b2⟩, ⟨S2048, b3⟩] concatenates_S2048_S2048_S2048_S2048_S8192_d0 (ix1 r)
      = b1 (ix1 n) := by
  refine concatenate_apply_piece (t := S8192) (0 : Fin 1) [⟨S2048, b0⟩, ⟨S2048, b1⟩, ⟨S2048, b2⟩, ⟨S2048, b3⟩] concatenates_S2048_S2048_S2048_S2048_S8192_d0 (ix1 r) 1 ?h1 S2048 b1 rfl rfl 2048 rfl (ix1 n) ?h5 ?h6
  case h1 => show (1 : ℕ) < 4; omega
  case h5 =>
    intro b hb
    match b with
    | ⟨0, _⟩ => exact absurd rfl hb
  case h6 =>
    show 2048 + n.val = r.val
    omega

/-- Entry `4096 + n` of the four biases stacked is entry `n` of the third. -/
theorem bcat2 (b0 b1 b2 b3 : FVec Ideal S2048 .f32) (n : Fin 2048) (r : Fin 8192) (hr : r.val = 4096 + n.val) :
    concatenate S8192 0 [⟨S2048, b0⟩, ⟨S2048, b1⟩, ⟨S2048, b2⟩, ⟨S2048, b3⟩] concatenates_S2048_S2048_S2048_S2048_S8192_d0 (ix1 r)
      = b2 (ix1 n) := by
  refine concatenate_apply_piece (t := S8192) (0 : Fin 1) [⟨S2048, b0⟩, ⟨S2048, b1⟩, ⟨S2048, b2⟩, ⟨S2048, b3⟩] concatenates_S2048_S2048_S2048_S2048_S8192_d0 (ix1 r) 2 ?h1 S2048 b2 rfl rfl 4096 rfl (ix1 n) ?h5 ?h6
  case h1 => show (2 : ℕ) < 4; omega
  case h5 =>
    intro b hb
    match b with
    | ⟨0, _⟩ => exact absurd rfl hb
  case h6 =>
    show 4096 + n.val = r.val
    omega

/-- Entry `6144 + n` of the four biases stacked is entry `n` of the fourth. -/
theorem bcat3 (b0 b1 b2 b3 : FVec Ideal S2048 .f32) (n : Fin 2048) (r : Fin 8192) (hr : r.val = 6144 + n.val) :
    concatenate S8192 0 [⟨S2048, b0⟩, ⟨S2048, b1⟩, ⟨S2048, b2⟩, ⟨S2048, b3⟩] concatenates_S2048_S2048_S2048_S2048_S8192_d0 (ix1 r)
      = b3 (ix1 n) := by
  refine concatenate_apply_piece (t := S8192) (0 : Fin 1) [⟨S2048, b0⟩, ⟨S2048, b1⟩, ⟨S2048, b2⟩, ⟨S2048, b3⟩] concatenates_S2048_S2048_S2048_S2048_S8192_d0 (ix1 r) 3 ?h1 S2048 b3 rfl rfl 6144 rfl (ix1 n) ?h5 ?h6
  case h1 => show (3 : ℕ) < 4; omega
  case h5 =>
    intro b hb
    match b with
    | ⟨0, _⟩ => exact absurd rfl hb
  case h6 =>
    show 6144 + n.val = r.val
    omega

/-! ## The regrouping by gate -/

/-- The columns of a `[2048, 8192]` array split into four groups of 2048: entry `(k, g, n)` is entry `(k, g·2048 + n)`. -/
theorem split_cols {α : Type} (x : S2048x8192.Idx → α) (k : Fin 2048) (g : Fin 4) (n : Fin 2048) (r : Fin 8192)
    (hr : r.val = g.val * 2048 + n.val) :
    shapeCast S2048x4x2048 x shapeCasts_S2048x8192_S2048x4x2048 (ix3 k g n) = x (ix2 k r) :=
  shapeCast_apply x shapeCasts_S2048x8192_S2048x4x2048 _ _ (by
    rw [Shape.rowMajor_val_two, Shape.rowMajor_val_three]
    show k.val * 8192 + r.val = (k.val * 4 + g.val) * 2048 + n.val
    omega)

/-- The stacked biases split into four groups of 2048: entry `(g, n)` is entry `g·2048 + n`. -/
theorem split_bias {α : Type} (x : S8192.Idx → α) (g : Fin 4) (n : Fin 2048) (r : Fin 8192) (hr : r.val = g.val * 2048 + n.val) :
    shapeCast S4x2048 x shapeCasts_S8192_S4x2048 (ix2 g n) = x (ix1 r) :=
  shapeCast_apply x shapeCasts_S8192_S4x2048 _ _ (by
    rw [Shape.rowMajor_val_one, Shape.rowMajor_val_two]
    show r.val = g.val * 2048 + n.val
    exact hr)

/-- A half of the stacked weights' columns (from column `o`), transposed, regrouped by gate and narrowed: entry
    `(k, g, n)` is the stacked array's entry at row `g·2048 + n` and column `o + k`. -/
theorem regroup (o : ℕ) (X : FVec Ideal S8192x4096 .f32) (hs : S8192x4096.Slices ![0, o] S8192x2048)
    (k : Fin 2048) (g : Fin 4) (n : Fin 2048) (r : Fin 8192) (c : Fin 4096)
    (hr : r.val = g.val * 2048 + n.val) (hc : c.val = o + k.val) :
    truncf .bf16 (shapeCast S2048x4x2048 (transpose S2048x8192 [1, 0] (extractStridedSlice S8192x2048 ![0, o] X hs) transposes_S8192x2048_S2048x8192_1_0) shapeCasts_S2048x8192_S2048x4x2048) bitsLt_bf16_f32 (ix3 k g n)
      = X (ix2 r c) := by
  refine (truncf_apply _ bitsLt_bf16_f32 (ix3 k g n)).trans ?_
  refine (split_cols _ k g n r hr).trans ?_
  refine (transpose_ix2_apply _ transposes_S8192x2048_S2048x8192_1_0 k r).trans ?_
  exact slice2_axis1_apply o X hs r k c hc

/-! ## The kernel's weight and bias operands -/

/-- The weights meeting `X`, regrouped: entry `(k, 0, n)` is the first matrix's weight of feature `n` at column `k` of that half. -/
theorem wx_gate0 (w0 w1 w2 w3 : FVec Ideal S2048x4096 .f32) (k n : Fin 2048) :
    truncf .bf16 (shapeCast S2048x4x2048 (transpose S2048x8192 [1, 0] (extractStridedSlice S8192x2048 ![0, 0] (concatenate S8192x4096 0 [⟨S2048x4096, w0⟩, ⟨S2048x4096, w1⟩, ⟨S2048x4096, w2⟩, ⟨S2048x4096, w3⟩] concatenates_S2048x4096_S2048x4096_S2048x4096_S2048x4096_S8192x4096_d0) slices_S8192x4096_S8192x2048_0_0) transposes_S8192x2048_S2048x8192_1_0) shapeCasts_S2048x8192_S2048x4x2048) bitsLt_bf16_f32 (ix3 k (0 : Fin 4) n)
      = w0 (ix2 n (Cert.LstmSpec.lo k)) :=
  (regroup 0 _ slices_S8192x4096_S8192x2048_0_0 k (0 : Fin 4) n ⟨0 + n.val, by omega⟩ (Cert.LstmSpec.lo k)
    (by show 0 + n.val = 0 * 2048 + n.val; omega) (Nat.zero_add k.val).symm).trans
    (wcat0 w0 w1 w2 w3 n (Cert.LstmSpec.lo k) ⟨0 + n.val, by omega⟩ rfl)

/-- The weights meeting `X`, regrouped: entry `(k, 1, n)` is the second matrix's weight of feature `n` at column `k` of that half. -/
theorem wx_gate1 (w0 w1 w2 w3 : FVec Ideal S2048x4096 .f32) (k n : Fin 2048) :
    truncf .bf16 (shapeCast S2048x4x2048 (transpose S2048x8192 [1, 0] (extractStridedSlice S8192x2048 ![0, 0] (concatenate S8192x4096 0 [⟨S2048x4096, w0⟩, ⟨S2048x4096, w1⟩, ⟨S2048x4096, w2⟩, ⟨S2048x4096, w3⟩] concatenates_S2048x4096_S2048x4096_S2048x4096_S2048x4096_S8192x4096_d0) slices_S8192x4096_S8192x2048_0_0) transposes_S8192x2048_S2048x8192_1_0) shapeCasts_S2048x8192_S2048x4x2048) bitsLt_bf16_f32 (ix3 k (1 : Fin 4) n)
      = w1 (ix2 n (Cert.LstmSpec.lo k)) :=
  (regroup 0 _ slices_S8192x4096_S8192x2048_0_0 k (1 : Fin 4) n ⟨2048 + n.val, by omega⟩ (Cert.LstmSpec.lo k)
    (by show 2048 + n.val = 1 * 2048 + n.val; omega) (Nat.zero_add k.val).symm).trans
    (wcat1 w0 w1 w2 w3 n (Cert.LstmSpec.lo k) ⟨2048 + n.val, by omega⟩ rfl)

/-- The weights meeting `X`, regrouped: entry `(k, 2, n)` is the third matrix's weight of feature `n` at column `k` of that half. -/
theorem wx_gate2 (w0 w1 w2 w3 : FVec Ideal S2048x4096 .f32) (k n : Fin 2048) :
    truncf .bf16 (shapeCast S2048x4x2048 (transpose S2048x8192 [1, 0] (extractStridedSlice S8192x2048 ![0, 0] (concatenate S8192x4096 0 [⟨S2048x4096, w0⟩, ⟨S2048x4096, w1⟩, ⟨S2048x4096, w2⟩, ⟨S2048x4096, w3⟩] concatenates_S2048x4096_S2048x4096_S2048x4096_S2048x4096_S8192x4096_d0) slices_S8192x4096_S8192x2048_0_0) transposes_S8192x2048_S2048x8192_1_0) shapeCasts_S2048x8192_S2048x4x2048) bitsLt_bf16_f32 (ix3 k (2 : Fin 4) n)
      = w2 (ix2 n (Cert.LstmSpec.lo k)) :=
  (regroup 0 _ slices_S8192x4096_S8192x2048_0_0 k (2 : Fin 4) n ⟨4096 + n.val, by omega⟩ (Cert.LstmSpec.lo k)
    (by show 4096 + n.val = 2 * 2048 + n.val; omega) (Nat.zero_add k.val).symm).trans
    (wcat2 w0 w1 w2 w3 n (Cert.LstmSpec.lo k) ⟨4096 + n.val, by omega⟩ rfl)

/-- The weights meeting `X`, regrouped: entry `(k, 3, n)` is the fourth matrix's weight of feature `n` at column `k` of that half. -/
theorem wx_gate3 (w0 w1 w2 w3 : FVec Ideal S2048x4096 .f32) (k n : Fin 2048) :
    truncf .bf16 (shapeCast S2048x4x2048 (transpose S2048x8192 [1, 0] (extractStridedSlice S8192x2048 ![0, 0] (concatenate S8192x4096 0 [⟨S2048x4096, w0⟩, ⟨S2048x4096, w1⟩, ⟨S2048x4096, w2⟩, ⟨S2048x4096, w3⟩] concatenates_S2048x4096_S2048x4096_S2048x4096_S2048x4096_S8192x4096_d0) slices_S8192x4096_S8192x2048_0_0) transposes_S8192x2048_S2048x8192_1_0) shapeCasts_S2048x8192_S2048x4x2048) bitsLt_bf16_f32 (ix3 k (3 : Fin 4) n)
      = w3 (ix2 n (Cert.LstmSpec.lo k)) :=
  (regroup 0 _ slices_S8192x4096_S8192x2048_0_0 k (3 : Fin 4) n ⟨6144 + n.val, by omega⟩ (Cert.LstmSpec.lo k)
    (by show 6144 + n.val = 3 * 2048 + n.val; omega) (Nat.zero_add k.val).symm).trans
    (wcat3 w0 w1 w2 w3 n (Cert.LstmSpec.lo k) ⟨6144 + n.val, by omega⟩ rfl)

/-- The weights meeting `h`, regrouped: entry `(k, 0, n)` is the first matrix's weight of feature `n` at column `k` of that half. -/
theorem wh_gate0 (w0 w1 w2 w3 : FVec Ideal S2048x4096 .f32) (k n : Fin 2048) :
    truncf .bf16 (shapeCast S2048x4x2048 (transpose S2048x8192 [1, 0] (extractStridedSlice S8192x2048 ![0, 2048] (concatenate S8192x4096 0 [⟨S2048x4096, w0⟩, ⟨S2048x4096, w1⟩, ⟨S2048x4096, w2⟩, ⟨S2048x4096, w3⟩] concatenates_S2048x4096_S2048x4096_S2048x4096_S2048x4096_S8192x4096_d0) slices_S8192x4096_S8192x2048_0_2048) transposes_S8192x2048_S2048x8192_1_0) shapeCasts_S2048x8192_S2048x4x2048) bitsLt_bf16_f32 (ix3 k (0 : Fin 4) n)
      = w0 (ix2 n (Cert.LstmSpec.hi k)) :=
  (regroup 2048 _ slices_S8192x4096_S8192x2048_0_2048 k (0 : Fin 4) n ⟨0 + n.val, by omega⟩ (Cert.LstmSpec.hi k)
    (by show 0 + n.val = 0 * 2048 + n.val; omega) rfl).trans
    (wcat0 w0 w1 w2 w3 n (Cert.LstmSpec.hi k) ⟨0 + n.val, by omega⟩ rfl)

/-- The weights meeting `h`, regrouped: entry `(k, 1, n)` is the second matrix's weight of feature `n` at column `k` of that half. -/
theorem wh_gate1 (w0 w1 w2 w3 : FVec Ideal S2048x4096 .f32) (k n : Fin 2048) :
    truncf .bf16 (shapeCast S2048x4x2048 (transpose S2048x8192 [1, 0] (extractStridedSlice S8192x2048 ![0, 2048] (concatenate S8192x4096 0 [⟨S2048x4096, w0⟩, ⟨S2048x4096, w1⟩, ⟨S2048x4096, w2⟩, ⟨S2048x4096, w3⟩] concatenates_S2048x4096_S2048x4096_S2048x4096_S2048x4096_S8192x4096_d0) slices_S8192x4096_S8192x2048_0_2048) transposes_S8192x2048_S2048x8192_1_0) shapeCasts_S2048x8192_S2048x4x2048) bitsLt_bf16_f32 (ix3 k (1 : Fin 4) n)
      = w1 (ix2 n (Cert.LstmSpec.hi k)) :=
  (regroup 2048 _ slices_S8192x4096_S8192x2048_0_2048 k (1 : Fin 4) n ⟨2048 + n.val, by omega⟩ (Cert.LstmSpec.hi k)
    (by show 2048 + n.val = 1 * 2048 + n.val; omega) rfl).trans
    (wcat1 w0 w1 w2 w3 n (Cert.LstmSpec.hi k) ⟨2048 + n.val, by omega⟩ rfl)

/-- The weights meeting `h`, regrouped: entry `(k, 2, n)` is the third matrix's weight of feature `n` at column `k` of that half. -/
theorem wh_gate2 (w0 w1 w2 w3 : FVec Ideal S2048x4096 .f32) (k n : Fin 2048) :
    truncf .bf16 (shapeCast S2048x4x2048 (transpose S2048x8192 [1, 0] (extractStridedSlice S8192x2048 ![0, 2048] (concatenate S8192x4096 0 [⟨S2048x4096, w0⟩, ⟨S2048x4096, w1⟩, ⟨S2048x4096, w2⟩, ⟨S2048x4096, w3⟩] concatenates_S2048x4096_S2048x4096_S2048x4096_S2048x4096_S8192x4096_d0) slices_S8192x4096_S8192x2048_0_2048) transposes_S8192x2048_S2048x8192_1_0) shapeCasts_S2048x8192_S2048x4x2048) bitsLt_bf16_f32 (ix3 k (2 : Fin 4) n)
      = w2 (ix2 n (Cert.LstmSpec.hi k)) :=
  (regroup 2048 _ slices_S8192x4096_S8192x2048_0_2048 k (2 : Fin 4) n ⟨4096 + n.val, by omega⟩ (Cert.LstmSpec.hi k)
    (by show 4096 + n.val = 2 * 2048 + n.val; omega) rfl).trans
    (wcat2 w0 w1 w2 w3 n (Cert.LstmSpec.hi k) ⟨4096 + n.val, by omega⟩ rfl)

/-- The weights meeting `h`, regrouped: entry `(k, 3, n)` is the fourth matrix's weight of feature `n` at column `k` of that half. -/
theorem wh_gate3 (w0 w1 w2 w3 : FVec Ideal S2048x4096 .f32) (k n : Fin 2048) :
    truncf .bf16 (shapeCast S2048x4x2048 (transpose S2048x8192 [1, 0] (extractStridedSlice S8192x2048 ![0, 2048] (concatenate S8192x4096 0 [⟨S2048x4096, w0⟩, ⟨S2048x4096, w1⟩, ⟨S2048x4096, w2⟩, ⟨S2048x4096, w3⟩] concatenates_S2048x4096_S2048x4096_S2048x4096_S2048x4096_S8192x4096_d0) slices_S8192x4096_S8192x2048_0_2048) transposes_S8192x2048_S2048x8192_1_0) shapeCasts_S2048x8192_S2048x4x2048) bitsLt_bf16_f32 (ix3 k (3 : Fin 4) n)
      = w3 (ix2 n (Cert.LstmSpec.hi k)) :=
  (regroup 2048 _ slices_S8192x4096_S8192x2048_0_2048 k (3 : Fin 4) n ⟨6144 + n.val, by omega⟩ (Cert.LstmSpec.hi k)
    (by show 6144 + n.val = 3 * 2048 + n.val; omega) rfl).trans
    (wcat3 w0 w1 w2 w3 n (Cert.LstmSpec.hi k) ⟨6144 + n.val, by omega⟩ rfl)

/-- The biases regrouped: entry `(0, n)` is the first bias's entry `n`. -/
theorem bias_gate0 (b0 b1 b2 b3 : FVec Ideal S2048 .f32) (n : Fin 2048) :
    shapeCast S4x2048 (concatenate S8192 0 [⟨S2048, b0⟩, ⟨S2048, b1⟩, ⟨S2048, b2⟩, ⟨S2048, b3⟩] concatenates_S2048_S2048_S2048_S2048_S8192_d0) shapeCasts_S8192_S4x2048 (ix2 (0 : Fin 4) n)
      = b0 (ix1 n) :=
  (split_bias _ (0 : Fin 4) n ⟨0 + n.val, by omega⟩ (by show 0 + n.val = 0 * 2048 + n.val; omega)).trans
    (bcat0 b0 b1 b2 b3 n ⟨0 + n.val, by omega⟩ rfl)

/-- The biases regrouped: entry `(1, n)` is the second bias's entry `n`. -/
theorem bias_gate1 (b0 b1 b2 b3 : FVec Ideal S2048 .f32) (n : Fin 2048) :
    shapeCast S4x2048 (concatenate S8192 0 [⟨S2048, b0⟩, ⟨S2048, b1⟩, ⟨S2048, b2⟩, ⟨S2048, b3⟩] concatenates_S2048_S2048_S2048_S2048_S8192_d0) shapeCasts_S8192_S4x2048 (ix2 (1 : Fin 4) n)
      = b1 (ix1 n) :=
  (split_bias _ (1 : Fin 4) n ⟨2048 + n.val, by omega⟩ (by show 2048 + n.val = 1 * 2048 + n.val; omega)).trans
    (bcat1 b0 b1 b2 b3 n ⟨2048 + n.val, by omega⟩ rfl)

/-- The biases regrouped: entry `(2, n)` is the third bias's entry `n`. -/
theorem bias_gate2 (b0 b1 b2 b3 : FVec Ideal S2048 .f32) (n : Fin 2048) :
    shapeCast S4x2048 (concatenate S8192 0 [⟨S2048, b0⟩, ⟨S2048, b1⟩, ⟨S2048, b2⟩, ⟨S2048, b3⟩] concatenates_S2048_S2048_S2048_S2048_S8192_d0) shapeCasts_S8192_S4x2048 (ix2 (2 : Fin 4) n)
      = b2 (ix1 n) :=
  (split_bias _ (2 : Fin 4) n ⟨4096 + n.val, by omega⟩ (by show 4096 + n.val = 2 * 2048 + n.val; omega)).trans
    (bcat2 b0 b1 b2 b3 n ⟨4096 + n.val, by omega⟩ rfl)

/-- The biases regrouped: entry `(3, n)` is the fourth bias's entry `n`. -/
theorem bias_gate3 (b0 b1 b2 b3 : FVec Ideal S2048 .f32) (n : Fin 2048) :
    shapeCast S4x2048 (concatenate S8192 0 [⟨S2048, b0⟩, ⟨S2048, b1⟩, ⟨S2048, b2⟩, ⟨S2048, b3⟩] concatenates_S2048_S2048_S2048_S2048_S8192_d0) shapeCasts_S8192_S4x2048 (ix2 (3 : Fin 4) n)
      = b3 (ix1 n) :=
  (split_bias _ (3 : Fin 4) n ⟨6144 + n.val, by omega⟩ (by show 6144 + n.val = 3 * 2048 + n.val; omega)).trans
    (bcat3 b0 b1 b2 b3 n ⟨6144 + n.val, by omega⟩ rfl)

/-- An activation array in the narrower format is, on the extended reals, the array itself. -/
theorem act_apply (x : FVec Ideal S4096x2048 .f32) (r : Fin 4096) (k : Fin 2048) :
    truncf .bf16 x bitsLt_bf16_f32 (ix2 r k) = x (ix2 r k) := rfl

/-- The same for the whole array. -/
theorem act_eq (x : FVec Ideal S4096x2048 .f32) : (truncf .bf16 x bitsLt_bf16_f32 : FVec Ideal S4096x2048 .bf16) = x := rfl

end Cert.KernelIdeal.KHost

end
-- ==== Proof.KernelIdealBlocks.lean ====
/-
  The kernel's windows, block by block: what each input window's block at a grid point holds, index by index, in
  terms of the program's arguments, and where the two result windows' blocks sit in their arrays.

  The grid is 4 × 8 × 2: point `t` is batch tile `t / 16`, feature tile `(t / 2) % 8`, K-block `t % 2`. A batch
  tile is 1024 rows, a feature tile 256 columns, a K-block 1024 contraction indices.
-/
import proofs.«153991_j82282983457013_2_alg».proof.Proof.KernelIdealKit
import proofs.«153991_j82282983457013_2_alg».proof.Proof.LstmSpec
import proofs.«153991_j82282983457013_2_alg».proof.Proof.KHost
import Idealize.ShloMosaic.Lib.Pipeline.Value
import Idealize.ShloMosaic.Lib.StableHlo.Run
import Idealize.ShloMosaic.Lib.ValueIdx

noncomputable section

namespace Cert.KernelIdeal.Blk

open Cert.KernelIdeal Cert.KernelIdeal.Gen Cert.KernelIdeal.Fr
open Idealize.ShloMosaic Idealize.ShloMosaic.TcCoe Idealize.ShloMosaic.ValueIdx Idealize.SL.Sem

variable (m : (ℓ : Loc nD τ sig) → Buf (Elt Ideal) ℓ)

/-! ## The grid's coordinates -/

/-- A grid point is below 64. -/
theorem lt64 (t : Fin cfg0.N) : t.val < 64 := t.isLt.trans_eq N_0

/-- Row `p` of the batch tile of point `t`. -/
def rowOf (t : Fin cfg0.N) (p : Fin 1024) : Fin 4096 := ⟨(t.val / 16) * 1024 + p.val, by have := lt64 t; omega⟩
/-- Column `q` of the feature tile of point `t`. -/
def colOf (t : Fin cfg0.N) (q : Fin 256) : Fin 2048 := ⟨((t.val / 2) % 8) * 256 + q.val, by omega⟩
/-- The K-block of point `t`. -/
def kbOf (t : Fin cfg0.N) : Fin 2 := ⟨t.val % 2, by omega⟩

/-! ## The windows' block indices, decided once over the grid -/

theorem idx0 : ∀ t : Fin cfg0.N, win0_0.index t 0 = t.val / 16 ∧ win0_0.index t 1 = t.val % 2 :=
  (by decide +kernel : ∀ t : Fin grid0.N, win0_0.index t 0 = t.val / 16 ∧ win0_0.index t 1 = t.val % 2)
theorem idx1 : ∀ t : Fin cfg0.N, win0_1.index t 0 = t.val / 16 ∧ win0_1.index t 1 = t.val % 2 :=
  (by decide +kernel : ∀ t : Fin grid0.N, win0_1.index t 0 = t.val / 16 ∧ win0_1.index t 1 = t.val % 2)
theorem idx2 : ∀ t : Fin cfg0.N, win0_2.index t 0 = t.val % 2 ∧ win0_2.index t 1 = 0 ∧ win0_2.index t 2 = (t.val / 2) % 8 :=
  (by decide +kernel : ∀ t : Fin grid0.N, win0_2.index t 0 = t.val % 2 ∧ win0_2.index t 1 = 0 ∧ win0_2.index t 2 = (t.val / 2) % 8)
theorem idx3 : ∀ t : Fin cfg0.N, win0_3.index t 0 = t.val % 2 ∧ win0_3.index t 1 = 0 ∧ win0_3.index t 2 = (t.val / 2) % 8 :=
  (by decide +kernel : ∀ t : Fin grid0.N, win0_3.index t 0 = t.val % 2 ∧ win0_3.index t 1 = 0 ∧ win0_3.index t 2 = (t.val / 2) % 8)
theorem idx4 : ∀ t : Fin cfg0.N, win0_4.index t 0 = 0 ∧ win0_4.index t 1 = (t.val / 2) % 8 :=
  (by decide +kernel : ∀ t : Fin grid0.N, win0_4.index t 0 = 0 ∧ win0_4.index t 1 = (t.val / 2) % 8)
theorem idx5 : ∀ t : Fin cfg0.N, win0_5.index t 0 = t.val / 16 ∧ win0_5.index t 1 = (t.val / 2) % 8 :=
  (by decide +kernel : ∀ t : Fin grid0.N, win0_5.index t 0 = t.val / 16 ∧ win0_5.index t 1 = (t.val / 2) % 8)
theorem idx6 : ∀ t : Fin cfg0.N, win0_6.index t 0 = t.val / 16 ∧ win0_6.index t 1 = (t.val / 2) % 8 :=
  (by decide +kernel : ∀ t : Fin grid0.N, win0_6.index t 0 = t.val / 16 ∧ win0_6.index t 1 = (t.val / 2) % 8)
theorem idx7 : ∀ t : Fin cfg0.N, win0_7.index t 0 = t.val / 16 ∧ win0_7.index t 1 = (t.val / 2) % 8 :=
  (by decide +kernel : ∀ t : Fin grid0.N, win0_7.index t 0 = t.val / 16 ∧ win0_7.index t 1 = (t.val / 2) % 8)

/-! ## The cell state's window -/

/-- Window 5's block is the cell state's tile. -/
theorem blk5 (c : Dev nD) (t : Fin cfg0.N) (p : Fin 1024) (q : Fin 256) :
    (iblk (F := Ideal) m c 5 t : Vec Ideal S1024x256 .f32) (ix2 p q)
      = m ((c : Thread nD τ).loc main_arg2) (ix2 (rowOf t p) (colOf t q)) := by
  obtain ⟨e0, e1⟩ := idx5 t
  unfold iblk
  rw [View.read_apply]
  show V m c main_arg2 _ = _
  rw [V_main_arg2]
  refine congrArg _ (funext fun a => Fin.ext ?_)
  match a with
  | ⟨0, _⟩ => show win0_5.index t 0 * 1024 + 1 * p.val = (t.val / 16) * 1024 + p.val; rw [e0]; omega
  | ⟨1, _⟩ => show win0_5.index t 1 * 256 + 1 * q.val = ((t.val / 2) % 8) * 256 + q.val; rw [e1]; omega

/-! ## The activations' windows -/

/-- The launch finds `X` with its format changed, which is the identity on the extended reals. -/
theorem V_v11 (c : Dev nD) :
    @Eq (FVec Ideal S4096x2048 .bf16) (V m c main_v11) (truncf (F := Ideal) .bf16 (m ((c : Thread nD τ).loc main_arg0) : FVec Ideal S4096x2048 .f32) bitsLt_bf16_f32) := by
  dsimp only [V, hostOps0]; after_results

/-- The launch finds `h` with its format changed, which is the identity on the extended reals. -/
theorem V_v12 (c : Dev nD) :
    @Eq (FVec Ideal S4096x2048 .bf16) (V m c main_v12) (truncf (F := Ideal) .bf16 (m ((c : Thread nD τ).loc main_arg1) : FVec Ideal S4096x2048 .f32) bitsLt_bf16_f32) := by
  dsimp only [V, hostOps0]; after_results

/-- Window 0's block is `X` at the batch tile's rows and the K-block's columns. -/
theorem blk0 (c : Dev nD) (t : Fin cfg0.N) (p k : Fin 1024) :
    (iblk (F := Ideal) m c 0 t : Vec Ideal S1024x1024 .bf16) (ix2 p k)
      = m ((c : Thread nD τ).loc main_arg0) (ix2 (rowOf t p) (Cert.LstmSpec.kx (kbOf t) k)) := by
  obtain ⟨e0, e1⟩ := idx0 t
  unfold iblk
  rw [View.read_apply]
  show (V m c main_v11 : Vec Ideal S4096x2048 .bf16) _ = _
  rw [V_v11, truncf_apply]
  refine congrArg _ (funext fun a => Fin.ext ?_)
  match a with
  | ⟨0, _⟩ => show win0_0.index t 0 * 1024 + 1 * p.val = (t.val / 16) * 1024 + p.val; rw [e0]; omega
  | ⟨1, _⟩ => show win0_0.index t 1 * 1024 + 1 * k.val = (t.val % 2) * 1024 + k.val; rw [e1]; omega

/-- Window 1's block is `h` at the batch tile's rows and the K-block's columns. -/
theorem blk1 (c : Dev nD) (t : Fin cfg0.N) (p k : Fin 1024) :
    (iblk (F := Ideal) m c 1 t : Vec Ideal S1024x1024 .bf16) (ix2 p k)
      = m ((c : Thread nD τ).loc main_arg1) (ix2 (rowOf t p) (Cert.LstmSpec.kx (kbOf t) k)) := by
  obtain ⟨e0, e1⟩ := idx1 t
  unfold iblk
  rw [View.read_apply]
  show (V m c main_v12 : Vec Ideal S4096x2048 .bf16) _ = _
  rw [V_v12, truncf_apply]
  refine congrArg _ (funext fun a => Fin.ext ?_)
  match a with
  | ⟨0, _⟩ => show win0_1.index t 0 * 1024 + 1 * p.val = (t.val / 16) * 1024 + p.val; rw [e0]; omega
  | ⟨1, _⟩ => show win0_1.index t 1 * 1024 + 1 * k.val = (t.val % 2) * 1024 + k.val; rw [e1]; omega

/-! ## The weights' and the biases' windows -/

/-- The launch finds the half of the stacked weights that meets `X`, transposed, regrouped by gate and narrowed. -/
theorem V_v6 (c : Dev nD) :
    @Eq (FVec Ideal S2048x4x2048 .bf16) (V m c main_v6) (truncf (F := Ideal) .bf16 (shapeCast S2048x4x2048 (transpose S2048x8192 [1, 0] (extractStridedSlice S8192x2048 ![0, 0] (concatenate S8192x4096 0 [⟨S2048x4096, (m ((c : Thread nD τ).loc main_arg3) : FVec Ideal S2048x4096 .f32)⟩, ⟨S2048x4096, (m ((c : Thread nD τ).loc main_arg7) : FVec Ideal S2048x4096 .f32)⟩, ⟨S2048x4096, (m ((c : Thread nD τ).loc main_arg9) : FVec Ideal S2048x4096 .f32)⟩, ⟨S2048x4096, (m ((c : Thread nD τ).loc main_arg5) : FVec Ideal S2048x4096 .f32)⟩] concatenates_S2048x4096_S2048x4096_S2048x4096_S2048x4096_S8192x4096_d0) slices_S8192x4096_S8192x2048_0_0) transposes_S8192x2048_S2048x8192_1_0) shapeCasts_S2048x8192_S2048x4x2048) bitsLt_bf16_f32) := by
  dsimp only [V, hostOps0]; after_results; rfl

/-- The launch finds the half of the stacked weights that meets `h`, transposed, regrouped by gate and narrowed. -/
theorem V_v9 (c : Dev nD) :
    @Eq (FVec Ideal S2048x4x2048 .bf16) (V m c main_v9) (truncf (F := Ideal) .bf16 (shapeCast S2048x4x2048 (transpose S2048x8192 [1, 0] (extractStridedSlice S8192x2048 ![0, 2048] (concatenate S8192x4096 0 [⟨S2048x4096, (m ((c : Thread nD τ).loc main_arg3) : FVec Ideal S2048x4096 .f32)⟩, ⟨S2048x4096, (m ((c : Thread nD τ).loc main_arg7) : FVec Ideal S2048x4096 .f32)⟩, ⟨S2048x4096, (m ((c : Thread nD τ).loc main_arg9) : FVec Ideal S2048x4096 .f32)⟩, ⟨S2048x4096, (m ((c : Thread nD τ).loc main_arg5) : FVec Ideal S2048x4096 .f32)⟩] concatenates_S2048x4096_S2048x4096_S2048x4096_S2048x4096_S8192x4096_d0) slices_S8192x4096_S8192x2048_0_2048) transposes_S8192x2048_S2048x8192_1_0) shapeCasts_S2048x8192_S2048x4x2048) bitsLt_bf16_f32) := by
  dsimp only [V, hostOps0]; after_results; rfl

/-- The launch finds the joined biases regrouped by gate. -/
theorem V_v10 (c : Dev nD) :
    @Eq (FVec Ideal S4x2048 .f32) (V m c main_v10) (shapeCast S4x2048 (concatenate S8192 0 [⟨S2048, (m ((c : Thread nD τ).loc main_arg4) : FVec Ideal S2048 .f32)⟩, ⟨S2048, (m ((c : Thread nD τ).loc main_arg8) : FVec Ideal S2048 .f32)⟩, ⟨S2048, (m ((c : Thread nD τ).loc main_arg10) : FVec Ideal S2048 .f32)⟩, ⟨S2048, (m ((c : Thread nD τ).loc main_arg6) : FVec Ideal S2048 .f32)⟩] concatenates_S2048_S2048_S2048_S2048_S8192_d0) shapeCasts_S8192_S4x2048) := by
  dsimp only [V, hostOps0]; after_results; rfl

/-- Window 2's block at `t` sits at the K-block's contraction indices and the feature tile's columns, all four gates. -/
theorem emb2 (t : Fin cfg0.N) (k : Fin 1024) (g : Fin 4) (q : Fin 256) :
    ((cfg0.win 2).blk t).view.emb (ix3 k g q : S1024x4x256.Idx)
      = (ix3 (Cert.LstmSpec.kx (kbOf t) k) g (colOf t q) : S2048x4x2048.Idx) := by
  obtain ⟨e0, e1, e2⟩ := idx2 t
  refine funext fun a => Fin.ext ?_
  match a with
  | ⟨0, _⟩ => show win0_2.index t 0 * 1024 + 1 * k.val = (t.val % 2) * 1024 + k.val; rw [e0]; omega
  | ⟨1, _⟩ => show win0_2.index t 1 * 4 + 1 * g.val = g.val; rw [e1]; omega
  | ⟨2, _⟩ => show win0_2.index t 2 * 256 + 1 * q.val = ((t.val / 2) % 8) * 256 + q.val; rw [e2]; omega

/-- Window 2's block, forget gate: that gate's weights of the feature tile at the K-block's columns of the half meeting `X`. -/
theorem blk2_0 (c : Dev nD) (t : Fin cfg0.N) (k : Fin 1024) (q : Fin 256) :
    (iblk (F := Ideal) m c 2 t : Vec Ideal S1024x4x256 .bf16) (ix3 k (0 : Fin 4) q)
      = m ((c : Thread nD τ).loc main_arg3) (ix2 (colOf t q) (Cert.LstmSpec.lo (Cert.LstmSpec.kx (kbOf t) k))) := by
  unfold iblk
  rw [View.read_apply]
  show (V m c main_v6 : Vec Ideal S2048x4x2048 .bf16) _ = _
  rw [V_v6, emb2]
  exact Cert.KernelIdeal.KHost.wx_gate0 _ _ _ _ _ _

/-- Window 2's block, input gate: that gate's weights of the feature tile at the K-block's columns of the half meeting `X`. -/
theorem blk2_1 (c : Dev nD) (t : Fin cfg0.N) (k : Fin 1024) (q : Fin 256) :
    (iblk (F := Ideal) m c 2 t : Vec Ideal S1024x4x256 .bf16) (ix3 k (1 : Fin 4) q)
      = m ((c : Thread nD τ).loc main_arg7) (ix2 (colOf t q) (Cert.LstmSpec.lo (Cert.LstmSpec.kx (kbOf t) k))) := by
  unfold iblk
  rw [View.read_apply]
  show (V m c main_v6 : Vec Ideal S2048x4x2048 .bf16) _ = _
  rw [V_v6, emb2]
  exact Cert.KernelIdeal.KHost.wx_gate1 _ _ _ _ _ _

/-- Window 2's block, output gate: that gate's weights of the feature tile at the K-block's columns of the half meeting `X`. -/
theorem blk2_2 (c : Dev nD) (t : Fin cfg0.N) (k : Fin 1024) (q : Fin 256) :
    (iblk (F := Ideal) m c 2 t : Vec Ideal S1024x4x256 .bf16) (ix3 k (2 : Fin 4) q)
      = m ((c : Thread nD τ).loc main_arg9) (ix2 (colOf t q) (Cert.LstmSpec.lo (Cert.LstmSpec.kx (kbOf t) k))) := by
  unfold iblk
  rw [View.read_apply]
  show (V m c main_v6 : Vec Ideal S2048x4x2048 .bf16) _ = _
  rw [V_v6, emb2]
  exact Cert.KernelIdeal.KHost.wx_gate2 _ _ _ _ _ _

/-- Window 2's block, candidate gate: that gate's weights of the feature tile at the K-block's columns of the half meeting `X`. -/
theorem blk2_3 (c : Dev nD) (t : Fin cfg0.N) (k : Fin 1024) (q : Fin 256) :
    (iblk (F := Ideal) m c 2 t : Vec Ideal S1024x4x256 .bf16) (ix3 k (3 : Fin 4) q)
      = m ((c : Thread nD τ).loc main_arg5) (ix2 (colOf t q) (Cert.LstmSpec.lo (Cert.LstmSpec.kx (kbOf t) k))) := by
  unfold iblk
  rw [View.read_apply]
  show (V m c main_v6 : Vec Ideal S2048x4x2048 .bf16) _ = _
  rw [V_v6, emb2]
  exact Cert.KernelIdeal.KHost.wx_gate3 _ _ _ _ _ _

/-- Window 3's block at `t` sits at the K-block's contraction indices and the feature tile's columns, all four gates. -/
theorem emb3 (t : Fin cfg0.N) (k : Fin 1024) (g : Fin 4) (q : Fin 256) :
    ((cfg0.win 3).blk t).view.emb (ix3 k g q : S1024x4x256.Idx)
      = (ix3 (Cert.LstmSpec.kx (kbOf t) k) g (colOf t q) : S2048x4x2048.Idx) := by
  obtain ⟨e0, e1, e2⟩ := idx3 t
  refine funext fun a => Fin.ext ?_
  match a with
  | ⟨0, _⟩ => show win0_3.index t 0 * 1024 + 1 * k.val = (t.val % 2) * 1024 + k.val; rw [e0]; omega
  | ⟨1, _⟩ => show win0_3.index t 1 * 4 + 1 * g.val = g.val; rw [e1]; omega
  | ⟨2, _⟩ => show win0_3.index t 2 * 256 + 1 * q.val = ((t.val / 2) % 8) * 256 + q.val; rw [e2]; omega

/-- Window 3's block, forget gate: that gate's weights of the feature tile at the K-block's columns of the half meeting `h`. -/
theorem blk3_0 (c : Dev nD) (t : Fin cfg0.N) (k : Fin 1024) (q : Fin 256) :
    (iblk (F := Ideal) m c 3 t : Vec Ideal S1024x4x256 .bf16) (ix3 k (0 : Fin 4) q)
      = m ((c : Thread nD τ).loc main_arg3) (ix2 (colOf t q) (Cert.LstmSpec.hi (Cert.LstmSpec.kx (kbOf t) k))) := by
  unfold iblk
  rw [View.read_apply]
  show (V m c main_v9 : Vec Ideal S2048x4x2048 .bf16) _ = _
  rw [V_v9, emb3]
  exact Cert.KernelIdeal.KHost.wh_gate0 _ _ _ _ _ _

/-- Window 3's block, input gate: that gate's weights of the feature tile at the K-block's columns of the half meeting `h`. -/
theorem blk3_1 (c : Dev nD) (t : Fin cfg0.N) (k : Fin 1024) (q : Fin 256) :
    (iblk (F := Ideal) m c 3 t : Vec Ideal S1024x4x256 .bf16) (ix3 k (1 : Fin 4) q)
      = m ((c : Thread nD τ).loc main_arg7) (ix2 (colOf t q) (Cert.LstmSpec.hi (Cert.LstmSpec.kx (kbOf t) k))) := by
  unfold iblk
  rw [View.read_apply]
  show (V m c main_v9 : Vec Ideal S2048x4x2048 .bf16) _ = _
  rw [V_v9, emb3]
  exact Cert.KernelIdeal.KHost.wh_gate1 _ _ _ _ _ _

/-- Window 3's block, output gate: that gate's weights of the feature tile at the K-block's columns of the half meeting `h`. -/
theorem blk3_2 (c : Dev nD) (t : Fin cfg0.N) (k : Fin 1024) (q : Fin 256) :
    (iblk (F := Ideal) m c 3 t : Vec Ideal S1024x4x256 .bf16) (ix3 k (2 : Fin 4) q)
      = m ((c : Thread nD τ).loc main_arg9) (ix2 (colOf t q) (Cert.LstmSpec.hi (Cert.LstmSpec.kx (kbOf t) k))) := by
  unfold iblk
  rw [View.read_apply]
  show (V m c main_v9 : Vec Ideal S2048x4x2048 .bf16) _ = _
  rw [V_v9, emb3]
  exact Cert.KernelIdeal.KHost.wh_gate2 _ _ _ _ _ _

/-- Window 3's block, candidate gate: that gate's weights of the feature tile at the K-block's columns of the half meeting `h`. -/
theorem blk3_3 (c : Dev nD) (t : Fin cfg0.N) (k : Fin 1024) (q : Fin 256) :
    (iblk (F := Ideal) m c 3 t : Vec Ideal S1024x4x256 .bf16) (ix3 k (3 : Fin 4) q)
      = m ((c : Thread nD τ).loc main_arg5) (ix2 (colOf t q) (Cert.LstmSpec.hi (Cert.LstmSpec.kx (kbOf t) k))) := by
  unfold iblk
  rw [View.read_apply]
  show (V m c main_v9 : Vec Ideal S2048x4x2048 .bf16) _ = _
  rw [V_v9, emb3]
  exact Cert.KernelIdeal.KHost.wh_gate3 _ _ _ _ _ _

/-- Window 4's block at `t` sits at the feature tile's columns, all four gates. -/
theorem emb4 (t : Fin cfg0.N) (g : Fin 4) (q : Fin 256) :
    ((cfg0.win 4).blk t).view.emb (ix2 g q : S4x256.Idx) = (ix2 g (colOf t q) : S4x2048.Idx) := by
  obtain ⟨e0, e1⟩ := idx4 t
  refine funext fun a => Fin.ext ?_
  match a with
  | ⟨0, _⟩ => show win0_4.index t 0 * 4 + 1 * g.val = g.val; rw [e0]; omega
  | ⟨1, _⟩ => show win0_4.index t 1 * 256 + 1 * q.val = ((t.val / 2) % 8) * 256 + q.val; rw [e1]; omega

/-- Window 4's block, forget gate: that gate's bias on the feature tile. -/
theorem blk4_0 (c : Dev nD) (t : Fin cfg0.N) (q : Fin 256) :
    (iblk (F := Ideal) m c 4 t : Vec Ideal S4x256 .f32) (ix2 (0 : Fin 4) q)
      = m ((c : Thread nD τ).loc main_arg4) (ix1 (colOf t q)) := by
  unfold iblk
  rw [View.read_apply]
  show (V m c main_v10 : Vec Ideal S4x2048 .f32) _ = _
  rw [V_v10, emb4]
  exact Cert.KernelIdeal.KHost.bias_gate0 _ _ _ _ _

/-- Window 4's block, input gate: that gate's bias on the feature tile. -/
theorem blk4_1 (c : Dev nD) (t : Fin cfg0.N) (q : Fin 256) :
    (iblk (F := Ideal) m c 4 t : Vec Ideal S4x256 .f32) (ix2 (1 : Fin 4) q)
      = m ((c : Thread nD τ).loc main_arg8) (ix1 (colOf t q)) := by
  unfold iblk
  rw [View.read_apply]
  show (V m c main_v10 : Vec Ideal S4x2048 .f32) _ = _
  rw [V_v10, emb4]
  exact Cert.KernelIdeal.KHost.bias_gate1 _ _ _ _ _

/-- Window 4's block, output gate: that gate's bias on the feature tile. -/
theorem blk4_2 (c : Dev nD) (t : Fin cfg0.N) (q : Fin 256) :
    (iblk (F := Ideal) m c 4 t : Vec Ideal S4x256 .f32) (ix2 (2 : Fin 4) q)
      = m ((c : Thread nD τ).loc main_arg10) (ix1 (colOf t q)) := by
  unfold iblk
  rw [View.read_apply]
  show (V m c main_v10 : Vec Ideal S4x2048 .f32) _ = _
  rw [V_v10, emb4]
  exact Cert.KernelIdeal.KHost.bias_gate2 _ _ _ _ _

/-- Window 4's block, candidate gate: that gate's bias on the feature tile. -/
theorem blk4_3 (c : Dev nD) (t : Fin cfg0.N) (q : Fin 256) :
    (iblk (F := Ideal) m c 4 t : Vec Ideal S4x256 .f32) (ix2 (3 : Fin 4) q)
      = m ((c : Thread nD τ).loc main_arg6) (ix1 (colOf t q)) := by
  unfold iblk
  rw [View.read_apply]
  show (V m c main_v10 : Vec Ideal S4x2048 .f32) _ = _
  rw [V_v10, emb4]
  exact Cert.KernelIdeal.KHost.bias_gate3 _ _ _ _ _

/-! ## The result windows: where a block sits, and that the blocks written back fill the array -/

/-- Window 6's block at `t` sits at the batch tile's rows and the feature tile's columns. -/
theorem emb6 (t : Fin cfg0.N) (p : Fin 1024) (q : Fin 256) :
    ((cfg0.win 6).blk t).view.emb (ix2 p q : S1024x256.Idx) = (ix2 (rowOf t p) (colOf t q) : S4096x2048.Idx) := by
  obtain ⟨e0, e1⟩ := idx6 t
  refine funext fun a => Fin.ext ?_
  match a with
  | ⟨0, _⟩ => show win0_6.index t 0 * 1024 + 1 * p.val = (t.val / 16) * 1024 + p.val; rw [e0]; omega
  | ⟨1, _⟩ => show win0_6.index t 1 * 256 + 1 * q.val = ((t.val / 2) % 8) * 256 + q.val; rw [e1]; omega

/-- An index of window 6's array is in point `t`'s block iff each coordinate is in the block's range on its axis. -/
theorem mem_blk6 (t : Fin cfg0.N) (i : S4096x2048.Idx) :
    i ∈ ((View.whole main_v13_0).slice (win0_6.rect t)).set
      ↔ ∀ a : Fin 2, win0_6.index t a * S1024x256.size a ≤ (i a).val ∧ (i a).val < win0_6.index t a * S1024x256.size a + S1024x256.size a := by
  rw [View.set_slice_whole, Rect.mem_set_unit]
  exact Iff.rfl

/-- Every index of window 6's array is in the block some last K-block writes back: the one of its batch tile and
    feature tile. -/
theorem cover6 (i : S4096x2048.Idx) :
    ∃ t : Fin cfg0.N, (cfg0.win 6).flush t = true ∧ i ∈ ((View.whole main_v13_0).slice (win0_6.rect t)).set := by
  have h0 : (i 0).val < 4096 := (i 0).isLt
  have h1 : (i 1).val < 2048 := (i 1).isLt
  have ht : 16 * ((i 0).val / 1024) + 2 * ((i 1).val / 256) + 1 < cfg0.N := by
    show _ < grid0.N
    rw [N_0]; omega
  refine ⟨⟨16 * ((i 0).val / 1024) + 2 * ((i 1).val / 256) + 1, ht⟩, (flush0_6 _).mpr (by show (16 * ((i 0).val / 1024) + 2 * ((i 1).val / 256) + 1) % 2 = 1; omega), ?_⟩
  rw [mem_blk6]
  obtain ⟨e0, e1⟩ := idx6 ⟨16 * ((i 0).val / 1024) + 2 * ((i 1).val / 256) + 1, ht⟩
  intro a
  match a with
  | ⟨0, _⟩ =>
    show win0_6.index _ 0 * 1024 ≤ (i 0).val ∧ (i 0).val < win0_6.index _ 0 * 1024 + 1024
    rw [e0]; dsimp only; omega
  | ⟨1, _⟩ =>
    show win0_6.index _ 1 * 256 ≤ (i 1).val ∧ (i 1).val < win0_6.index _ 1 * 256 + 256
    rw [e1]; dsimp only; omega

/-- Window 7's block at `t` sits at the batch tile's rows and the feature tile's columns. -/
theorem emb7 (t : Fin cfg0.N) (p : Fin 1024) (q : Fin 256) :
    ((cfg0.win 7).blk t).view.emb (ix2 p q : S1024x256.Idx) = (ix2 (rowOf t p) (colOf t q) : S4096x2048.Idx) := by
  obtain ⟨e0, e1⟩ := idx7 t
  refine funext fun a => Fin.ext ?_
  match a with
  | ⟨0, _⟩ => show win0_7.index t 0 * 1024 + 1 * p.val = (t.val / 16) * 1024 + p.val; rw [e0]; omega
  | ⟨1, _⟩ => show win0_7.index t 1 * 256 + 1 * q.val = ((t.val / 2) % 8) * 256 + q.val; rw [e1]; omega

/-- An index of window 7's array is in point `t`'s block iff each coordinate is in the block's range on its axis. -/
theorem mem_blk7 (t : Fin cfg0.N) (i : S4096x2048.Idx) :
    i ∈ ((View.whole main_v13_1).slice (win0_7.rect t)).set
      ↔ ∀ a : Fin 2, win0_7.index t a * S1024x256.size a ≤ (i a).val ∧ (i a).val < win0_7.index t a * S1024x256.size a + S1024x256.size a := by
  rw [View.set_slice_whole, Rect.mem_set_unit]
  exact Iff.rfl

/-- Every index of window 7's array is in the block some last K-block writes back: the one of its batch tile and
    feature tile. -/
theorem cover7 (i : S4096x2048.Idx) :
    ∃ t : Fin cfg0.N, (cfg0.win 7).flush t = true ∧ i ∈ ((View.whole main_v13_1).slice (win0_7.rect t)).set := by
  have h0 : (i 0).val < 4096 := (i 0).isLt
  have h1 : (i 1).val < 2048 := (i 1).isLt
  have ht : 16 * ((i 0).val / 1024) + 2 * ((i 1).val / 256) + 1 < cfg0.N := by
    show _ < grid0.N
    rw [N_0]; omega
  refine ⟨⟨16 * ((i 0).val / 1024) + 2 * ((i 1).val / 256) + 1, ht⟩, (flush0_7 _).mpr (by show (16 * ((i 0).val / 1024) + 2 * ((i 1).val / 256) + 1) % 2 = 1; omega), ?_⟩
  rw [mem_blk7]
  obtain ⟨e0, e1⟩ := idx7 ⟨16 * ((i 0).val / 1024) + 2 * ((i 1).val / 256) + 1, ht⟩
  intro a
  match a with
  | ⟨0, _⟩ =>
    show win0_7.index _ 0 * 1024 ≤ (i 0).val ∧ (i 0).val < win0_7.index _ 0 * 1024 + 1024
    rw [e0]; dsimp only; omega
  | ⟨1, _⟩ =>
    show win0_7.index _ 1 * 256 ≤ (i 1).val ∧ (i 1).val < win0_7.index _ 1 * 256 + 256
    rw [e1]; dsimp only; omega

end Cert.KernelIdeal.Blk

end
-- ==== Proof.LibMatmulIx.lean ====
/-
  A matrix product of an `[a, K]` array with a `[K, b]` array read at the entry `(p, q)`, at the ideal values:
  the sum over `k` of the left operand's `(p, k)` entry times the right operand's `(k, q)` entry — for a kernel's
  product accumulated into the zero splat (`matmul_zero_ix2`) and for the host's product (`dotGeneral_ix2`), stated
  for any dimension numbers that contract the left operand's columns with the right operand's rows (the four
  coordinate facts `hl0 … hr1`, which a literal record proves by evaluation).
-/
import Idealize.ShloMosaic.Lib.ValueIdx
import Idealize.ShloMosaic.PureOps.Ideal.Laws

namespace MatmulIx

open Idealize.ShloMosaic Idealize.ShloMosaic.ValueIdx

variable {a K b : ℕ} {φ₁ φ₂ : FTy}

/-- The contraction's sum re-indexed by the one contracted coordinate. -/
theorem sum_contr (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (x : (⟨2, ![a, K]⟩ : Shape).Idx → EReal) (w : (⟨2, ![K, b]⟩ : Shape).Idx → EReal) (p : Fin a) (q : Fin b) :
    ∑ k : D.contr.Idx, x (D.lhsIdx (ix2 p q) k) * w (D.rhsIdx (ix2 p q) k) = ∑ k : Fin K, x (ix2 p k) * w (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun c => Fin.ext (by
    match c with
    | ⟨0, _⟩ => exact hl0 _ _
    | ⟨1, _⟩ => exact (hl1 _ _).trans hk)
  have er : D.rhsIdx (ix2 p q) ((contrEquiv1 D K hr hs).symm k) = ix2 k q := funext fun c => Fin.ext (by
    match c with
    | ⟨0, _⟩ => exact (hr0 _ _).trans hk
    | ⟨1, _⟩ => exact hr1 _ _)
  rw [el, er]

/-- A kernel's matrix product into the zero splat, at `(p, q)`: the row of the left operand times the column of the
    right one. -/
theorem matmul_zero_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    matmul D prec x w (constant (F := Ideal) ⟨2, ![a, b]⟩ .f32 0x00000000#32) (ix2 p q)
      = ∑ k : Fin K, x (ix2 p k) * w (ix2 k q) :=
  (Ideal.matmul_constant_zero_apply D prec x w (ix2 p q)).trans (sum_contr D hr hs hl0 hl1 hr0 hr1 x w p q)

/-- The host's matrix product at `(p, q)`: the same sum. -/
theorem dotGeneral_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    Host.dotGeneral D prec x w (ix2 p q) = ∑ k : Fin K, x (ix2 p k) * w (ix2 k q) :=
  (Ideal.dotGeneral_apply D prec .single x w (ix2 p q)).trans (sum_contr D hr hs hl0 hl1 hr0 hr1 x w p q)

end MatmulIx
-- ==== Proof.KPay.lean ====
/-
  The kernel's arithmetic read at an entry of a block, on the extended reals.

  The product of the loaded block of `X` (or of `h`) with one gate's slice of the loaded weight block, accumulated into
  the zero splat, is at `(p, q)` the sum over the block's 1024 contraction positions `k` of the activation's `(p, k)`
  entry times the weight block's `(k, g, q)` entry. Each gate's accumulator gains the two such sums (the `X` half and the
  `h` half) of its gate; the accumulators start at zero; and once both halves of the contraction are in, the new cell
  state is `σ(acc_f + b_f)·c + σ(acc_g + b_g)·tanh(acc_i + b_i)` and the new hidden state `σ(acc_o + b_o)·tanh(c')`, the
  bias row being the same for every row of the block.
-/
import proofs.«153991_j82282983457013_2_alg».proof.Proof.Gen.KernelIdeal.Skeleton
import proofs.«153991_j82282983457013_2_alg».proof.Proof.LibMatmulIx
import Idealize.ShloMosaic.Lib.ValueLayout

noncomputable section

namespace Cert.KernelIdeal.KPay

open Cert.KernelIdeal Cert.KernelIdeal.Gen Idealize.ShloMosaic Idealize.ShloMosaic.ValueIdx
open scoped BigOperators

/-- The left operand's row coordinate is the output's row. -/
theorem dot_lhs0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl

/-- The left operand's column coordinate is the contracted position. -/
theorem dot_lhs1 (i : S1024x256.Idx) (q : dot_S1024x1024_S1024x256_S1024x256_1_0_0_1_n_n.contr.Idx) :
    (dot_S1024x1024_S1024x256_S1024x256_1_0_0_1_n_n.lhsIdx i q 1).val = (q ⟨0, by decide⟩).val :=
  dot_S1024x1024_S1024x256_S1024x256_1_0_0_1_n_n.lhsIdx_val_of_single rfl i q

/-- The right operand's row coordinate is the contracted position. -/
theorem dot_rhs0 (i : S1024x256.Idx) (q : dot_S1024x1024_S1024x256_S1024x256_1_0_0_1_n_n.contr.Idx) :
    (dot_S1024x1024_S1024x256_S1024x256_1_0_0_1_n_n.rhsIdx i q 0).val = (q ⟨0, by decide⟩).val :=
  dot_S1024x1024_S1024x256_S1024x256_1_0_0_1_n_n.rhsIdx_val_of_single rfl i q

/-- The right operand's column coordinate is the output's column. -/
theorem dot_rhs1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-- A product into the zero splat of a `[1024, 1024]` block with a `[1024, 256]` block, at `(p, q)`. -/
theorem matmul_block (x : FVec Ideal S1024x1024 .bf16) (w : FVec Ideal S1024x256 .bf16) (p : Fin 1024) (q : Fin 256) :
    matmul dot_S1024x1024_S1024x256_S1024x256_1_0_0_1_n_n none x w (constant S1024x256 .f32 0x00000000#32) (ix2 p q)
      = ∑ k : Fin 1024, x (ix2 p k) * w (ix2 k q) :=
  MatmulIx.matmul_zero_ix2 dot_S1024x1024_S1024x256_S1024x256_1_0_0_1_n_n rfl rfl dot_lhs0 dot_lhs1 dot_rhs0 dot_rhs1 none x w p q

/-- Gate `g`'s slice of a weight block with the unit axis dropped, at `(k, q)`: the block's `(k, g, q)` entry. -/
theorem gate_slice (o : ℕ) (g : Fin 4) (hg : g.val = o) (w : FVec Ideal S1024x4x256 .bf16)
    (hs : S1024x4x256.Slices ![0, o, 0] S1024x1x256) (k : Fin 1024) (q : Fin 256) :
    shapeCast S1024x256 (extractStridedSlice S1024x1x256 ![0, o, 0] w hs) shapeCasts_S1024x1x256_S1024x256 (ix2 k q)
      = w (ix3 k g q) := by
  refine (shapeCast_apply _ shapeCasts_S1024x1x256_S1024x256 (ix2 k q) (ix3 k (0 : Fin 1) q) ?_).trans ?_
  · rw [Shape.rowMajor_val_three, Shape.rowMajor_val_two]
    show (k.val * 1 + 0) * 256 + q.val = k.val * 256 + q.val
    rw [Nat.mul_one, Nat.add_zero]
  · exact slice3_axis1_apply o w hs k (0 : Fin 1) q g (by rw [hg]; rfl)

/-! ## The four gates' products -/

/-- The product with gate 0's slice of a weight block, at `(p, q)`. -/
theorem matmul_gate0 (x : FVec Ideal S1024x1024 .bf16) (w : FVec Ideal S1024x4x256 .bf16) (p : Fin 1024) (q : Fin 256) :
    matmul dot_S1024x1024_S1024x256_S1024x256_1_0_0_1_n_n none x (shapeCast S1024x256 (extractStridedSlice S1024x1x256 ![0, 0, 0] w slices_S1024x4x256_o0_0_0_S1024x1x256) shapeCasts_S1024x1x256_S1024x256) (constant S1024x256 .f32 0x00000000#32) (ix2 p q)
      = ∑ k : Fin 1024, x (ix2 p k) * w (ix3 k (0 : Fin 4) q) :=
  (matmul_block x _ p q).trans (Finset.sum_congr rfl fun k _ => congrArg (x (ix2 p k) * ·) (gate_slice 0 0 rfl w _ k q))

/-- The product with gate 1's slice of a weight block, at `(p, q)`. -/
theorem matmul_gate1 (x : FVec Ideal S1024x1024 .bf16) (w : FVec Ideal S1024x4x256 .bf16) (p : Fin 1024) (q : Fin 256) :
    matmul dot_S1024x1024_S1024x256_S1024x256_1_0_0_1_n_n none x (shapeCast S1024x256 (extractStridedSlice S1024x1x256 ![0, 1, 0] w slices_S1024x4x256_o0_1_0_S1024x1x256) shapeCasts_S1024x1x256_S1024x256) (constant S1024x256 .f32 0x00000000#32) (ix2 p q)
      = ∑ k : Fin 1024, x (ix2 p k) * w (ix3 k (1 : Fin 4) q) :=
  (matmul_block x _ p q).trans (Finset.sum_congr rfl fun k _ => congrArg (x (ix2 p k) * ·) (gate_slice 1 1 rfl w _ k q))

/-- The product with gate 2's slice of a weight block, at `(p, q)`. -/
theorem matmul_gate2 (x : FVec Ideal S1024x1024 .bf16) (w : FVec Ideal S1024x4x256 .bf16) (p : Fin 1024) (q : Fin 256) :
    matmul dot_S1024x1024_S1024x256_S1024x256_1_0_0_1_n_n none x (shapeCast S1024x256 (extractStridedSlice S1024x1x256 ![0, 2, 0] w slices_S1024x4x256_o0_2_0_S1024x1x256) shapeCasts_S1024x1x256_S1024x256) (constant S1024x256 .f32 0x00000000#32) (ix2 p q)
      = ∑ k : Fin 1024, x (ix2 p k) * w (ix3 k (2 : Fin 4) q) :=
  (matmul_block x _ p q).trans (Finset.sum_congr rfl fun k _ => congrArg (x (ix2 p k) * ·) (gate_slice 2 2 rfl w _ k q))

/-- The product with gate 3's slice of a weight block, at `(p, q)`. -/
theorem matmul_gate3 (x : FVec Ideal S1024x1024 .bf16) (w : FVec Ideal S1024x4x256 .bf16) (p : Fin 1024) (q : Fin 256) :
    matmul dot_S1024x1024_S1024x256_S1024x256_1_0_0_1_n_n none x (shapeCast S1024x256 (extractStridedSlice S1024x1x256 ![0, 3, 0] w slices_S1024x4x256_o0_3_0_S1024x1x256) shapeCasts_S1024x1x256_S1024x256) (constant S1024x256 .f32 0x00000000#32) (ix2 p q)
      = ∑ k : Fin 1024, x (ix2 p k) * w (ix3 k (3 : Fin 4) q) :=
  (matmul_block x _ p q).trans (Finset.sum_congr rfl fun k _ => congrArg (x (ix2 p k) * ·) (gate_slice 3 3 rfl w _ k q))

/-! ## The loaded blocks as the body holds them -/

/-- The activation block `X` as the body holds it is the loaded block. -/
theorem k0_pay10_eq (v3 : Vec Ideal S1024x1024 .bf16) : k0_pay10 (F := Ideal) v3 = v3 := shapeCast_self v3 _

/-- The activation block `h` as the body holds it is the loaded block. -/
theorem k0_pay11_eq (v5 : Vec Ideal S1024x1024 .bf16) : k0_pay11 (F := Ideal) v5 = v5 := shapeCast_self v5 _

/-- The weight block meeting `X` as the body holds it is the loaded block. -/
theorem k0_pay12_eq (v7 : Vec Ideal S1024x4x256 .bf16) : k0_pay12 (F := Ideal) v7 = v7 := shapeCast_self v7 _

/-- The weight block meeting `h` as the body holds it is the loaded block. -/
theorem k0_pay13_eq (v9 : Vec Ideal S1024x4x256 .bf16) : k0_pay13 (F := Ideal) v9 = v9 := shapeCast_self v9 _

/-! ## The accumulator updates -/

/-- Gate 0's accumulator after a K-block: what it held plus the block's two sums. -/
theorem k0_pay14_apply (v3 v5 : Vec Ideal S1024x1024 .bf16) (v7 v9 : Vec Ideal S1024x4x256 .bf16) (v11 : Vec Ideal S1024x256 .f32)
    (p : Fin 1024) (q : Fin 256) :
    k0_pay14 (F := Ideal) v3 v5 v7 v9 v11 (ix2 p q)
      = v11 (ix2 p q) + ((∑ k : Fin 1024, v3 (ix2 p k) * v7 (ix3 k (0 : Fin 4) q)) + ∑ k : Fin 1024, v5 (ix2 p k) * v9 (ix3 k (0 : Fin 4) q)) := by
  unfold k0_pay14
  simp only [k0_pay10_eq, k0_pay11_eq, k0_pay12_eq, k0_pay13_eq, shapeCast_self]
  rw [addf_apply, addf_apply, matmul_gate0, matmul_gate0]

/-- Gate 1's accumulator after a K-block, as the first part of the body hands it on. -/
theorem k0_pay15_apply (v3 v5 : Vec Ideal S1024x1024 .bf16) (v7 v9 : Vec Ideal S1024x4x256 .bf16) (v23 : Vec Ideal S1024x256 .f32)
    (p : Fin 1024) (q : Fin 256) :
    k0_pay15 (F := Ideal) v3 v5 v7 v9 v23 (ix2 p q)
      = v23 (ix2 p q) + ((∑ k : Fin 1024, v3 (ix2 p k) * v7 (ix3 k (1 : Fin 4) q)) + ∑ k : Fin 1024, v5 (ix2 p k) * v9 (ix3 k (1 : Fin 4) q)) := by
  unfold k0_pay15
  simp only [k0_pay10_eq, k0_pay11_eq, k0_pay12_eq, k0_pay13_eq]
  rw [addf_apply, addf_apply, matmul_gate1, matmul_gate1]

/-- The value stored as gate 1's accumulator is the value handed on. -/
theorem k0_pay1_eq (v31 : FVec Ideal S1024x256 .f32) : k0_pay1 (F := Ideal) v31 = v31 := shapeCast_self v31 _

/-- Gate 1's accumulator after a K-block, as stored. -/
theorem k0_pay1_apply (v3 v5 : Vec Ideal S1024x1024 .bf16) (v7 v9 : Vec Ideal S1024x4x256 .bf16) (v23 : Vec Ideal S1024x256 .f32)
    (p : Fin 1024) (q : Fin 256) :
    k0_pay1 (F := Ideal) (k0_pay15 (F := Ideal) v3 v5 v7 v9 v23) (ix2 p q)
      = v23 (ix2 p q) + ((∑ k : Fin 1024, v3 (ix2 p k) * v7 (ix3 k (1 : Fin 4) q)) + ∑ k : Fin 1024, v5 (ix2 p k) * v9 (ix3 k (1 : Fin 4) q)) := by
  rw [k0_pay1_eq, k0_pay15_apply]

/-- Gate 2's accumulator after a K-block, over the blocks as the body holds them. -/
theorem k0_pay2_apply (v4 v6 : FVec Ideal S1024x1024 .bf16) (v8 v10 : FVec Ideal S1024x4x256 .bf16) (v35 : Vec Ideal S1024x256 .f32)
    (p : Fin 1024) (q : Fin 256) :
    k0_pay2 (F := Ideal) v4 v6 v8 v10 v35 (ix2 p q)
      = v35 (ix2 p q) + ((∑ k : Fin 1024, v4 (ix2 p k) * v8 (ix3 k (2 : Fin 4) q)) + ∑ k : Fin 1024, v6 (ix2 p k) * v10 (ix3 k (2 : Fin 4) q)) := by
  unfold k0_pay2
  simp only [shapeCast_self]
  rw [addf_apply, addf_apply, matmul_gate2, matmul_gate2]

/-- Gate 3's accumulator after a K-block, over the blocks as the body holds them. -/
theorem k0_pay3_apply (v4 v6 : FVec Ideal S1024x1024 .bf16) (v8 v10 : FVec Ideal S1024x4x256 .bf16) (v47 : Vec Ideal S1024x256 .f32)
    (p : Fin 1024) (q : Fin 256) :
    k0_pay3 (F := Ideal) v4 v6 v8 v10 v47 (ix2 p q)
      = v47 (ix2 p q) + ((∑ k : Fin 1024, v4 (ix2 p k) * v8 (ix3 k (3 : Fin 4) q)) + ∑ k : Fin 1024, v6 (ix2 p k) * v10 (ix3 k (3 : Fin 4) q)) := by
  unfold k0_pay3
  simp only [shapeCast_self]
  rw [addf_apply, addf_apply, matmul_gate3, matmul_gate3]

/-- Gate 2's accumulator after a K-block, over the loaded blocks. -/
theorem k0_pay2_loaded (v3 v5 : Vec Ideal S1024x1024 .bf16) (v7 v9 : Vec Ideal S1024x4x256 .bf16) (v35 : Vec Ideal S1024x256 .f32)
    (p : Fin 1024) (q : Fin 256) :
    k0_pay2 (F := Ideal) (k0_pay10 (F := Ideal) v3) (k0_pay11 (F := Ideal) v5) (k0_pay12 (F := Ideal) v7) (k0_pay13 (F := Ideal) v9) v35 (ix2 p q)
      = v35 (ix2 p q) + ((∑ k : Fin 1024, v3 (ix2 p k) * v7 (ix3 k (2 : Fin 4) q)) + ∑ k : Fin 1024, v5 (ix2 p k) * v9 (ix3 k (2 : Fin 4) q)) := by
  rw [k0_pay2_apply, k0_pay10_eq, k0_pay11_eq, k0_pay12_eq, k0_pay13_eq]

/-- Gate 3's accumulator after a K-block, over the loaded blocks. -/
theorem k0_pay3_loaded (v3 v5 : Vec Ideal S1024x1024 .bf16) (v7 v9 : Vec Ideal S1024x4x256 .bf16) (v47 : Vec Ideal S1024x256 .f32)
    (p : Fin 1024) (q : Fin 256) :
    k0_pay3 (F := Ideal) (k0_pay10 (F := Ideal) v3) (k0_pay11 (F := Ideal) v5) (k0_pay12 (F := Ideal) v7) (k0_pay13 (F := Ideal) v9) v47 (ix2 p q)
      = v47 (ix2 p q) + ((∑ k : Fin 1024, v3 (ix2 p k) * v7 (ix3 k (3 : Fin 4) q)) + ∑ k : Fin 1024, v5 (ix2 p k) * v9 (ix3 k (3 : Fin 4) q)) := by
  rw [k0_pay3_apply, k0_pay10_eq, k0_pay11_eq, k0_pay12_eq, k0_pay13_eq]

/-! ## The accumulators' start -/

/-- Gate 0's accumulator starts at zero. -/
theorem k0_pay6_apply (p : Fin 1024) (q : Fin 256) : k0_pay6 (F := Ideal) (ix2 p q) = 0 := by
  unfold k0_pay6
  simp only [shapeCast_self]
  exact Ideal.ofBits_zero_f32

/-- Gate 1's accumulator starts at zero. -/
theorem k0_pay7_apply (p : Fin 1024) (q : Fin 256) : k0_pay7 (F := Ideal) (ix2 p q) = 0 := by
  unfold k0_pay7
  simp only [shapeCast_self]
  exact Ideal.ofBits_zero_f32

/-- Gate 2's accumulator starts at zero. -/
theorem k0_pay8_apply (p : Fin 1024) (q : Fin 256) : k0_pay8 (F := Ideal) (ix2 p q) = 0 := by
  unfold k0_pay8
  simp only [shapeCast_self]
  exact Ideal.ofBits_zero_f32

/-- Gate 3's accumulator starts at zero. -/
theorem k0_pay9_apply (p : Fin 1024) (q : Fin 256) : k0_pay9 (F := Ideal) (ix2 p q) = 0 := by
  unfold k0_pay9
  simp only [shapeCast_self]
  exact Ideal.ofBits_zero_f32

/-! ## The cell's outputs -/

/-- The logistic function of an array, at an index. -/
theorem logistic_apply {s : Shape} {φ : FTy} (a : FVec Ideal s φ) (i : s.Idx) : logistic a i = Ideal.logistic (a i) := rfl

/-- The hyperbolic tangent of an array, at an index. -/
theorem tanh_apply {s : Shape} {φ : FTy} (a : FVec Ideal s φ) (i : s.Idx) : tanh a i = Ideal.tanh (a i) := rfl

/-- A bias row broadcast over the block's rows, at `(p, q)`: the row's entry `q`. -/
theorem bias_row (b : Vec Ideal S1x256 .f32) (p : Fin 1024) (q : Fin 256) :
    broadcastTo S1024x256 (shapeCast S1x256 (shapeCast S256 b shapeCasts_S1x256_S256) shapeCasts_S256_S1x256) broadcasts_S1x256_S1024x256 (ix2 p q)
      = b (ix2 (0 : Fin 1) q) := by
  rw [shapeCast_shapeCast]
  exact broadcastTo_1b_ab_apply b broadcasts_S1x256_S1024x256 p q

/-- The new cell state at `(p, q)` of the block. -/
theorem k0_pay4_apply (v62 : Vec Ideal S1024x256 .f32) (v63 : Vec Ideal S1x256 .f32) (v68 : Vec Ideal S1024x256 .f32) (v69 : Vec Ideal S1x256 .f32)
    (v80 : Vec Ideal S1024x256 .f32) (v81 : Vec Ideal S1x256 .f32) (v91 : Vec Ideal S1024x256 .f32) (p : Fin 1024) (q : Fin 256) :
    k0_pay4 (F := Ideal) v62 v63 v68 v69 v80 v81 v91 (ix2 p q)
      = Ideal.logistic (v62 (ix2 p q) + v63 (ix2 (0 : Fin 1) q)) * v91 (ix2 p q)
        + Ideal.logistic (v68 (ix2 p q) + v69 (ix2 (0 : Fin 1) q)) * Ideal.tanh (v80 (ix2 p q) + v81 (ix2 (0 : Fin 1) q)) := by
  unfold k0_pay4
  rw [addf_apply, mulf_apply, mulf_apply, logistic_apply, logistic_apply, tanh_apply, addf_apply, addf_apply, addf_apply,
    bias_row, bias_row, bias_row]

/-- The new hidden state at `(p, q)` of the block. -/
theorem k0_pay5_apply (v62 : Vec Ideal S1024x256 .f32) (v63 : Vec Ideal S1x256 .f32) (v68 : Vec Ideal S1024x256 .f32) (v69 : Vec Ideal S1x256 .f32)
    (v74 : Vec Ideal S1024x256 .f32) (v75 : Vec Ideal S1x256 .f32) (v80 : Vec Ideal S1024x256 .f32) (v81 : Vec Ideal S1x256 .f32)
    (v91 : Vec Ideal S1024x256 .f32) (p : Fin 1024) (q : Fin 256) :
    k0_pay5 (F := Ideal) v62 v63 v68 v69 v74 v75 v80 v81 v91 (ix2 p q)
      = Ideal.logistic (v74 (ix2 p q) + v75 (ix2 (0 : Fin 1) q)) * Ideal.tanh (k0_pay4 (F := Ideal) v62 v63 v68 v69 v80 v81 v91 (ix2 p q)) := by
  unfold k0_pay5
  rw [mulf_apply, logistic_apply, tanh_apply, addf_apply, bias_row]

end Cert.KernelIdeal.KPay

end
-- ==== Proof.LstmAlgebra.lean ====
/-
  Sum algebra for the LSTM cell: a sum over the 4096 columns of a weight row splits into the half that
  meets `X` and the half that meets `h`, and a sum over 2048 features splits into two blocks of 1024.
  Addition on the extended reals is a commutative monoid, so the regrouping is free.
-/
import proofs.«153991_j82282983457013_2_alg».proof.Proof.LstmSpec
import Mathlib.Algebra.BigOperators.Fin

noncomputable section

namespace Cert.LstmSpec

open Idealize.ShloMosaic Idealize.ShloMosaic.ValueIdx
open scoped BigOperators

/-- A sum over `Fin (a + b)` written over `Fin c` with `c = a + b` numerically. -/
theorem sum_split {M : Type*} [AddCommMonoid M] (a b c : ℕ) (h : a + b = c) (f : Fin c → M) :
    ∑ k : Fin c, f k
      = (∑ k : Fin a, f ⟨k.val, by omega⟩) + ∑ k : Fin b, f ⟨a + k.val, by omega⟩ := by
  subst h
  exact Fin.sum_univ_add f

/-- The 4096 columns of a weight row: first the 2048 that meet `X`, then the 2048 that meet `h`. -/
theorem sum_concat (f : Fin 4096 → EReal) :
    ∑ k : Fin 4096, f k = (∑ k : Fin 2048, f (lo k)) + ∑ k : Fin 2048, f (hi k) :=
  sum_split 2048 2048 4096 (by norm_num) f

/-- The 2048 features in two blocks of 1024. -/
theorem sum_blocks (f : Fin 2048 → EReal) :
    ∑ k : Fin 2048, f k = (∑ k : Fin 1024, f (kx 0 k)) + ∑ k : Fin 1024, f (kx 1 k) := by
  rw [sum_split 1024 1024 2048 (by norm_num) f]
  have e0 : ∀ k : Fin 1024, (⟨k.val, by omega⟩ : Fin 2048) = kx 0 k := fun k => Fin.ext (by simp [kx])
  have e1 : ∀ k : Fin 1024, (⟨1024 + k.val, by omega⟩ : Fin 2048) = kx 1 k := fun k => Fin.ext (by simp [kx])
  simp only [e0, e1]

/-- The kernel's arrangement of a pre-activation (two K-blocks accumulated from zero) is the pre-activation. -/
theorem pre_eq_preBlocks (X H : Act) (W : Wt) (b : Bias) (r : Fin 4096) (n : Fin 2048) :
    pre X H W b r n = preBlocks X H W b r n := by
  unfold pre preBlocks blockTerm
  rw [sum_blocks (fun k => X (ix2 r k) * W (ix2 n (lo k))),
    sum_blocks (fun k => H (ix2 r k) * W (ix2 n (hi k))), zero_add]
  congr 1
  exact add_add_add_comm _ _ _ _

end Cert.LstmSpec

end
-- ==== Proof.KCell.lean ====
/-
  One entry of the cell's outputs from the kernel's arithmetic. A gate's accumulator, zeroed, then given the first
  K-block's two sums and the second's, holds at `(p, q)` of a block the two halves of the gate's contraction in the
  order `(0 + block 0) + block 1`; with the gate's bias added this is the gate's pre-activation at the entry `(r, n)` of
  the arrays that `(p, q)` of the block stands for. The new cell state and the new hidden state computed from the four
  accumulators, the bias rows and the cell block are then the specification's `cNewAt` and `hNewAt` at `(r, n)`.
  Only commutativity and associativity of addition on the extended reals are used.
-/
import proofs.«153991_j82282983457013_2_alg».proof.Proof.KPay
import proofs.«153991_j82282983457013_2_alg».proof.Proof.LstmSpec
import proofs.«153991_j82282983457013_2_alg».proof.Proof.LstmAlgebra

noncomputable section

namespace Cert.KernelIdeal.KCell

open Cert.KernelIdeal Cert.KernelIdeal.Gen Cert.KernelIdeal.KPay Cert.LstmSpec Idealize.ShloMosaic Idealize.ShloMosaic.ValueIdx
open scoped BigOperators

/-! ## The accumulators after each K-block -/

/-- Accumulator 0 after the first K-block: started at zero, then given that block's sums. -/
abbrev accA0 (x0 h0 : Vec Ideal S1024x1024 .bf16) (wx0 wh0 : Vec Ideal S1024x4x256 .bf16) : FVec Ideal S1024x256 .f32 :=
  k0_pay14 (F := Ideal) x0 h0 wx0 wh0 (k0_pay6 (F := Ideal))

/-- Accumulator 1 after the first K-block: started at zero, then given that block's sums. -/
abbrev accA1 (x0 h0 : Vec Ideal S1024x1024 .bf16) (wx0 wh0 : Vec Ideal S1024x4x256 .bf16) : FVec Ideal S1024x256 .f32 :=
  k0_pay1 (F := Ideal) (k0_pay15 (F := Ideal) x0 h0 wx0 wh0 (k0_pay7 (F := Ideal)))

/-- Accumulator 2 after the first K-block: started at zero, then given that block's sums. -/
abbrev accA2 (x0 h0 : Vec Ideal S1024x1024 .bf16) (wx0 wh0 : Vec Ideal S1024x4x256 .bf16) : FVec Ideal S1024x256 .f32 :=
  k0_pay2 (F := Ideal) (k0_pay10 (F := Ideal) x0) (k0_pay11 (F := Ideal) h0) (k0_pay12 (F := Ideal) wx0) (k0_pay13 (F := Ideal) wh0) (k0_pay8 (F := Ideal))

/-- Accumulator 3 after the first K-block: started at zero, then given that block's sums. -/
abbrev accA3 (x0 h0 : Vec Ideal S1024x1024 .bf16) (wx0 wh0 : Vec Ideal S1024x4x256 .bf16) : FVec Ideal S1024x256 .f32 :=
  k0_pay3 (F := Ideal) (k0_pay10 (F := Ideal) x0) (k0_pay11 (F := Ideal) h0) (k0_pay12 (F := Ideal) wx0) (k0_pay13 (F := Ideal) wh0) (k0_pay9 (F := Ideal))

/-- Accumulator 0 after the second K-block. -/
abbrev v62 (x0 h0 : Vec Ideal S1024x1024 .bf16) (wx0 wh0 : Vec Ideal S1024x4x256 .bf16) (x1 h1 : Vec Ideal S1024x1024 .bf16) (wx1 wh1 : Vec Ideal S1024x4x256 .bf16) : FVec Ideal S1024x256 .f32 :=
  k0_pay14 (F := Ideal) x1 h1 wx1 wh1 (accA0 x0 h0 wx0 wh0)

/-- Accumulator 1 after the second K-block. -/
abbrev v68 (x0 h0 : Vec Ideal S1024x1024 .bf16) (wx0 wh0 : Vec Ideal S1024x4x256 .bf16) (x1 h1 : Vec Ideal S1024x1024 .bf16) (wx1 wh1 : Vec Ideal S1024x4x256 .bf16) : FVec Ideal S1024x256 .f32 :=
  k0_pay1 (F := Ideal) (k0_pay15 (F := Ideal) x1 h1 wx1 wh1 (accA1 x0 h0 wx0 wh0))

/-- Accumulator 2 after the second K-block. -/
abbrev v74 (x0 h0 : Vec Ideal S1024x1024 .bf16) (wx0 wh0 : Vec Ideal S1024x4x256 .bf16) (x1 h1 : Vec Ideal S1024x1024 .bf16) (wx1 wh1 : Vec Ideal S1024x4x256 .bf16) : FVec Ideal S1024x256 .f32 :=
  k0_pay2 (F := Ideal) (k0_pay10 (F := Ideal) x1) (k0_pay11 (F := Ideal) h1) (k0_pay12 (F := Ideal) wx1) (k0_pay13 (F := Ideal) wh1) (accA2 x0 h0 wx0 wh0)

/-- Accumulator 3 after the second K-block. -/
abbrev v80 (x0 h0 : Vec Ideal S1024x1024 .bf16) (wx0 wh0 : Vec Ideal S1024x4x256 .bf16) (x1 h1 : Vec Ideal S1024x1024 .bf16) (wx1 wh1 : Vec Ideal S1024x4x256 .bf16) : FVec Ideal S1024x256 .f32 :=
  k0_pay3 (F := Ideal) (k0_pay10 (F := Ideal) x1) (k0_pay11 (F := Ideal) h1) (k0_pay12 (F := Ideal) wx1) (k0_pay13 (F := Ideal) wh1) (accA3 x0 h0 wx0 wh0)

/-! ## A K-block's two sums are the specification's block term -/

/-- The sums a K-block adds to gate `g`'s accumulator at `(p, q)`, when the loaded blocks hold the arrays' entries of
    batch row `r`, feature `n` and K-block `kb`. -/
theorem step_blockTerm (X H : Act) (W : Wt) (x hh : Vec Ideal S1024x1024 .bf16) (wx wh : Vec Ideal S1024x4x256 .bf16)
    (g : Fin 4) (r : Fin 4096) (n : Fin 2048) (kb : Fin 2) (p : Fin 1024) (q : Fin 256)
    (hx : ∀ k : Fin 1024, x (ix2 p k) = X (ix2 r (kx kb k))) (hh' : ∀ k : Fin 1024, hh (ix2 p k) = H (ix2 r (kx kb k)))
    (hwx : ∀ k : Fin 1024, wx (ix3 k g q) = W (ix2 n (lo (kx kb k))))
    (hwh : ∀ k : Fin 1024, wh (ix3 k g q) = W (ix2 n (hi (kx kb k)))) :
    (∑ k : Fin 1024, x (ix2 p k) * wx (ix3 k g q)) + ∑ k : Fin 1024, hh (ix2 p k) * wh (ix3 k g q) = blockTerm X H W r n kb := by
  unfold blockTerm
  refine congrArg₂ (· + ·) (Finset.sum_congr rfl fun k _ => ?_) (Finset.sum_congr rfl fun k _ => ?_)
  · rw [hx k, hwx k]
  · rw [hh' k, hwh k]

/-! ## Each gate's pre-activation -/

/-- Accumulator 0 after both K-blocks plus its bias row is the pre-activation with `Wf`, `bf`. -/
theorem gate0_pre (X H : Act) (Wf : Wt) (bf : Bias) (r : Fin 4096) (n : Fin 2048) (p : Fin 1024) (q : Fin 256)
    (x0 h0 : Vec Ideal S1024x1024 .bf16) (wx0 wh0 : Vec Ideal S1024x4x256 .bf16) (x1 h1 : Vec Ideal S1024x1024 .bf16) (wx1 wh1 : Vec Ideal S1024x4x256 .bf16) (v63 : Vec Ideal S1x256 .f32)
    (hx0 : ∀ k : Fin 1024, x0 (ix2 p k) = X (ix2 r (kx 0 k))) (hx1 : ∀ k : Fin 1024, x1 (ix2 p k) = X (ix2 r (kx 1 k)))
    (hh0 : ∀ k : Fin 1024, h0 (ix2 p k) = H (ix2 r (kx 0 k))) (hh1 : ∀ k : Fin 1024, h1 (ix2 p k) = H (ix2 r (kx 1 k)))
    (hwx00 : ∀ k : Fin 1024, wx0 (ix3 k (0 : Fin 4) q) = Wf (ix2 n (lo (kx 0 k)))) (hwx01 : ∀ k : Fin 1024, wx1 (ix3 k (0 : Fin 4) q) = Wf (ix2 n (lo (kx 1 k))))
    (hwh00 : ∀ k : Fin 1024, wh0 (ix3 k (0 : Fin 4) q) = Wf (ix2 n (hi (kx 0 k)))) (hwh01 : ∀ k : Fin 1024, wh1 (ix3 k (0 : Fin 4) q) = Wf (ix2 n (hi (kx 1 k))))
    (hb0 : v63 (ix2 (0 : Fin 1) q) = bf (ix1 n)) :
    v62 x0 h0 wx0 wh0 x1 h1 wx1 wh1 (ix2 p q) + v63 (ix2 (0 : Fin 1) q) = pre X H Wf bf r n := by
  unfold v62 accA0
  rw [k0_pay14_apply, k0_pay14_apply, k0_pay6_apply,
    step_blockTerm X H Wf x1 h1 wx1 wh1 (0 : Fin 4) r n 1 p q hx1 hh1 hwx01 hwh01,
    step_blockTerm X H Wf x0 h0 wx0 wh0 (0 : Fin 4) r n 0 p q hx0 hh0 hwx00 hwh00, hb0, pre_eq_preBlocks]
  rfl

/-- Accumulator 1 after both K-blocks plus its bias row is the pre-activation with `Wg`, `bg`. -/
theorem gate1_pre (X H : Act) (Wg : Wt) (bg : Bias) (r : Fin 4096) (n : Fin 2048) (p : Fin 1024) (q : Fin 256)
    (x0 h0 : Vec Ideal S1024x1024 .bf16) (wx0 wh0 : Vec Ideal S1024x4x256 .bf16) (x1 h1 : Vec Ideal S1024x1024 .bf16) (wx1 wh1 : Vec Ideal S1024x4x256 .bf16) (v69 : Vec Ideal S1x256 .f32)
    (hx0 : ∀ k : Fin 1024, x0 (ix2 p k) = X (ix2 r (kx 0 k))) (hx1 : ∀ k : Fin 1024, x1 (ix2 p k) = X (ix2 r (kx 1 k)))
    (hh0 : ∀ k : Fin 1024, h0 (ix2 p k) = H (ix2 r (kx 0 k))) (hh1 : ∀ k : Fin 1024, h1 (ix2 p k) = H (ix2 r (kx 1 k)))
    (hwx10 : ∀ k : Fin 1024, wx0 (ix3 k (1 : Fin 4) q) = Wg (ix2 n (lo (kx 0 k)))) (hwx11 : ∀ k : Fin 1024, wx1 (ix3 k (1 : Fin 4) q) = Wg (ix2 n (lo (kx 1 k))))
    (hwh10 : ∀ k : Fin 1024, wh0 (ix3 k (1 : Fin 4) q) = Wg (ix2 n (hi (kx 0 k)))) (hwh11 : ∀ k : Fin 1024, wh1 (ix3 k (1 : Fin 4) q) = Wg (ix2 n (hi (kx 1 k))))
    (hb1 : v69 (ix2 (0 : Fin 1) q) = bg (ix1 n)) :
    v68 x0 h0 wx0 wh0 x1 h1 wx1 wh1 (ix2 p q) + v69 (ix2 (0 : Fin 1) q) = pre X H Wg bg r n := by
  unfold v68 accA1
  rw [k0_pay1_apply, k0_pay1_apply, k0_pay7_apply,
    step_blockTerm X H Wg x1 h1 wx1 wh1 (1 : Fin 4) r n 1 p q hx1 hh1 hwx11 hwh11,
    step_blockTerm X H Wg x0 h0 wx0 wh0 (1 : Fin 4) r n 0 p q hx0 hh0 hwx10 hwh10, hb1, pre_eq_preBlocks]
  rfl

/-- Accumulator 2 after both K-blocks plus its bias row is the pre-activation with `Wo`, `bo`. -/
theorem gate2_pre (X H : Act) (Wo : Wt) (bo : Bias) (r : Fin 4096) (n : Fin 2048) (p : Fin 1024) (q : Fin 256)
    (x0 h0 : Vec Ideal S1024x1024 .bf16) (wx0 wh0 : Vec Ideal S1024x4x256 .bf16) (x1 h1 : Vec Ideal S1024x1024 .bf16) (wx1 wh1 : Vec Ideal S1024x4x256 .bf16) (v75 : Vec Ideal S1x256 .f32)
    (hx0 : ∀ k : Fin 1024, x0 (ix2 p k) = X (ix2 r (kx 0 k))) (hx1 : ∀ k : Fin 1024, x1 (ix2 p k) = X (ix2 r (kx 1 k)))
    (hh0 : ∀ k : Fin 1024, h0 (ix2 p k) = H (ix2 r (kx 0 k))) (hh1 : ∀ k : Fin 1024, h1 (ix2 p k) = H (ix2 r (kx 1 k)))
    (hwx20 : ∀ k : Fin 1024, wx0 (ix3 k (2 : Fin 4) q) = Wo (ix2 n (lo (kx 0 k)))) (hwx21 : ∀ k : Fin 1024, wx1 (ix3 k (2 : Fin 4) q) = Wo (ix2 n (lo (kx 1 k))))
    (hwh20 : ∀ k : Fin 1024, wh0 (ix3 k (2 : Fin 4) q) = Wo (ix2 n (hi (kx 0 k)))) (hwh21 : ∀ k : Fin 1024, wh1 (ix3 k (2 : Fin 4) q) = Wo (ix2 n (hi (kx 1 k))))
    (hb2 : v75 (ix2 (0 : Fin 1) q) = bo (ix1 n)) :
    v74 x0 h0 wx0 wh0 x1 h1 wx1 wh1 (ix2 p q) + v75 (ix2 (0 : Fin 1) q) = pre X H Wo bo r n := by
  unfold v74 accA2
  rw [k0_pay2_loaded, k0_pay2_loaded, k0_pay8_apply,
    step_blockTerm X H Wo x1 h1 wx1 wh1 (2 : Fin 4) r n 1 p q hx1 hh1 hwx21 hwh21,
    step_blockTerm X H Wo x0 h0 wx0 wh0 (2 : Fin 4) r n 0 p q hx0 hh0 hwx20 hwh20, hb2, pre_eq_preBlocks]
  rfl

/-- Accumulator 3 after both K-blocks plus its bias row is the pre-activation with `Wi`, `bi`. -/
theorem gate3_pre (X H : Act) (Wi : Wt) (bi : Bias) (r : Fin 4096) (n : Fin 2048) (p : Fin 1024) (q : Fin 256)
    (x0 h0 : Vec Ideal S1024x1024 .bf16) (wx0 wh0 : Vec Ideal S1024x4x256 .bf16) (x1 h1 : Vec Ideal S1024x1024 .bf16) (wx1 wh1 : Vec Ideal S1024x4x256 .bf16) (v81 : Vec Ideal S1x256 .f32)
    (hx0 : ∀ k : Fin 1024, x0 (ix2 p k) = X (ix2 r (kx 0 k))) (hx1 : ∀ k : Fin 1024, x1 (ix2 p k) = X (ix2 r (kx 1 k)))
    (hh0 : ∀ k : Fin 1024, h0 (ix2 p k) = H (ix2 r (kx 0 k))) (hh1 : ∀ k : Fin 1024, h1 (ix2 p k) = H (ix2 r (kx 1 k)))
    (hwx30 : ∀ k : Fin 1024, wx0 (ix3 k (3 : Fin 4) q) = Wi (ix2 n (lo (kx 0 k)))) (hwx31 : ∀ k : Fin 1024, wx1 (ix3 k (3 : Fin 4) q) = Wi (ix2 n (lo (kx 1 k))))
    (hwh30 : ∀ k : Fin 1024, wh0 (ix3 k (3 : Fin 4) q) = Wi (ix2 n (hi (kx 0 k)))) (hwh31 : ∀ k : Fin 1024, wh1 (ix3 k (3 : Fin 4) q) = Wi (ix2 n (hi (kx 1 k))))
    (hb3 : v81 (ix2 (0 : Fin 1) q) = bi (ix1 n)) :
    v80 x0 h0 wx0 wh0 x1 h1 wx1 wh1 (ix2 p q) + v81 (ix2 (0 : Fin 1) q) = pre X H Wi bi r n := by
  unfold v80 accA3
  rw [k0_pay3_loaded, k0_pay3_loaded, k0_pay9_apply,
    step_blockTerm X H Wi x1 h1 wx1 wh1 (3 : Fin 4) r n 1 p q hx1 hh1 hwx31 hwh31,
    step_blockTerm X H Wi x0 h0 wx0 wh0 (3 : Fin 4) r n 0 p q hx0 hh0 hwx30 hwh30, hb3, pre_eq_preBlocks]
  rfl

/-! ## The cell -/

/-- The new cell state the kernel stores at `(p, q)` of a block is the specification's at `(r, n)`. -/
theorem cell_c (X H C : Act) (Wf Wg Wo Wi : Wt) (bf bg bo bi : Bias) (r : Fin 4096) (n : Fin 2048) (p : Fin 1024) (q : Fin 256)
    (x0 h0 : Vec Ideal S1024x1024 .bf16) (wx0 wh0 : Vec Ideal S1024x4x256 .bf16) (x1 h1 : Vec Ideal S1024x1024 .bf16) (wx1 wh1 : Vec Ideal S1024x4x256 .bf16)
    (v63 v69 v75 v81 : Vec Ideal S1x256 .f32) (cc : Vec Ideal S1024x256 .f32)
    (hx0 : ∀ k : Fin 1024, x0 (ix2 p k) = X (ix2 r (kx 0 k))) (hx1 : ∀ k : Fin 1024, x1 (ix2 p k) = X (ix2 r (kx 1 k)))
    (hh0 : ∀ k : Fin 1024, h0 (ix2 p k) = H (ix2 r (kx 0 k))) (hh1 : ∀ k : Fin 1024, h1 (ix2 p k) = H (ix2 r (kx 1 k)))
    (hwx00 : ∀ k : Fin 1024, wx0 (ix3 k (0 : Fin 4) q) = Wf (ix2 n (lo (kx 0 k)))) (hwx01 : ∀ k : Fin 1024, wx1 (ix3 k (0 : Fin 4) q) = Wf (ix2 n (lo (kx 1 k))))
    (hwh00 : ∀ k : Fin 1024, wh0 (ix3 k (0 : Fin 4) q) = Wf (ix2 n (hi (kx 0 k)))) (hwh01 : ∀ k : Fin 1024, wh1 (ix3 k (0 : Fin 4) q) = Wf (ix2 n (hi (kx 1 k))))
    (hwx10 : ∀ k : Fin 1024, wx0 (ix3 k (1 : Fin 4) q) = Wg (ix2 n (lo (kx 0 k)))) (hwx11 : ∀ k : Fin 1024, wx1 (ix3 k (1 : Fin 4) q) = Wg (ix2 n (lo (kx 1 k))))
    (hwh10 : ∀ k : Fin 1024, wh0 (ix3 k (1 : Fin 4) q) = Wg (ix2 n (hi (kx 0 k)))) (hwh11 : ∀ k : Fin 1024, wh1 (ix3 k (1 : Fin 4) q) = Wg (ix2 n (hi (kx 1 k))))
    (hwx20 : ∀ k : Fin 1024, wx0 (ix3 k (2 : Fin 4) q) = Wo (ix2 n (lo (kx 0 k)))) (hwx21 : ∀ k : Fin 1024, wx1 (ix3 k (2 : Fin 4) q) = Wo (ix2 n (lo (kx 1 k))))
    (hwh20 : ∀ k : Fin 1024, wh0 (ix3 k (2 : Fin 4) q) = Wo (ix2 n (hi (kx 0 k)))) (hwh21 : ∀ k : Fin 1024, wh1 (ix3 k (2 : Fin 4) q) = Wo (ix2 n (hi (kx 1 k))))
    (hwx30 : ∀ k : Fin 1024, wx0 (ix3 k (3 : Fin 4) q) = Wi (ix2 n (lo (kx 0 k)))) (hwx31 : ∀ k : Fin 1024, wx1 (ix3 k (3 : Fin 4) q) = Wi (ix2 n (lo (kx 1 k))))
    (hwh30 : ∀ k : Fin 1024, wh0 (ix3 k (3 : Fin 4) q) = Wi (ix2 n (hi (kx 0 k)))) (hwh31 : ∀ k : Fin 1024, wh1 (ix3 k (3 : Fin 4) q) = Wi (ix2 n (hi (kx 1 k))))
    (hb0 : v63 (ix2 (0 : Fin 1) q) = bf (ix1 n)) (hb1 : v69 (ix2 (0 : Fin 1) q) = bg (ix1 n)) (hb2 : v75 (ix2 (0 : Fin 1) q) = bo (ix1 n)) (hb3 : v81 (ix2 (0 : Fin 1) q) = bi (ix1 n))
    (hc : cc (ix2 p q) = C (ix2 r n)) :
    k0_pay4 (F := Ideal) (v62 x0 h0 wx0 wh0 x1 h1 wx1 wh1) v63 (v68 x0 h0 wx0 wh0 x1 h1 wx1 wh1) v69 (v80 x0 h0 wx0 wh0 x1 h1 wx1 wh1) v81 cc (ix2 p q)
      = cNewAt X H C Wf bf Wg bg Wi bi r n := by
  rw [k0_pay4_apply, gate0_pre X H Wf bf r n p q x0 h0 wx0 wh0 x1 h1 wx1 wh1 v63 hx0 hx1 hh0 hh1 hwx00 hwx01 hwh00 hwh01 hb0,
    gate1_pre X H Wg bg r n p q x0 h0 wx0 wh0 x1 h1 wx1 wh1 v69 hx0 hx1 hh0 hh1 hwx10 hwx11 hwh10 hwh11 hb1,
    gate3_pre X H Wi bi r n p q x0 h0 wx0 wh0 x1 h1 wx1 wh1 v81 hx0 hx1 hh0 hh1 hwx30 hwx31 hwh30 hwh31 hb3, hc]
  rfl

/-- The new hidden state the kernel stores at `(p, q)` of a block is the specification's at `(r, n)`. -/
theorem cell_h (X H C : Act) (Wf Wg Wo Wi : Wt) (bf bg bo bi : Bias) (r : Fin 4096) (n : Fin 2048) (p : Fin 1024) (q : Fin 256)
    (x0 h0 : Vec Ideal S1024x1024 .bf16) (wx0 wh0 : Vec Ideal S1024x4x256 .bf16) (x1 h1 : Vec Ideal S1024x1024 .bf16) (wx1 wh1 : Vec Ideal S1024x4x256 .bf16)
    (v63 v69 v75 v81 : Vec Ideal S1x256 .f32) (cc : Vec Ideal S1024x256 .f32)
    (hx0 : ∀ k : Fin 1024, x0 (ix2 p k) = X (ix2 r (kx 0 k))) (hx1 : ∀ k : Fin 1024, x1 (ix2 p k) = X (ix2 r (kx 1 k)))
    (hh0 : ∀ k : Fin 1024, h0 (ix2 p k) = H (ix2 r (kx 0 k))) (hh1 : ∀ k : Fin 1024, h1 (ix2 p k) = H (ix2 r (kx 1 k)))
    (hwx00 : ∀ k : Fin 1024, wx0 (ix3 k (0 : Fin 4) q) = Wf (ix2 n (lo (kx 0 k)))) (hwx01 : ∀ k : Fin 1024, wx1 (ix3 k (0 : Fin 4) q) = Wf (ix2 n (lo (kx 1 k))))
    (hwh00 : ∀ k : Fin 1024, wh0 (ix3 k (0 : Fin 4) q) = Wf (ix2 n (hi (kx 0 k)))) (hwh01 : ∀ k : Fin 1024, wh1 (ix3 k (0 : Fin 4) q) = Wf (ix2 n (hi (kx 1 k))))
    (hwx10 : ∀ k : Fin 1024, wx0 (ix3 k (1 : Fin 4) q) = Wg (ix2 n (lo (kx 0 k)))) (hwx11 : ∀ k : Fin 1024, wx1 (ix3 k (1 : Fin 4) q) = Wg (ix2 n (lo (kx 1 k))))
    (hwh10 : ∀ k : Fin 1024, wh0 (ix3 k (1 : Fin 4) q) = Wg (ix2 n (hi (kx 0 k)))) (hwh11 : ∀ k : Fin 1024, wh1 (ix3 k (1 : Fin 4) q) = Wg (ix2 n (hi (kx 1 k))))
    (hwx20 : ∀ k : Fin 1024, wx0 (ix3 k (2 : Fin 4) q) = Wo (ix2 n (lo (kx 0 k)))) (hwx21 : ∀ k : Fin 1024, wx1 (ix3 k (2 : Fin 4) q) = Wo (ix2 n (lo (kx 1 k))))
    (hwh20 : ∀ k : Fin 1024, wh0 (ix3 k (2 : Fin 4) q) = Wo (ix2 n (hi (kx 0 k)))) (hwh21 : ∀ k : Fin 1024, wh1 (ix3 k (2 : Fin 4) q) = Wo (ix2 n (hi (kx 1 k))))
    (hwx30 : ∀ k : Fin 1024, wx0 (ix3 k (3 : Fin 4) q) = Wi (ix2 n (lo (kx 0 k)))) (hwx31 : ∀ k : Fin 1024, wx1 (ix3 k (3 : Fin 4) q) = Wi (ix2 n (lo (kx 1 k))))
    (hwh30 : ∀ k : Fin 1024, wh0 (ix3 k (3 : Fin 4) q) = Wi (ix2 n (hi (kx 0 k)))) (hwh31 : ∀ k : Fin 1024, wh1 (ix3 k (3 : Fin 4) q) = Wi (ix2 n (hi (kx 1 k))))
    (hb0 : v63 (ix2 (0 : Fin 1) q) = bf (ix1 n)) (hb1 : v69 (ix2 (0 : Fin 1) q) = bg (ix1 n)) (hb2 : v75 (ix2 (0 : Fin 1) q) = bo (ix1 n)) (hb3 : v81 (ix2 (0 : Fin 1) q) = bi (ix1 n))
    (hc : cc (ix2 p q) = C (ix2 r n)) :
    k0_pay5 (F := Ideal) (v62 x0 h0 wx0 wh0 x1 h1 wx1 wh1) v63 (v68 x0 h0 wx0 wh0 x1 h1 wx1 wh1) v69 (v74 x0 h0 wx0 wh0 x1 h1 wx1 wh1) v75 (v80 x0 h0 wx0 wh0 x1 h1 wx1 wh1) v81 cc (ix2 p q)
      = hNewAt X H C Wf bf Wg bg Wo bo Wi bi r n := by
  rw [k0_pay5_apply, gate2_pre X H Wo bo r n p q x0 h0 wx0 wh0 x1 h1 wx1 wh1 v75 hx0 hx1 hh0 hh1 hwx20 hwx21 hwh20 hwh21 hb2,
    cell_c X H C Wf Wg Wo Wi bf bg bo bi r n p q x0 h0 wx0 wh0 x1 h1 wx1 wh1 v63 v69 v75 v81 cc hx0 hx1 hh0 hh1
      hwx00 hwx01 hwh00 hwh01 hwx10 hwx11 hwh10 hwh11 hwx20 hwx21 hwh20 hwh21 hwx30 hwx31 hwh30 hwh31 hb0 hb1 hb2 hb3 hc]
  rfl

end Cert.KernelIdeal.KCell

end
-- ==== Proof.KernelIdealPoint.lean ====
/-
  The two result buffers at an odd grid point, entry by entry, are the LSTM cell.

  At the odd point `t` (batch tile `t/16`, feature tile `(t/2) mod 8`) entry `(p, q)` of a result block is entry
  `(r, n) = (1024·(t/16) + p, 256·((t/2) mod 8) + q)` of the result array. The even point before it has the same
  tiles and K-block 0, `t` itself K-block 1; each loaded block entry is an entry of an argument array (the
  windows' index maps and the host's re-layout of the weights), so the accumulated sums are the gate
  pre-activations at `(r, n)` and the stored values are the new cell and hidden states there.
-/
import proofs.«153991_j82282983457013_2_alg».proof.Proof.KernelIdealPieces
import proofs.«153991_j82282983457013_2_alg».proof.Proof.KernelIdealBlocks
import proofs.«153991_j82282983457013_2_alg».proof.Proof.KCell

set_option maxRecDepth 16384

noncomputable section

namespace Cert.KernelIdeal.Pt

open Cert.KernelIdeal Cert.KernelIdeal.Gen Cert.KernelIdeal.Fr Cert.KernelIdeal.Blk Cert.KernelIdeal.KCell Cert.LstmSpec
open Idealize.ShloMosaic Idealize.ShloMosaic.TcCoe Idealize.ShloMosaic.ValueIdx Idealize.SL.Sem

variable (m : (ℓ : Loc nD τ sig) → Buf (Elt Ideal) ℓ)

/-- The even point before an odd point has the same batch tile, -/
theorem row_prev (t : Fin cfg0.N) (h1 : t.val % 2 = 1) (p : Fin 1024) : rowOf (prevPt t.val t.isLt) p = rowOf t p := by
  apply Fin.ext
  show ((t.val - 1) / 16) * 1024 + p.val = (t.val / 16) * 1024 + p.val
  have := lt64 t; omega
/-- the same feature tile, -/
theorem col_prev (t : Fin cfg0.N) (h1 : t.val % 2 = 1) (q : Fin 256) : colOf (prevPt t.val t.isLt) q = colOf t q := by
  apply Fin.ext
  show (((t.val - 1) / 2) % 8) * 256 + q.val = ((t.val / 2) % 8) * 256 + q.val
  have := lt64 t; omega
/-- and is the first K-block; -/
theorem kb_prev (t : Fin cfg0.N) (h1 : t.val % 2 = 1) : kbOf (prevPt t.val t.isLt) = 0 := by
  apply Fin.ext
  show (t.val - 1) % 2 = 0
  omega
/-- the odd point is the last K-block. -/
theorem kb_odd (t : Fin cfg0.N) (h1 : t.val % 2 = 1) : kbOf t = 1 := by
  apply Fin.ext
  show t.val % 2 = 1
  exact h1

/-- The new cell state, entry by entry. -/
theorem pointC (c : Dev nD) (t : Fin cfg0.N) (h1 : t.val % 2 = 1) (p : Fin 1024) (q : Fin 256) :
    (outsAt0 (F := Ideal) m c t.val t.isLt).2.1 (ix2 p q)
      = cNewAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg5)) (m ((c : Thread nD τ).loc main_arg6)) (rowOf t p) (colOf t q) := by
  rw [outsAt0_B m c t h1]
  dsimp only
  rw [oB7_eq, sA0_eq, sA1_eq, sA3_eq]
  exact cell_c (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg9)) (m ((c : Thread nD τ).loc main_arg5)) (m ((c : Thread nD τ).loc main_arg4)) (m ((c : Thread nD τ).loc main_arg8)) (m ((c : Thread nD τ).loc main_arg10)) (m ((c : Thread nD τ).loc main_arg6)) (rowOf t p) (colOf t q) p q
    (iblk (F := Ideal) m c 0 (prevPt t.val t.isLt) : Vec Ideal S1024x1024 .bf16) (iblk (F := Ideal) m c 1 (prevPt t.val t.isLt) : Vec Ideal S1024x1024 .bf16) (iblk (F := Ideal) m c 2 (prevPt t.val t.isLt) : Vec Ideal S1024x4x256 .bf16) (iblk (F := Ideal) m c 3 (prevPt t.val t.isLt) : Vec Ideal S1024x4x256 .bf16)
    (iblk (F := Ideal) m c 0 t : Vec Ideal S1024x1024 .bf16) (iblk (F := Ideal) m c 1 t : Vec Ideal S1024x1024 .bf16) (iblk (F := Ideal) m c 2 t : Vec Ideal S1024x4x256 .bf16) (iblk (F := Ideal) m c 3 t : Vec Ideal S1024x4x256 .bf16)
    (View.ld (iblk (F := Ideal) m c 4 t : Vec Ideal S4x256 .f32) (Rect.unit ![0, 0] ![1, 256] inb_S4x256_S1x256_0_0)) (View.ld (iblk (F := Ideal) m c 4 t : Vec Ideal S4x256 .f32) (Rect.unit ![1, 0] ![1, 256] inb_S4x256_S1x256_1_0)) (View.ld (iblk (F := Ideal) m c 4 t : Vec Ideal S4x256 .f32) (Rect.unit ![2, 0] ![1, 256] inb_S4x256_S1x256_2_0)) (View.ld (iblk (F := Ideal) m c 4 t : Vec Ideal S4x256 .f32) (Rect.unit ![3, 0] ![1, 256] inb_S4x256_S1x256_3_0)) (iblk (F := Ideal) m c 5 t : Vec Ideal S1024x256 .f32)
    (fun k => (blk0 m c (prevPt t.val t.isLt) p k).trans (by rw [row_prev t h1 p, kb_prev t h1]))
    (fun k => (blk0 m c t p k).trans (by rw [kb_odd t h1]))
    (fun k => (blk1 m c (prevPt t.val t.isLt) p k).trans (by rw [row_prev t h1 p, kb_prev t h1]))
    (fun k => (blk1 m c t p k).trans (by rw [kb_odd t h1]))
    (fun k => (blk2_0 m c (prevPt t.val t.isLt) k q).trans (by rw [col_prev t h1 q, kb_prev t h1]))
    (fun k => (blk2_0 m c t k q).trans (by rw [kb_odd t h1]))
    (fun k => (blk3_0 m c (prevPt t.val t.isLt) k q).trans (by rw [col_prev t h1 q, kb_prev t h1]))
    (fun k => (blk3_0 m c t k q).trans (by rw [kb_odd t h1]))
    (fun k => (blk2_1 m c (prevPt t.val t.isLt) k q).trans (by rw [col_prev t h1 q, kb_prev t h1]))
    (fun k => (blk2_1 m c t k q).trans (by rw [kb_odd t h1]))
    (fun k => (blk3_1 m c (prevPt t.val t.isLt) k q).trans (by rw [col_prev t h1 q, kb_prev t h1]))
    (fun k => (blk3_1 m c t k q).trans (by rw [kb_odd t h1]))
    (fun k => (blk2_2 m c (prevPt t.val t.isLt) k q).trans (by rw [col_prev t h1 q, kb_prev t h1]))
    (fun k => (blk2_2 m c t k q).trans (by rw [kb_odd t h1]))
    (fun k => (blk3_2 m c (prevPt t.val t.isLt) k q).trans (by rw [col_prev t h1 q, kb_prev t h1]))
    (fun k => (blk3_2 m c t k q).trans (by rw [kb_odd t h1]))
    (fun k => (blk2_3 m c (prevPt t.val t.isLt) k q).trans (by rw [col_prev t h1 q, kb_prev t h1]))
    (fun k => (blk2_3 m c t k q).trans (by rw [kb_odd t h1]))
    (fun k => (blk3_3 m c (prevPt t.val t.isLt) k q).trans (by rw [col_prev t h1 q, kb_prev t h1]))
    (fun k => (blk3_3 m c t k q).trans (by rw [kb_odd t h1]))
    ((ld_row _ (0 : Fin 4) _ q).trans (blk4_0 m c t q))
    ((ld_row _ (1 : Fin 4) _ q).trans (blk4_1 m c t q))
    ((ld_row _ (2 : Fin 4) _ q).trans (blk4_2 m c t q))
    ((ld_row _ (3 : Fin 4) _ q).trans (blk4_3 m c t q))
    (blk5 m c t p q)

/-- The new hidden state, entry by entry. -/
theorem pointH (c : Dev nD) (t : Fin cfg0.N) (h1 : t.val % 2 = 1) (p : Fin 1024) (q : Fin 256) :
    (outsAt0 (F := Ideal) m c t.val t.isLt).1 (ix2 p q)
      = hNewAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) (m ((c : Thread nD τ).loc main_arg5)) (m ((c : Thread nD τ).loc main_arg6)) (rowOf t p) (colOf t q) := by
  rw [outsAt0_B m c t h1]
  dsimp only
  rw [oB6_eq, sA0_eq, sA1_eq, sA2_eq, sA3_eq]
  exact cell_h (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg9)) (m ((c : Thread nD τ).loc main_arg5)) (m ((c : Thread nD τ).loc main_arg4)) (m ((c : Thread nD τ).loc main_arg8)) (m ((c : Thread nD τ).loc main_arg10)) (m ((c : Thread nD τ).loc main_arg6)) (rowOf t p) (colOf t q) p q
    (iblk (F := Ideal) m c 0 (prevPt t.val t.isLt) : Vec Ideal S1024x1024 .bf16) (iblk (F := Ideal) m c 1 (prevPt t.val t.isLt) : Vec Ideal S1024x1024 .bf16) (iblk (F := Ideal) m c 2 (prevPt t.val t.isLt) : Vec Ideal S1024x4x256 .bf16) (iblk (F := Ideal) m c 3 (prevPt t.val t.isLt) : Vec Ideal S1024x4x256 .bf16)
    (iblk (F := Ideal) m c 0 t : Vec Ideal S1024x1024 .bf16) (iblk (F := Ideal) m c 1 t : Vec Ideal S1024x1024 .bf16) (iblk (F := Ideal) m c 2 t : Vec Ideal S1024x4x256 .bf16) (iblk (F := Ideal) m c 3 t : Vec Ideal S1024x4x256 .bf16)
    (View.ld (iblk (F := Ideal) m c 4 t : Vec Ideal S4x256 .f32) (Rect.unit ![0, 0] ![1, 256] inb_S4x256_S1x256_0_0)) (View.ld (iblk (F := Ideal) m c 4 t : Vec Ideal S4x256 .f32) (Rect.unit ![1, 0] ![1, 256] inb_S4x256_S1x256_1_0)) (View.ld (iblk (F := Ideal) m c 4 t : Vec Ideal S4x256 .f32) (Rect.unit ![2, 0] ![1, 256] inb_S4x256_S1x256_2_0)) (View.ld (iblk (F := Ideal) m c 4 t : Vec Ideal S4x256 .f32) (Rect.unit ![3, 0] ![1, 256] inb_S4x256_S1x256_3_0)) (iblk (F := Ideal) m c 5 t : Vec Ideal S1024x256 .f32)
    (fun k => (blk0 m c (prevPt t.val t.isLt) p k).trans (by rw [row_prev t h1 p, kb_prev t h1]))
    (fun k => (blk0 m c t p k).trans (by rw [kb_odd t h1]))
    (fun k => (blk1 m c (prevPt t.val t.isLt) p k).trans (by rw [row_prev t h1 p, kb_prev t h1]))
    (fun k => (blk1 m c t p k).trans (by rw [kb_odd t h1]))
    (fun k => (blk2_0 m c (prevPt t.val t.isLt) k q).trans (by rw [col_prev t h1 q, kb_prev t h1]))
    (fun k => (blk2_0 m c t k q).trans (by rw [kb_odd t h1]))
    (fun k => (blk3_0 m c (prevPt t.val t.isLt) k q).trans (by rw [col_prev t h1 q, kb_prev t h1]))
    (fun k => (blk3_0 m c t k q).trans (by rw [kb_odd t h1]))
    (fun k => (blk2_1 m c (prevPt t.val t.isLt) k q).trans (by rw [col_prev t h1 q, kb_prev t h1]))
    (fun k => (blk2_1 m c t k q).trans (by rw [kb_odd t h1]))
    (fun k => (blk3_1 m c (prevPt t.val t.isLt) k q).trans (by rw [col_prev t h1 q, kb_prev t h1]))
    (fun k => (blk3_1 m c t k q).trans (by rw [kb_odd t h1]))
    (fun k => (blk2_2 m c (prevPt t.val t.isLt) k q).trans (by rw [col_prev t h1 q, kb_prev t h1]))
    (fun k => (blk2_2 m c t k q).trans (by rw [kb_odd t h1]))
    (fun k => (blk3_2 m c (prevPt t.val t.isLt) k q).trans (by rw [col_prev t h1 q, kb_prev t h1]))
    (fun k => (blk3_2 m c t k q).trans (by rw [kb_odd t h1]))
    (fun k => (blk2_3 m c (prevPt t.val t.isLt) k q).trans (by rw [col_prev t h1 q, kb_prev t h1]))
    (fun k => (blk2_3 m c t k q).trans (by rw [kb_odd t h1]))
    (fun k => (blk3_3 m c (prevPt t.val t.isLt) k q).trans (by rw [col_prev t h1 q, kb_prev t h1]))
    (fun k => (blk3_3 m c t k q).trans (by rw [kb_odd t h1]))
    ((ld_row _ (0 : Fin 4) _ q).trans (blk4_0 m c t q))
    ((ld_row _ (1 : Fin 4) _ q).trans (blk4_1 m c t q))
    ((ld_row _ (2 : Fin 4) _ q).trans (blk4_2 m c t q))
    ((ld_row _ (3 : Fin 4) _ q).trans (blk4_3 m c t q))
    (blk5 m c t p q)

end Cert.KernelIdeal.Pt

end
-- ==== Proof.RefConcat.lean ====
/-
  The three concatenations of the cell, read at an index.

  `[X, h]` joined along the columns reads `X` at a column of the low half and `h` at a column of the high
  half; the four weight matrices stacked along the rows read, at row `g·2048 + n`, the `g`-th matrix at row
  `n`; the four biases laid end to end read, at position `g·2048 + n`, the `g`-th bias at `n`.
-/
import proofs.«153991_j82282983457013_2_alg».proof.Proof.LstmSpec
import Idealize.ShloMosaic.Lib.Pipeline.Value

noncomputable section

namespace Cert.RefConcat

open Idealize.ShloMosaic Idealize.ShloMosaic.ValueIdx Cert.LstmSpec

variable {α : Type}

/-- Row (or position) `off + n` of the stacked weights (or of the joined biases). -/
def gateRow (off : Nat) (hoff : off + 2048 ≤ 8192) (n : Fin 2048) : Fin 8192 := ⟨off + n.val, by omega⟩

/-- `[X, h]` at a column of the low half is `X`. -/
theorem cat_act_lo (x y : (⟨2, ![4096, 2048]⟩ : Shape).Idx → α)
    (h : Shape.Concatenates [(⟨2, ![4096, 2048]⟩ : Shape), ⟨2, ![4096, 2048]⟩] ⟨2, ![4096, 4096]⟩ 1)
    (r : Fin 4096) (k : Fin 2048) :
    concatenate (⟨2, ![4096, 4096]⟩ : Shape) 1 [⟨⟨2, ![4096, 2048]⟩, x⟩, ⟨⟨2, ![4096, 2048]⟩, y⟩] h (ix2 r (lo k))
      = x (ix2 r k) :=
  concatenate_pair_apply_left 1 x y h _ rfl _ (fun b => by
    match b with
    | ⟨0, _⟩ => rfl
    | ⟨1, _⟩ => rfl)

/-- `[X, h]` at a column of the high half is `h`. -/
theorem cat_act_hi (x y : (⟨2, ![4096, 2048]⟩ : Shape).Idx → α)
    (h : Shape.Concatenates [(⟨2, ![4096, 2048]⟩ : Shape), ⟨2, ![4096, 2048]⟩] ⟨2, ![4096, 4096]⟩ 1)
    (r : Fin 4096) (k : Fin 2048) :
    concatenate (⟨2, ![4096, 4096]⟩ : Shape) 1 [⟨⟨2, ![4096, 2048]⟩, x⟩, ⟨⟨2, ![4096, 2048]⟩, y⟩] h (ix2 r (hi k))
      = y (ix2 r k) :=
  concatenate_pair_apply_right 1 x y h _ rfl rfl _
    (fun b hb => by
      match b with
      | ⟨0, _⟩ => rfl
      | ⟨1, _⟩ => exact absurd rfl hb)
    (by show k.val + 2048 = 2048 + k.val; omega)

section Weights
variable (w0 w1 w2 w3 : (⟨2, ![2048, 4096]⟩ : Shape).Idx → α)
  (h : Shape.Concatenates [(⟨2, ![2048, 4096]⟩ : Shape), ⟨2, ![2048, 4096]⟩, ⟨2, ![2048, 4096]⟩, ⟨2, ![2048, 4096]⟩]
    ⟨2, ![8192, 4096]⟩ 0)
  (n : Fin 2048) (k : Fin 4096)

/-- The stacked weights at a row of the first band. -/
theorem cat_w0 :
    concatenate (⟨2, ![8192, 4096]⟩ : Shape) 0
        [⟨⟨2, ![2048, 4096]⟩, w0⟩, ⟨⟨2, ![2048, 4096]⟩, w1⟩, ⟨⟨2, ![2048, 4096]⟩, w2⟩, ⟨⟨2, ![2048, 4096]⟩, w3⟩] h
        (ix2 (gateRow 0 (by omega) n) k) = w0 (ix2 n k) :=
  concatenate_apply_piece (t := ⟨2, ![8192, 4096]⟩) 0 [⟨⟨2, ![2048, 4096]⟩, w0⟩, ⟨⟨2, ![2048, 4096]⟩, w1⟩, ⟨⟨2, ![2048, 4096]⟩, w2⟩, ⟨⟨2, ![2048, 4096]⟩, w3⟩] h
    (ix2 (gateRow 0 (by omega) n) k) 0 (by simp) ⟨2, ![2048, 4096]⟩ w0 rfl rfl 0 rfl (ix2 n k)
    (fun b hb => by
      match b with
      | ⟨0, _⟩ => exact absurd rfl hb
      | ⟨1, _⟩ => rfl)
    rfl

/-- The stacked weights at a row of the second band. -/
theorem cat_w1 :
    concatenate (⟨2, ![8192, 4096]⟩ : Shape) 0
        [⟨⟨2, ![2048, 4096]⟩, w0⟩, ⟨⟨2, ![2048, 4096]⟩, w1⟩, ⟨⟨2, ![2048, 4096]⟩, w2⟩, ⟨⟨2, ![2048, 4096]⟩, w3⟩] h
        (ix2 (gateRow 2048 (by omega) n) k) = w1 (ix2 n k) :=
  concatenate_apply_piece (t := ⟨2, ![8192, 4096]⟩) 0 [⟨⟨2, ![2048, 4096]⟩, w0⟩, ⟨⟨2, ![2048, 4096]⟩, w1⟩, ⟨⟨2, ![2048, 4096]⟩, w2⟩, ⟨⟨2, ![2048, 4096]⟩, w3⟩] h
    (ix2 (gateRow 2048 (by omega) n) k) 1 (by simp) ⟨2, ![2048, 4096]⟩ w1 rfl rfl 2048 rfl (ix2 n k)
    (fun b hb => by
      match b with
      | ⟨0, _⟩ => exact absurd rfl hb
      | ⟨1, _⟩ => rfl)
    rfl

/-- The stacked weights at a row of the third band. -/
theorem cat_w2 :
    concatenate (⟨2, ![8192, 4096]⟩ : Shape) 0
        [⟨⟨2, ![2048, 4096]⟩, w0⟩, ⟨⟨2, ![2048, 4096]⟩, w1⟩, ⟨⟨2, ![2048, 4096]⟩, w2⟩, ⟨⟨2, ![2048, 4096]⟩, w3⟩] h
        (ix2 (gateRow 4096 (by omega) n) k) = w2 (ix2 n k) :=
  concatenate_apply_piece (t := ⟨2, ![8192, 4096]⟩) 0 [⟨⟨2, ![2048, 4096]⟩, w0⟩, ⟨⟨2, ![2048, 4096]⟩, w1⟩, ⟨⟨2, ![2048, 4096]⟩, w2⟩, ⟨⟨2, ![2048, 4096]⟩, w3⟩] h
    (ix2 (gateRow 4096 (by omega) n) k) 2 (by simp) ⟨2, ![2048, 4096]⟩ w2 rfl rfl 4096 rfl (ix2 n k)
    (fun b hb => by
      match b with
      | ⟨0, _⟩ => exact absurd rfl hb
      | ⟨1, _⟩ => rfl)
    rfl

/-- The stacked weights at a row of the fourth band. -/
theorem cat_w3 :
    concatenate (⟨2, ![8192, 4096]⟩ : Shape) 0
        [⟨⟨2, ![2048, 4096]⟩, w0⟩, ⟨⟨2, ![2048, 4096]⟩, w1⟩, ⟨⟨2, ![2048, 4096]⟩, w2⟩, ⟨⟨2, ![2048, 4096]⟩, w3⟩] h
        (ix2 (gateRow 6144 (by omega) n) k) = w3 (ix2 n k) :=
  concatenate_apply_piece (t := ⟨2, ![8192, 4096]⟩) 0 [⟨⟨2, ![2048, 4096]⟩, w0⟩, ⟨⟨2, ![2048, 4096]⟩, w1⟩, ⟨⟨2, ![2048, 4096]⟩, w2⟩, ⟨⟨2, ![2048, 4096]⟩, w3⟩] h
    (ix2 (gateRow 6144 (by omega) n) k) 3 (by simp) ⟨2, ![2048, 4096]⟩ w3 rfl rfl 6144 rfl (ix2 n k)
    (fun b hb => by
      match b with
      | ⟨0, _⟩ => exact absurd rfl hb
      | ⟨1, _⟩ => rfl)
    rfl

end Weights

section Biases
variable (b0 b1 b2 b3 : (⟨1, ![2048]⟩ : Shape).Idx → α)
  (h : Shape.Concatenates [(⟨1, ![2048]⟩ : Shape), ⟨1, ![2048]⟩, ⟨1, ![2048]⟩, ⟨1, ![2048]⟩] ⟨1, ![8192]⟩ 0)
  (n : Fin 2048)

/-- The joined biases at a position of the first band. -/
theorem cat_b0 :
    concatenate (⟨1, ![8192]⟩ : Shape) 0 [⟨⟨1, ![2048]⟩, b0⟩, ⟨⟨1, ![2048]⟩, b1⟩, ⟨⟨1, ![2048]⟩, b2⟩, ⟨⟨1, ![2048]⟩, b3⟩] h
        (ix1 (gateRow 0 (by omega) n)) = b0 (ix1 n) :=
  concatenate_apply_piece (t := ⟨1, ![8192]⟩) 0 [⟨⟨1, ![2048]⟩, b0⟩, ⟨⟨1, ![2048]⟩, b1⟩, ⟨⟨1, ![2048]⟩, b2⟩, ⟨⟨1, ![2048]⟩, b3⟩] h
    (ix1 (gateRow 0 (by omega) n)) 0 (by simp) ⟨1, ![2048]⟩ b0 rfl rfl 0 rfl (ix1 n)
    (fun b hb => by
      match b with
      | ⟨0, _⟩ => exact absurd rfl hb)
    rfl

/-- The joined biases at a position of the second band. -/
theorem cat_b1 :
    concatenate (⟨1, ![8192]⟩ : Shape) 0 [⟨⟨1, ![2048]⟩, b0⟩, ⟨⟨1, ![2048]⟩, b1⟩, ⟨⟨1, ![2048]⟩, b2⟩, ⟨⟨1, ![2048]⟩, b3⟩] h
        (ix1 (gateRow 2048 (by omega) n)) = b1 (ix1 n) :=
  concatenate_apply_piece (t := ⟨1, ![8192]⟩) 0 [⟨⟨1, ![2048]⟩, b0⟩, ⟨⟨1, ![2048]⟩, b1⟩, ⟨⟨1, ![2048]⟩, b2⟩, ⟨⟨1, ![2048]⟩, b3⟩] h
    (ix1 (gateRow 2048 (by omega) n)) 1 (by simp) ⟨1, ![2048]⟩ b1 rfl rfl 2048 rfl (ix1 n)
    (fun b hb => by
      match b with
      | ⟨0, _⟩ => exact absurd rfl hb)
    rfl

/-- The joined biases at a position of the third band. -/
theorem cat_b2 :
    concatenate (⟨1, ![8192]⟩ : Shape) 0 [⟨⟨1, ![2048]⟩, b0⟩, ⟨⟨1, ![2048]⟩, b1⟩, ⟨⟨1, ![2048]⟩, b2⟩, ⟨⟨1, ![2048]⟩, b3⟩] h
        (ix1 (gateRow 4096 (by omega) n)) = b2 (ix1 n) :=
  concatenate_apply_piece (t := ⟨1, ![8192]⟩) 0 [⟨⟨1, ![2048]⟩, b0⟩, ⟨⟨1, ![2048]⟩, b1⟩, ⟨⟨1, ![2048]⟩, b2⟩, ⟨⟨1, ![2048]⟩, b3⟩] h
    (ix1 (gateRow 4096 (by omega) n)) 2 (by simp) ⟨1, ![2048]⟩ b2 rfl rfl 4096 rfl (ix1 n)
    (fun b hb => by
      match b with
      | ⟨0, _⟩ => exact absurd rfl hb)
    rfl

/-- The joined biases at a position of the fourth band. -/
theorem cat_b3 :
    concatenate (⟨1, ![8192]⟩ : Shape) 0 [⟨⟨1, ![2048]⟩, b0⟩, ⟨⟨1, ![2048]⟩, b1⟩, ⟨⟨1, ![2048]⟩, b2⟩, ⟨⟨1, ![2048]⟩, b3⟩] h
        (ix1 (gateRow 6144 (by omega) n)) = b3 (ix1 n) :=
  concatenate_apply_piece (t := ⟨1, ![8192]⟩) 0 [⟨⟨1, ![2048]⟩, b0⟩, ⟨⟨1, ![2048]⟩, b1⟩, ⟨⟨1, ![2048]⟩, b2⟩, ⟨⟨1, ![2048]⟩, b3⟩] h
    (ix1 (gateRow 6144 (by omega) n)) 3 (by simp) ⟨1, ![2048]⟩ b3 rfl rfl 6144 rfl (ix1 n)
    (fun b hb => by
      match b with
      | ⟨0, _⟩ => exact absurd rfl hb)
    rfl

end Biases

end Cert.RefConcat

end
-- ==== Proof.RefValue.lean ====
/-
  The reference program's two results, index by index, are the LSTM cell of `LstmSpec`.

  The reference joins `[X, h]` along the columns, stacks the four weight matrices along the rows, contracts the two,
  adds the joined biases and cuts the result into four bands of 2048 columns, one per gate. At column `off + n` of
  band `off` the contraction over the 4096 joined columns splits into the `X` half and the `h` half, and the row
  `off + n` of the stacked weights is row `n` of that band's matrix: the band is the gate's pre-activation. The
  sigmoid the host spells `1 / (1 + exp (-x))` is the logistic function by definition.
-/
import proofs.«153991_j82282983457013_2_alg».proof.Defs
import proofs.«153991_j82282983457013_2_alg».proof.Proof.Gen.ReferenceIdeal.Read
import proofs.«153991_j82282983457013_2_alg».proof.Proof.LstmSpec
import proofs.«153991_j82282983457013_2_alg».proof.Proof.LstmAlgebra
import proofs.«153991_j82282983457013_2_alg».proof.Proof.RefConcat
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx
open Cert.LstmSpec Cert.RefConcat
open scoped BigOperators

/-! ## The stacked weights and the joined biases, band by band -/

/-- Row `0 + n` of the stacked weights is row `n` of the forget gate's matrix. -/
theorem w_f (x3 x5 x7 x9 : FVec Ideal S2048x4096 .f32) (n : Fin 2048) (k : Fin 4096) :
    val_main_v1 (F := Ideal) x3 x5 x7 x9 (ix2 (gateRow 0 (by omega) n) k) = x3 (ix2 n k) :=
  cat_w0 x3 x7 x9 x5 _ n k

/-- Position `0 + n` of the joined biases is position `n` of the forget gate's bias. -/
theorem b_f (x4 x6 x8 x10 : FVec Ideal S2048 .f32) (n : Fin 2048) :
    val_main_v2 (F := Ideal) x4 x6 x8 x10 (ix1 (gateRow 0 (by omega) n)) = x4 (ix1 n) :=
  cat_b0 x4 x8 x10 x6 _ n

/-- Row `2048 + n` of the stacked weights is row `n` of the input gate's matrix. -/
theorem w_g (x3 x5 x7 x9 : FVec Ideal S2048x4096 .f32) (n : Fin 2048) (k : Fin 4096) :
    val_main_v1 (F := Ideal) x3 x5 x7 x9 (ix2 (gateRow 2048 (by omega) n) k) = x7 (ix2 n k) :=
  cat_w1 x3 x7 x9 x5 _ n k

/-- Position `2048 + n` of the joined biases is position `n` of the input gate's bias. -/
theorem b_g (x4 x6 x8 x10 : FVec Ideal S2048 .f32) (n : Fin 2048) :
    val_main_v2 (F := Ideal) x4 x6 x8 x10 (ix1 (gateRow 2048 (by omega) n)) = x8 (ix1 n) :=
  cat_b1 x4 x8 x10 x6 _ n

/-- Row `4096 + n` of the stacked weights is row `n` of the output gate's matrix. -/
theorem w_o (x3 x5 x7 x9 : FVec Ideal S2048x4096 .f32) (n : Fin 2048) (k : Fin 4096) :
    val_main_v1 (F := Ideal) x3 x5 x7 x9 (ix2 (gateRow 4096 (by omega) n) k) = x9 (ix2 n k) :=
  cat_w2 x3 x7 x9 x5 _ n k

/-- Position `4096 + n` of the joined biases is position `n` of the output gate's bias. -/
theorem b_o (x4 x6 x8 x10 : FVec Ideal S2048 .f32) (n : Fin 2048) :
    val_main_v2 (F := Ideal) x4 x6 x8 x10 (ix1 (gateRow 4096 (by omega) n)) = x10 (ix1 n) :=
  cat_b2 x4 x8 x10 x6 _ n

/-- Row `6144 + n` of the stacked weights is row `n` of the candidate gate's matrix. -/
theorem w_i (x3 x5 x7 x9 : FVec Ideal S2048x4096 .f32) (n : Fin 2048) (k : Fin 4096) :
    val_main_v1 (F := Ideal) x3 x5 x7 x9 (ix2 (gateRow 6144 (by omega) n) k) = x5 (ix2 n k) :=
  cat_w3 x3 x7 x9 x5 _ n k

/-- Position `6144 + n` of the joined biases is position `n` of the candidate gate's bias. -/
theorem b_i (x4 x6 x8 x10 : FVec Ideal S2048 .f32) (n : Fin 2048) :
    val_main_v2 (F := Ideal) x4 x6 x8 x10 (ix1 (gateRow 6144 (by omega) n)) = x6 (ix1 n) :=
  cat_b3 x4 x8 x10 x6 _ n

/-! ## The contraction plus the bias at a column of a band -/

/-- At row `r` and a column `c` whose stacked-weight row is row `n` of `W` and whose joined-bias entry is `b n`, the
    contraction of `[X, h]` with the stacked weights plus the bias is the pre-activation of `(W, b)` at `(r, n)`. -/
theorem v7_at (x0 x1 : FVec Ideal S4096x2048 .f32) (x3 : FVec Ideal S2048x4096 .f32) (x4 : FVec Ideal S2048 .f32) (x5 : FVec Ideal S2048x4096 .f32) (x6 : FVec Ideal S2048 .f32) (x7 : FVec Ideal S2048x4096 .f32) (x8 : FVec Ideal S2048 .f32) (x9 : FVec Ideal S2048x4096 .f32) (x10 : FVec Ideal S2048 .f32) (Wm : Wt) (bv : Bias) (r : Fin 4096) (c : Fin 8192) (n : Fin 2048)
    (hW : ∀ k : Fin 4096, val_main_v1 (F := Ideal) x3 x5 x7 x9 (ix2 c k) = Wm (ix2 n k))
    (hb : val_main_v2 (F := Ideal) x4 x6 x8 x10 (ix1 c) = bv (ix1 n)) :
    val_main_v7 (F := Ideal) x0 x1 x3 x4 x5 x6 x7 x8 x9 x10 (ix2 r c) = pre x0 x1 Wm bv r n := by
  have e6 : idx_main_v5 (idx_main_v6 (ix2 r c)) = ix1 c := funext fun a => Fin.ext (by
    match a with
    | ⟨0, _⟩ => rfl)
  have el : ∀ k : Fin 4096, lidx_main_v4 (ix2 r c) k = ix2 r k := fun k => funext fun a => Fin.ext (by
    match a with
    | ⟨0, _⟩ => rfl
    | ⟨1, _⟩ => rfl)
  have er : ∀ k : Fin 4096, idx_main_v3 (ridx_main_v4 (ix2 r c) k) = ix2 c k := fun k => funext fun a => Fin.ext (by
    match a with
    | ⟨0, _⟩ => rfl
    | ⟨1, _⟩ => rfl)
  rw [val_main_v7_apply, val_main_v4_apply, val_main_v6_apply, val_main_v5_apply, e6, hb]
  simp only [val_main_v3_apply, el, er, hW, Ideal.addf_def]
  rw [sum_concat]
  unfold val_main_v0 pre
  simp only [cat_act_lo, cat_act_hi]

/-! ## The four bands are the four pre-activations -/

/-- Band `0` is the forget gate's pre-activation. -/
theorem gate_f (x0 x1 : FVec Ideal S4096x2048 .f32) (x3 : FVec Ideal S2048x4096 .f32) (x4 : FVec Ideal S2048 .f32) (x5 : FVec Ideal S2048x4096 .f32) (x6 : FVec Ideal S2048 .f32) (x7 : FVec Ideal S2048x4096 .f32) (x8 : FVec Ideal S2048 .f32) (x9 : FVec Ideal S2048x4096 .f32) (x10 : FVec Ideal S2048 .f32) (r : Fin 4096) (n : Fin 2048) :
    val_main_v8 (F := Ideal) x0 x1 x3 x4 x5 x6 x7 x8 x9 x10 (ix2 r n) = pre x0 x1 x3 x4 r n := by
  have e : idx_main_v8 (ix2 r n) = ix2 r (gateRow 0 (by omega) n) := funext fun a => Fin.ext (by
    match a with
    | ⟨0, _⟩ => rfl
    | ⟨1, _⟩ => exact (Nat.zero_add _).symm)
  rw [val_main_v8_apply, e]
  exact v7_at x0 x1 x3 x4 x5 x6 x7 x8 x9 x10 x3 x4 r _ n (fun k => w_f x3 x5 x7 x9 n k) (b_f x4 x6 x8 x10 n)

/-- Band `2048` is the input gate's pre-activation. -/
theorem gate_g (x0 x1 : FVec Ideal S4096x2048 .f32) (x3 : FVec Ideal S2048x4096 .f32) (x4 : FVec Ideal S2048 .f32) (x5 : FVec Ideal S2048x4096 .f32) (x6 : FVec Ideal S2048 .f32) (x7 : FVec Ideal S2048x4096 .f32) (x8 : FVec Ideal S2048 .f32) (x9 : FVec Ideal S2048x4096 .f32) (x10 : FVec Ideal S2048 .f32) (r : Fin 4096) (n : Fin 2048) :
    val_main_v9 (F := Ideal) x0 x1 x3 x4 x5 x6 x7 x8 x9 x10 (ix2 r n) = pre x0 x1 x7 x8 r n := by
  have e : idx_main_v9 (ix2 r n) = ix2 r (gateRow 2048 (by omega) n) := funext fun a => Fin.ext (by
    match a with
    | ⟨0, _⟩ => rfl
    | ⟨1, _⟩ => rfl)
  rw [val_main_v9_apply, e]
  exact v7_at x0 x1 x3 x4 x5 x6 x7 x8 x9 x10 x7 x8 r _ n (fun k => w_g x3 x5 x7 x9 n k) (b_g x4 x6 x8 x10 n)

/-- Band `4096` is the output gate's pre-activation. -/
theorem gate_o (x0 x1 : FVec Ideal S4096x2048 .f32) (x3 : FVec Ideal S2048x4096 .f32) (x4 : FVec Ideal S2048 .f32) (x5 : FVec Ideal S2048x4096 .f32) (x6 : FVec Ideal S2048 .f32) (x7 : FVec Ideal S2048x4096 .f32) (x8 : FVec Ideal S2048 .f32) (x9 : FVec Ideal S2048x4096 .f32) (x10 : FVec Ideal S2048 .f32) (r : Fin 4096) (n : Fin 2048) :
    val_main_v10 (F := Ideal) x0 x1 x3 x4 x5 x6 x7 x8 x9 x10 (ix2 r n) = pre x0 x1 x9 x10 r n := by
  have e : idx_main_v10 (ix2 r n) = ix2 r (gateRow 4096 (by omega) n) := funext fun a => Fin.ext (by
    match a with
    | ⟨0, _⟩ => rfl
    | ⟨1, _⟩ => rfl)
  rw [val_main_v10_apply, e]
  exact v7_at x0 x1 x3 x4 x5 x6 x7 x8 x9 x10 x9 x10 r _ n (fun k => w_o x3 x5 x7 x9 n k) (b_o x4 x6 x8 x10 n)

/-- Band `6144` is the candidate gate's pre-activation. -/
theorem gate_i (x0 x1 : FVec Ideal S4096x2048 .f32) (x3 : FVec Ideal S2048x4096 .f32) (x4 : FVec Ideal S2048 .f32) (x5 : FVec Ideal S2048x4096 .f32) (x6 : FVec Ideal S2048 .f32) (x7 : FVec Ideal S2048x4096 .f32) (x8 : FVec Ideal S2048 .f32) (x9 : FVec Ideal S2048x4096 .f32) (x10 : FVec Ideal S2048 .f32) (r : Fin 4096) (n : Fin 2048) :
    val_main_v11 (F := Ideal) x0 x1 x3 x4 x5 x6 x7 x8 x9 x10 (ix2 r n) = pre x0 x1 x5 x6 r n := by
  have e : idx_main_v11 (ix2 r n) = ix2 r (gateRow 6144 (by omega) n) := funext fun a => Fin.ext (by
    match a with
    | ⟨0, _⟩ => rfl
    | ⟨1, _⟩ => rfl)
  rw [val_main_v11_apply, e]
  exact v7_at x0 x1 x3 x4 x5 x6 x7 x8 x9 x10 x5 x6 r _ n (fun k => w_i x3 x5 x7 x9 n k) (b_i x4 x6 x8 x10 n)

/-! ## The two results -/

/-- The reference's new cell state at `(r, n)`. -/
theorem c_at (x0 x1 x2 : FVec Ideal S4096x2048 .f32) (x3 : FVec Ideal S2048x4096 .f32) (x4 : FVec Ideal S2048 .f32) (x5 : FVec Ideal S2048x4096 .f32) (x6 : FVec Ideal S2048 .f32) (x7 : FVec Ideal S2048x4096 .f32) (x8 : FVec Ideal S2048 .f32) (x9 : FVec Ideal S2048x4096 .f32) (x10 : FVec Ideal S2048 .f32) (r : Fin 4096) (n : Fin 2048) :
    val_main_v33 (F := Ideal) x0 x1 x2 x3 x4 x5 x6 x7 x8 x9 x10 (ix2 r n) = cNewAt x0 x1 x2 x3 x4 x7 x8 x5 x6 r n := by
  simp only [val_main_v33_apply, val_main_v32_apply, val_main_v31_apply, val_main_v30_apply, val_main_v23_apply,
    val_main_v22_apply, val_main_cst_2_apply, val_main_v21_apply, val_main_v20_apply, val_main_cst_1_apply,
    val_main_v19_apply, val_main_v18_apply, val_main_v17_apply, val_main_v16_apply, val_main_cst_0_apply,
    val_main_v15_apply, val_main_v14_apply, val_main_cst_apply, val_main_v13_apply, val_main_v12_apply,
    gate_f, gate_g, gate_i, Ideal.addf_def, Ideal.mulf_def, Ideal.hostDivf_def, Ideal.hostUnary_exp_def,
    Ideal.hostUnary_tanh_def, Ideal.hostNegf_def, Ideal.negf_def, Ideal.ofBits_def, Ideal.ofBits_one_f32]
  rfl

/-- The reference's new hidden state at `(r, n)`. -/
theorem h_at (x0 x1 x2 : FVec Ideal S4096x2048 .f32) (x3 : FVec Ideal S2048x4096 .f32) (x4 : FVec Ideal S2048 .f32) (x5 : FVec Ideal S2048x4096 .f32) (x6 : FVec Ideal S2048 .f32) (x7 : FVec Ideal S2048x4096 .f32) (x8 : FVec Ideal S2048 .f32) (x9 : FVec Ideal S2048x4096 .f32) (x10 : FVec Ideal S2048 .f32) (r : Fin 4096) (n : Fin 2048) :
    val_main_v35 (F := Ideal) x0 x1 x2 x3 x4 x5 x6 x7 x8 x9 x10 (ix2 r n) = hNewAt x0 x1 x2 x3 x4 x7 x8 x9 x10 x5 x6 r n := by
  simp only [val_main_v35_apply, val_main_v34_apply, c_at, val_main_v29_apply, val_main_v28_apply, val_main_cst_4_apply,
    val_main_v27_apply, val_main_v26_apply, val_main_cst_3_apply, val_main_v25_apply, val_main_v24_apply,
    gate_o, Ideal.addf_def, Ideal.mulf_def, Ideal.hostDivf_def, Ideal.hostUnary_exp_def,
    Ideal.hostUnary_tanh_def, Ideal.hostNegf_def, Ideal.negf_def, Ideal.ofBits_def, Ideal.ofBits_one_f32]
  rfl

/-- The reference's second result, the new cell state, is the specification's. -/
theorem ref_c (a0 a1 a2 : FVec Ideal S4096x2048 .f32) (a3 : FVec Ideal S2048x4096 .f32) (a4 : FVec Ideal S2048 .f32) (a5 : FVec Ideal S2048x4096 .f32) (a6 : FVec Ideal S2048 .f32) (a7 : FVec Ideal S2048x4096 .f32) (a8 : FVec Ideal S2048 .f32) (a9 : FVec Ideal S2048x4096 .f32) (a10 : FVec Ideal S2048 .f32) :
    val_main_v33 (F := Ideal) a0 a1 a2 a3 a4 a5 a6 a7 a8 a9 a10 = cNew a0 a1 a2 a3 a4 a7 a8 a5 a6 := by
  funext i
  obtain ⟨r, n, rfl⟩ : ∃ (r : Fin 4096) (n : Fin 2048), i = ix2 r n := ⟨i 0, i 1, eq_ix2 i⟩
  exact c_at a0 a1 a2 a3 a4 a5 a6 a7 a8 a9 a10 r n

/-- The reference's first result, the new hidden state, is the specification's. -/
theorem ref_h (a0 a1 a2 : FVec Ideal S4096x2048 .f32) (a3 : FVec Ideal S2048x4096 .f32) (a4 : FVec Ideal S2048 .f32) (a5 : FVec Ideal S2048x4096 .f32) (a6 : FVec Ideal S2048 .f32) (a7 : FVec Ideal S2048x4096 .f32) (a8 : FVec Ideal S2048 .f32) (a9 : FVec Ideal S2048x4096 .f32) (a10 : FVec Ideal S2048 .f32) :
    val_main_v35 (F := Ideal) a0 a1 a2 a3 a4 a5 a6 a7 a8 a9 a10 = hNew a0 a1 a2 a3 a4 a7 a8 a9 a10 a5 a6 := by
  funext i
  obtain ⟨r, n, rfl⟩ : ∃ (r : Fin 4096) (n : Fin 2048), i = ix2 r n := ⟨i 0, i 1, eq_ix2 i⟩
  exact h_at a0 a1 a2 a3 a4 a5 a6 a7 a8 a9 a10 r n

end Cert.ReferenceIdeal.RefValue

end
-- ==== Proof.RefClaims.lean ====
/-
  The reference program's run, with its two results named by the specification: every weakly fair execution ends
  with the first result the cell's new hidden state and the second its new cell state, as functions of the launch
  contents of the arguments, and the arguments unchanged. Dropping the results leaves the frame.
-/
import proofs.«153991_j82282983457013_2_alg».proof.Defs
import proofs.«153991_j82282983457013_2_alg».proof.Proof.Gen.ReferenceIdeal.Run
import proofs.«153991_j82282983457013_2_alg».proof.Proof.Gen.ReferenceIdeal.Read
import proofs.«153991_j82282983457013_2_alg».proof.Proof.Gen.Pre_finite_inputs
import proofs.«153991_j82282983457013_2_alg».proof.Proof.RefValue

noncomputable section

namespace Cert.ReferenceIdeal.RefValue

open Cert.ReferenceIdeal Cert.ReferenceIdeal.Gen Cert.ReferenceIdeal.Read Idealize.ShloMosaic Idealize.ShloMosaic.TcCoe Idealize.SL.Sem
open Cert.LstmSpec

/-- The reference runs to the end, faults nowhere and leaves its arguments unchanged. -/
theorem frame_ri : Cert.frame_ReferenceIdeal := fun m ρ _ =>
  (θ_run Cert.ReferenceIdeal.defs _ _).mono (fun _ h c => (h c).2.2) (Cert.ReferenceIdeal.Value.run (F := Ideal) m ρ)

/-- The reference's run: the new hidden state and the new cell state of the arguments' launch contents. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v35) = hNew (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg5)) (m ((c.tc : Thread nD τ).loc main_arg6))
      ∧ r.2.mem ((c.tc : Thread nD τ).loc main_v33) = cNew (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
      ⟨(h c).1.trans ((val_main_v35_eq m c).trans (ref_h _ _ _ _ _ _ _ _ _ _ _)),
        (h c).2.1.trans (ref_c _ _ _ _ _ _ _ _ _ _ _),
        (h c).2.2⟩)
    (Cert.ReferenceIdeal.Value.run (F := Ideal) m ρ)

end Cert.ReferenceIdeal.RefValue

end
-- ==== Proof.KernelIdealFinal.lean ====
/-
  From the blocks to the arrays, and the claim.

  Each last K-block leaves, in the two result windows' staging buffers, the cell's new hidden state and new cell
  state on its batch tile and feature tile (the two point-wise facts this module takes as hypotheses). The blocks
  written back at the last K-blocks tile the two result arrays, so the arrays end holding the specification's
  `hNew` and `cNew` of the arguments; the reference ends at the same two functions of arguments that agree.
-/
import proofs.«153991_j82282983457013_2_alg».proof.Defs
import proofs.«153991_j82282983457013_2_alg».proof.Proof.KernelIdealFrame
import proofs.«153991_j82282983457013_2_alg».proof.Proof.KernelIdealBlocks
import proofs.«153991_j82282983457013_2_alg».proof.Proof.LstmSpec
import proofs.«153991_j82282983457013_2_alg».proof.Proof.RefClaims
import Idealize.ShloMosaic.Lib.Pipeline.Value

noncomputable section

namespace Cert.KernelIdeal.Fin

open Cert.KernelIdeal Cert.KernelIdeal.Gen Cert.KernelIdeal.Fr Cert.KernelIdeal.Blk
open Idealize.ShloMosaic Idealize.ShloMosaic.TcCoe Idealize.ShloMosaic.ValueIdx Idealize.SL.Sem
open Idealize.ShloMosaic.Pipeline (Dat)

/-- The specification's new hidden state of the arguments' launch contents. -/
abbrev Hspec (m : (ℓ : Loc nD τ sig) → Buf (Elt Ideal) ℓ) (c : Dev nD) : Cert.LstmSpec.Act :=
  Cert.LstmSpec.hNew (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) (m ((c : Thread nD τ).loc main_arg5)) (m ((c : Thread nD τ).loc main_arg6))

/-- The specification's new cell state of the arguments' launch contents. -/
abbrev Cspec (m : (ℓ : Loc nD τ sig) → Buf (Elt Ideal) ℓ) (c : Dev nD) : Cert.LstmSpec.Act :=
  Cert.LstmSpec.cNew (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg5)) (m ((c : Thread nD τ).loc main_arg6))

/-- After a last K-block, result window 6's buffer holds the new hidden state on the point's tile. -/
def PointH : Prop :=
  ∀ (m : (ℓ : Loc nD τ sig) → Buf (Elt Ideal) ℓ) (c : Dev nD) (t : Fin cfg0.N) (h1 : t.val % 2 = 1) (p : Fin 1024) (q : Fin 256),
    (outsAt0 (F := Ideal) m c t.val t.isLt).1 (ix2 p q)
      = Cert.LstmSpec.hNewAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) (m ((c : Thread nD τ).loc main_arg5)) (m ((c : Thread nD τ).loc main_arg6)) (rowOf t p) (colOf t q)

/-- After a last K-block, result window 7's buffer holds the new cell state on the point's tile. -/
def PointC : Prop :=
  ∀ (m : (ℓ : Loc nD τ sig) → Buf (Elt Ideal) ℓ) (c : Dev nD) (t : Fin cfg0.N) (h1 : t.val % 2 = 1) (p : Fin 1024) (q : Fin 256),
    (outsAt0 (F := Ideal) m c t.val t.isLt).2.1 (ix2 p q)
      = Cert.LstmSpec.cNewAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg5)) (m ((c : Thread nD τ).loc main_arg6)) (rowOf t p) (colOf t q)

/-- What a last K-block writes back from result window 6 is its block of the specification's array. -/
theorem flushed6 (hH : PointH) (m : (ℓ : Loc nD τ sig) → Buf (Elt Ideal) ℓ) (c : Dev nD) (t : Fin cfg0.N)
    (hf : (cfg0.win 6).flush t = true) :
    (dats m 0 c).flushed 6 t = ((cfg0.win 6).blk t).view.read (Elt Ideal) (Hspec m c) := by
  have h1 : t.val % 2 = 1 := (flush0_6 t).mp hf
  show (cfg0.win 6).cut (grid0.coords t) ((dats m 0 c).after 6 t) = _
  rw [after0_6]
  have key : ∀ y : S1024x256.Idx, (cfg0.win 6).cut (grid0.coords t) (outsAt0 (F := Ideal) m c t.val t.isLt).1 y
      = ((cfg0.win 6).blk t).view.read (Elt Ideal) (Hspec m c) y := by
    intro y
    obtain ⟨p, q, rfl⟩ : ∃ (p : Fin 1024) (q : Fin 256), y = ix2 p q := ⟨y 0, y 1, eq_ix2 y⟩
    rw [View.read_apply, emb6]
    refine Eq.trans ?_ (hH m c t h1 p q)
    show (outsAt0 (F := Ideal) m c t.val t.isLt).1 _ = (outsAt0 (F := Ideal) m c t.val t.isLt).1 _
    refine congrArg _ (funext fun a => Fin.ext ?_)
    match a with
    | ⟨0, _⟩ => rfl
    | ⟨1, _⟩ => rfl
  exact funext key

/-- Result window 6's array after the run is the specification's array: the blocks written back fill it. -/
theorem final6 (hH : PointH) (m : (ℓ : Loc nD τ sig) → Buf (Elt Ideal) ℓ) (c : Dev nD) :
    (dats m 0 c).arrAt 6 cfg0.N = Hspec m c :=
  (dats m 0 c).arrAt_eq_of_cover 6 (Hspec m c) (flushed6 hH m c) (fun i => cover6 i)

/-- What a last K-block writes back from result window 7 is its block of the specification's array. -/
theorem flushed7 (hC : PointC) (m : (ℓ : Loc nD τ sig) → Buf (Elt Ideal) ℓ) (c : Dev nD) (t : Fin cfg0.N)
    (hf : (cfg0.win 7).flush t = true) :
    (dats m 0 c).flushed 7 t = ((cfg0.win 7).blk t).view.read (Elt Ideal) (Cspec m c) := by
  have h1 : t.val % 2 = 1 := (flush0_7 t).mp hf
  show (cfg0.win 7).cut (grid0.coords t) ((dats m 0 c).after 7 t) = _
  rw [after0_7]
  have key : ∀ y : S1024x256.Idx, (cfg0.win 7).cut (grid0.coords t) (outsAt0 (F := Ideal) m c t.val t.isLt).2.1 y
      = ((cfg0.win 7).blk t).view.read (Elt Ideal) (Cspec m c) y := by
    intro y
    obtain ⟨p, q, rfl⟩ : ∃ (p : Fin 1024) (q : Fin 256), y = ix2 p q := ⟨y 0, y 1, eq_ix2 y⟩
    rw [View.read_apply, emb7]
    refine Eq.trans ?_ (hC m c t h1 p q)
    show (outsAt0 (F := Ideal) m c t.val t.isLt).2.1 _ = (outsAt0 (F := Ideal) m c t.val t.isLt).2.1 _
    refine congrArg _ (funext fun a => Fin.ext ?_)
    match a with
    | ⟨0, _⟩ => rfl
    | ⟨1, _⟩ => rfl
  exact funext key

/-- Result window 7's array after the run is the specification's array: the blocks written back fill it. -/
theorem final7 (hC : PointC) (m : (ℓ : Loc nD τ sig) → Buf (Elt Ideal) ℓ) (c : Dev nD) :
    (dats m 0 c).arrAt 7 cfg0.N = Cspec m c :=
  (dats m 0 c).arrAt_eq_of_cover 7 (Cspec m c) (flushed7 hC m c) (fun i => cover7 i)

/-- The kernel's run: the two result arrays at the specification's functions of the arguments, the arguments unchanged. -/
theorem kernel_run (hH : PointH) (hC : PointC) (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v13_0) = Hspec m c
      ∧ r.2.mem ((c.tc : Thread nD τ).loc main_v13_1) = Cspec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
      ⟨((h c).1 6).trans (final6 hH m c),
        ((h c).1 7).trans (final7 hC m c),
        ((h c).2 main_arg0 (Pipeline.mem_restRefs_of main_arg0 (by decide) (by decide))).trans (V_main_arg0 m c),
        ((h c).2 main_arg1 (Pipeline.mem_restRefs_of main_arg1 (by decide) (by decide))).trans (V_main_arg1 m c),
        ((h c).1 5).trans (((dats m 0 c).arrAt_in 5 rfl _).trans ((A_eq m c 5).trans (V_main_arg2 m c))),
        ((h c).2 main_arg3 (Pipeline.mem_restRefs_of main_arg3 (by decide) (by decide))).trans (V_main_arg3 m c),
        ((h c).2 main_arg4 (Pipeline.mem_restRefs_of main_arg4 (by decide) (by decide))).trans (V_main_arg4 m c),
        ((h c).2 main_arg5 (Pipeline.mem_restRefs_of main_arg5 (by decide) (by decide))).trans (V_main_arg5 m c),
        ((h c).2 main_arg6 (Pipeline.mem_restRefs_of main_arg6 (by decide) (by decide))).trans (V_main_arg6 m c),
        ((h c).2 main_arg7 (Pipeline.mem_restRefs_of main_arg7 (by decide) (by decide))).trans (V_main_arg7 m c),
        ((h c).2 main_arg8 (Pipeline.mem_restRefs_of main_arg8 (by decide) (by decide))).trans (V_main_arg8 m c),
        ((h c).2 main_arg9 (Pipeline.mem_restRefs_of main_arg9 (by decide) (by decide))).trans (V_main_arg9 m c),
        ((h c).2 main_arg10 (Pipeline.mem_restRefs_of main_arg10 (by decide) (by decide))).trans (V_main_arg10 m c)⟩)
    (run_main m ρ)

/-- The specification's new hidden state of equal arguments. -/
theorem hNew_congr {X X' H H' C C' : Cert.LstmSpec.Act} {Wf Wf' Wg Wg' Wo Wo' Wi Wi' : Cert.LstmSpec.Wt}
    {bf bf' bg bg' bo bo' bi bi' : Cert.LstmSpec.Bias}
    (e0 : X' = X) (e1 : H' = H) (e2 : C' = C) (e3 : Wf' = Wf) (e4 : bf' = bf) (e5 : Wg' = Wg) (e6 : bg' = bg)
    (e7 : Wo' = Wo) (e8 : bo' = bo) (e9 : Wi' = Wi) (e10 : bi' = bi) :
    Cert.LstmSpec.hNew X' H' C' Wf' bf' Wg' bg' Wo' bo' Wi' bi' = Cert.LstmSpec.hNew X H C Wf bf Wg bg Wo bo Wi bi := by
  subst e0 e1 e2 e3 e4 e5 e6 e7 e8 e9 e10; rfl

/-- The specification's new cell state of equal arguments. -/
theorem cNew_congr {X X' H H' C C' : Cert.LstmSpec.Act} {Wf Wf' Wg Wg' Wi Wi' : Cert.LstmSpec.Wt}
    {bf bf' bg bg' bi bi' : Cert.LstmSpec.Bias}
    (e0 : X' = X) (e1 : H' = H) (e2 : C' = C) (e3 : Wf' = Wf) (e4 : bf' = bf) (e5 : Wg' = Wg) (e6 : bg' = bg)
    (e9 : Wi' = Wi) (e10 : bi' = bi) :
    Cert.LstmSpec.cNew X' H' C' Wf' bf' Wg' bg' Wi' bi' = Cert.LstmSpec.cNew X H C Wf bf Wg bg Wi bi := by
  subst e0 e1 e2 e3 e4 e5 e6 e9 e10; rfl

/-- At the ideal instance the kernel and the reference, from memories agreeing on the arguments, end with equal
    results: both are the specification's cell of the arguments. -/
theorem algebraic (hH : PointH) (hC : PointC) : Cert.algebraic_KernelIdeal_ReferenceIdeal := by
  intro m ρ m' ρ' _ hagree
  refine ⟨fun c => Hspec m c, fun c => Cspec m c, kernel_run hH hC m ρ, ?_⟩
  refine (θ_run Cert.ReferenceIdeal.defs _ _).mono (fun _ h c => ?_) (Cert.ReferenceIdeal.RefValue.run_spec m' ρ')
  obtain ⟨a0, a1, a2, a3, a4, a5, a6, a7, a8, a9, a10⟩ := hagree c
  exact ⟨(h c).1.trans (hNew_congr a0 a1 a2 a3 a4 a7 a8 a9 a10 a5 a6),
    (h c).2.1.trans (cNew_congr a0 a1 a2 a3 a4 a7 a8 a5 a6), (h c).2.2⟩

end Cert.KernelIdeal.Fin

end
-- ==== Proof.lean ====
/-
  The fused LSTM cell kernel against its jnp reference, over the extended reals.

  The kernel tiles the batch (4 tiles of 1024 rows) and the features (8 tiles of 256) and walks the 2048-long
  contraction of `X` and of `h` in two K-blocks, adding each block's products into four gate accumulators that
  live across the two grid points of a pair; at the last K-block it adds the biases, applies the logistic and
  tanh gates and stores the new hidden and cell states. The reference concatenates `X` with `h` and the four
  weight matrices, takes ONE product of contraction length 4096, adds the concatenated bias, splits the result in
  four and applies the same gates (its sigmoid spelled `1 / (1 + exp(-z))`, which is the logistic function on the
  extended reals, corners included).

  The two agree because a sum over the 4096 concatenated features is the sum over `X`'s 2048 plus the sum over
  `h`'s 2048, each of which is the sum of its two K-blocks, and addition on the extended reals is commutative
  and associative: no distributivity, no cancellation, hence no use of the inputs' finiteness.

  The modules: LstmSpec (the cell as one function of the arguments), LstmAlgebra (the sums regrouped),
  RefConcat / RefValue / RefClaims (the reference's run is the specification), KernelKit / KernelRunA / KernelRunB /
  KernelFrame and their KernelIdeal twins (the launch, the body run symbolically at a first and at a last K-block,
  the invariant carrying the accumulators, the frame), KernelIdealPieces (the stores' payloads read back), KPay /
  KHost / KernelIdealBlocks (payloads, host re-layouts and window blocks read at an index), KCell and
  KernelIdealPoint (one result entry is the cell), KernelIdealFinal (blocks cover the arrays; the claim).
-/
import proofs.«153991_j82282983457013_2_alg».proof.Defs
import proofs.«153991_j82282983457013_2_alg».proof.Proof.Gen.Kernel
import proofs.«153991_j82282983457013_2_alg».proof.Proof.Gen.KernelIdeal
import proofs.«153991_j82282983457013_2_alg».proof.Proof.Gen.ReferenceIdeal
import proofs.«153991_j82282983457013_2_alg».proof.Proof.Gen.Pre_finite_inputs
import proofs.«153991_j82282983457013_2_alg».proof.Proof.KernelFrame
import proofs.«153991_j82282983457013_2_alg».proof.Proof.KernelIdealFrame
import proofs.«153991_j82282983457013_2_alg».proof.Proof.KernelIdealPoint
import proofs.«153991_j82282983457013_2_alg».proof.Proof.KernelIdealFinal
import proofs.«153991_j82282983457013_2_alg».proof.Proof.RefClaims
import Idealize.ShloMosaic.Adequacy
import Idealize.ShloMosaic.Init

noncomputable section

namespace Cert.Proof

open Idealize.ShloMosaic Idealize.SL.Sem

/-- The kernel as printed runs to the end and leaves its arguments unchanged. -/
theorem frame_k : Cert.frame_Kernel := fun m ρ _ => Cert.Kernel.Fr.frame m ρ

/-- So does its reading on the extended reals. -/
theorem frame_ki : Cert.frame_KernelIdeal := fun m ρ _ => Cert.KernelIdeal.Fr.frame m ρ

/-- Both programs end with the LSTM cell of their (agreeing) arguments. -/
theorem algebraic : Cert.algebraic_KernelIdeal_ReferenceIdeal :=
  Cert.KernelIdeal.Fin.algebraic (fun m c t h1 p q => Cert.KernelIdeal.Pt.pointH m c t h1 p q)
    (fun m c t h1 p q => Cert.KernelIdeal.Pt.pointC m c t h1 p q)

theorem claim : Cert.Claim := ⟨Cert.Kernel.Gen.facts, Cert.KernelIdeal.Gen.facts, Cert.ReferenceIdeal.Gen.facts, Cert.Pre_finite_inputs.Gen.facts,
  frame_k, frame_ki, Cert.ReferenceIdeal.RefValue.frame_ri, trivial, algebraic⟩

end Cert.Proof

end
